-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v110)) (v1 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_v104) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x50 : Shape := ⟨2, ![4096, 50]⟩
abbrev S4096x32 : Shape := ⟨2, ![4096, 32]⟩
abbrev S4096x200 : Shape := ⟨2, ![4096, 200]⟩
abbrev S200000x64 : Shape := ⟨2, ![200000, 64]⟩
abbrev S100000x64 : Shape := ⟨2, ![100000, 64]⟩
abbrev S160x128 : Shape := ⟨2, ![160, 128]⟩
abbrev S128 : Shape := ⟨1, ![128]⟩
abbrev S128x64 : Shape := ⟨2, ![128, 64]⟩
abbrev S64 : Shape := ⟨1, ![64]⟩
abbrev S96x128 : Shape := ⟨2, ![96, 128]⟩
abbrev S64x8384 : Shape := ⟨2, ![64, 8384]⟩
abbrev S8384 : Shape := ⟨1, ![8384]⟩
abbrev S192x64 : Shape := ⟨2, ![192, 64]⟩
abbrev S_ : Shape := ⟨0, ![]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S100000x64 : S_.BroadcastsInDim S100000x64 (![] : Fin 0 → Fin S100000x64.rank)
  reducesTo_S100000x64_S_d0_1 : S100000x64.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S96x128 : S_.BroadcastsInDim S96x128 (![] : Fin 0 → Fin S96x128.rank)
  reducesTo_S96x128_S_d0_1 : S96x128.ReducesTo [0, 1] S_
  bcast_S_S64x8384 : S_.BroadcastsInDim S64x8384 (![] : Fin 0 → Fin S64x8384.rank)
  reducesTo_S64x8384_S_d0_1 : S64x8384.ReducesTo [0, 1] S_
  bcast_S_S8384 : S_.BroadcastsInDim S8384 (![] : Fin 0 → Fin S8384.rank)
  reducesTo_S8384_S_d0 : S8384.ReducesTo [0] S_
  bcast_S_S192x64 : S_.BroadcastsInDim S192x64 (![] : Fin 0 → Fin S192x64.rank)
  reducesTo_S192x64_S_d0_1 : S192x64.ReducesTo [0, 1] S_

variable [Facts]

def fn_part4 {F : FTy → Type} [FloatOps F] (main_arg22 : FVec F S64x8384 .f32) (main_arg23 : FVec F S8384 .f32) (main_arg24 : FVec F S192x64 .f32) (main_v63 : IVec S_ 1) (main_v67 : IVec S_ 1) : IVec S_ 1 :=
  let main_v68 : IVec S_ 1 := andi main_v63 main_v67
  let main_v69 : FVec F S64x8384 .f32 := Host.absf main_arg22
  let main_cst_26 : FVec F S_ .f32 := constant S_ .f32 0x7F800000#32
  let main_v70 : FVec F S64x8384 .f32 := broadcastInDim S64x8384 ![] bcast_S_S64x8384 main_cst_26
  let main_v71 : IVec S64x8384 1 := cmpf .olt main_v69 main_v70
  let main_c_27 : IVec S_ 1 := constantI S_ 1 1#1
  let main_v72 : IVec S_ 1 := (fun x v => Host.reduce IntOp.andi x v reducesTo_S64x8384_S_d0_1 h_S_) main_v71 main_c_27
  let main_v73 : IVec S_ 1 := andi main_v68 main_v72
  let main_v74 : FVec F S8384 .f32 := Host.absf main_arg23
  let main_cst_28 : FVec F S_ .f32 := constant S_ .f32 0x7F800000#32
  let main_v75 : FVec F S8384 .f32 := broadcastInDim S8384 ![] bcast_S_S8384 main_cst_28
  let main_v76 : IVec S8384 1 := cmpf .olt main_v74 main_v75
  let main_c_29 : IVec S_ 1 := constantI S_ 1 1#1
  let main_v77 : IVec S_ 1 := (fun x v => Host.reduce IntOp.andi x v reducesTo_S8384_S_d0 h_S_) main_v76 main_c_29
  let main_v78 : IVec S_ 1 := andi main_v73 main_v77
  let main_v79 : FVec F S192x64 .f32 := Host.absf main_arg24
  let main_cst_30 : FVec F S_ .f32 := constant S_ .f32 0x7F800000#32
  let main_v80 : FVec F S192x64 .f32 := broadcastInDim S192x64 ![] bcast_S_S192x64 main_cst_30
  let main_v81 : IVec S192x64 1 := cmpf .olt main_v79 main_v80
  let main_c_31 : IVec S_ 1 := constantI S_ 1 1#1
  let main_v82 : IVec S_ 1 := (fun x v => Host.reduce IntOp.andi x v reducesTo_S192x64_S_d0_1 h_S_) main_v81 main_c_31
  let main_v83 : IVec S_ 1 := andi main_v78 main_v82
  main_v83

def fn_part3 {F : FTy → Type} [FloatOps F] (main_arg19 : FVec F S128 .f32) (main_arg20 : FVec F S128x64 .f32) (main_arg21 : FVec F S64 .f32) (main_arg22 : FVec F S64x8384 .f32) (main_arg23 : FVec F S8384 .f32) (main_arg24 : FVec F S192x64 .f32) (main_v48 : IVec S_ 1) (main_v49 : FVec F S96x128 .f32) (main_v50 : FVec F S96x128 .f32) : IVec S_ 1 :=
  let main_v51 : IVec S96x128 1 := cmpf .olt main_v49 main_v50
  let main_c_19 : IVec S_ 1 := constantI S_ 1 1#1
  let main_v52 : IVec S_ 1 := (fun x v => Host.reduce IntOp.andi x v reducesTo_S96x128_S_d0_1 h_S_) main_v51 main_c_19
  let main_v53 : IVec S_ 1 := andi main_v48 main_v52
  let main_v54 : FVec F S128 .f32 := Host.absf main_arg19
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg20
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg21
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg22 main_arg23 main_arg24 main_v63 main_v67

def fn_part2 {F : FTy → Type} [FloatOps F] (main_arg15 : FVec F S128 .f32) (main_arg16 : FVec F S128x64 .f32) (main_arg17 : FVec F S64 .f32) (main_arg18 : FVec F S96x128 .f32) (main_arg19 : FVec F S128 .f32) (main_arg20 : FVec F S128x64 .f32) (main_arg21 : FVec F S64 .f32) (main_arg22 : FVec F S64x8384 .f32) (main_arg23 : FVec F S8384 .f32) (main_arg24 : FVec F S192x64 .f32) (main_v33 : IVec S_ 1) : IVec S_ 1 :=
  let main_v34 : FVec F S128 .f32 := Host.absf main_arg15
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg16
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg17
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S96x128 .f32 := Host.absf main_arg18
  let main_cst_18 : FVec F S_ .f32 := constant S_ .f32 0x7F800000#32
  let main_v50 : FVec F S96x128 .f32 := broadcastInDim S96x128 ![] bcast_S_S96x128 main_cst_18
  fn_part3 (F := F) main_arg19 main_arg20 main_arg21 main_arg22 main_arg23 main_arg24 main_v48 main_v49 main_v50

def fn_part1 {F : FTy → Type} [FloatOps F] (main_arg12 : FVec F S100000x64 .f32) (main_arg13 : FVec F S200000x64 .f32) (main_arg14 : FVec F S160x128 .f32) (main_arg15 : FVec F S128 .f32) (main_arg16 : FVec F S128x64 .f32) (main_arg17 : FVec F S64 .f32) (main_arg18 : FVec F S96x128 .f32) (main_arg19 : FVec F S128 .f32) (main_arg20 : FVec F S128x64 .f32) (main_arg21 : FVec F S64 .f32) (main_arg22 : FVec F S64x8384 .f32) (main_arg23 : FVec F S8384 .f32) (main_arg24 : FVec F S192x64 .f32) (main_v13 : IVec S_ 1) (main_v16 : IVec S100000x64 1) : IVec S_ 1 :=
  let main_c_5 : IVec S_ 1 := constantI S_ 1 1#1
  let main_v17 : IVec S_ 1 := (fun x v => Host.reduce IntOp.andi x v reducesTo_S100000x64_S_d0_1 h_S_) main_v16 main_c_5
  let main_v18 : IVec S_ 1 := andi main_v13 main_v17
  let main_v19 : FVec F S100000x64 .f32 := Host.absf main_arg12
  let main_cst_6 : FVec F S_ .f32 := constant S_ .f32 0x7F800000#32
  let main_v20 : FVec F S100000x64 .f32 := broadcastInDim S100000x64 ![] bcast_S_S100000x64 main_cst_6
  let main_v21 : IVec S100000x64 1 := cmpf .olt main_v19 main_v20
  let main_c_7 : IVec S_ 1 := constantI S_ 1 1#1
  let main_v22 : IVec S_ 1 := (fun x v => Host.reduce IntOp.andi x v reducesTo_S100000x64_S_d0_1 h_S_) main_v21 main_c_7
  let main_v23 : IVec S_ 1 := andi main_v18 main_v22
  let main_v24 : FVec F S200000x64 .f32 := Host.absf main_arg13
  let main_cst_8 : FVec F S_ .f32 := constant S_ .f32 0x7F800000#32
  let main_v25 : FVec F S200000x64 .f32 := broadcastInDim S200000x64 ![] bcast_S_S200000x64 main_cst_8
  let main_v26 : IVec S200000x64 1 := cmpf .olt main_v24 main_v25
  let main_c_9 : IVec S_ 1 := constantI S_ 1 1#1
  let main_v27 : IVec S_ 1 := (fun x v => Host.reduce IntOp.andi x v reducesTo_S200000x64_S_d0_1 h_S_) main_v26 main_c_9
  let main_v28 : IVec S_ 1 := andi main_v23 main_v27
  let main_v29 : FVec F S160x128 .f32 := Host.absf main_arg14
  let main_cst_10 : FVec F S_ .f32 := constant S_ .f32 0x7F800000#32
  let main_v30 : FVec F S160x128 .f32 := broadcastInDim S160x128 ![] bcast_S_S160x128 main_cst_10
  let main_v31 : IVec S160x128 1 := cmpf .olt main_v29 main_v30
  let main_c_11 : IVec S_ 1 := constantI S_ 1 1#1
  let main_v32 : IVec S_ 1 := (fun x v => Host.reduce IntOp.andi x v reducesTo_S160x128_S_d0_1 h_S_) main_v31 main_c_11
  let main_v33 : IVec S_ 1 := andi main_v28 main_v32
  fn_part2 (F := F) main_arg15 main_arg16 main_arg17 main_arg18 main_arg19 main_arg20 main_arg21 main_arg22 main_arg23 main_arg24 main_v33

def fn {F : FTy → Type} [FloatOps F] (main_arg0 : IVec S4096 32) (main_arg1 : IVec S4096 32) (main_arg2 : IVec S4096x50 32) (main_arg3 : IVec S4096 32) (main_arg4 : FVec F S4096x32 .f32) (main_arg5 : FVec F S4096x32 .f32) (main_arg6 : IVec S4096x200 32) (main_arg7 : IVec S4096x200 32) (main_arg8 : IVec S4096x200 32) (main_arg9 : IVec S4096x200 32) (main_arg10 : FVec F S200000x64 .f32) (main_arg11 : FVec F S100000x64 .f32) (main_arg12 : FVec F S100000x64 .f32) (main_arg13 : FVec F S200000x64 .f32) (main_arg14 : FVec F S160x128 .f32) (main_arg15 : FVec F S128 .f32) (main_arg16 : FVec F S128x64 .f32) (main_arg17 : FVec F S64 .f32) (main_arg18 : FVec F S96x128 .f32) (main_arg19 : FVec F S128 .f32) (main_arg20 : FVec F S128x64 .f32) (main_arg21 : FVec F S64 .f32) (main_arg22 : FVec F S64x8384 .f32) (main_arg23 : FVec F S8384 .f32) (main_arg24 : FVec F S192x64 .f32) : IVec S_ 1 :=
  let main_v0 : FVec F S4096x32 .f32 := Host.absf main_arg4
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_c : IVec S_ 1 := constantI S_ 1 1#1
  let main_v3 : IVec S_ 1 := (fun x v => Host.reduce IntOp.andi x v reducesTo_S4096x32_S_d0_1 h_S_) main_v2 main_c
  let main_v4 : FVec F S4096x32 .f32 := Host.absf main_arg5
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S200000x64 .f32 := Host.absf main_arg10
  let main_cst_2 : FVec F S_ .f32 := constant S_ .f32 0x7F800000#32
  let main_v10 : FVec F S200000x64 .f32 := broadcastInDim S200000x64 ![] bcast_S_S200000x64 main_cst_2
  let main_v11 : IVec S200000x64 1 := cmpf .olt main_v9 main_v10
  let main_c_3 : IVec S_ 1 := constantI S_ 1 1#1
  let main_v12 : IVec S_ 1 := (fun x v => Host.reduce IntOp.andi x v reducesTo_S200000x64_S_d0_1 h_S_) main_v11 main_c_3
  let main_v13 : IVec S_ 1 := andi main_v8 main_v12
  let main_v14 : FVec F S100000x64 .f32 := Host.absf main_arg11
  let main_cst_4 : FVec F S_ .f32 := constant S_ .f32 0x7F800000#32
  let main_v15 : FVec F S100000x64 .f32 := broadcastInDim S100000x64 ![] bcast_S_S100000x64 main_cst_4
  let main_v16 : IVec S100000x64 1 := cmpf .olt main_v14 main_v15
  fn_part1 (F := F) main_arg12 main_arg13 main_arg14 main_arg15 main_arg16 main_arg17 main_arg18 main_arg19 main_arg20 main_arg21 main_arg22 main_arg23 main_arg24 main_v13 main_v16
-- ==== Kernel.lean ====
abbrev S4096 : Shape := ⟨1, ![4096]⟩
abbrev S4096x50 : Shape := ⟨2, ![4096, 50]⟩
abbrev S4096x32 : Shape := ⟨2, ![4096, 32]⟩
abbrev S4096x200 : Shape := ⟨2, ![4096, 200]⟩
abbrev S200000x64 : Shape := ⟨2, ![200000, 64]⟩
abbrev S100000x64 : Shape := ⟨2, ![100000, 64]⟩
abbrev S160x128 : Shape := ⟨2, ![160, 128]⟩
abbrev S128 : Shape := ⟨1, ![128]⟩
abbrev S128x64 : Shape := ⟨2, ![128, 64]⟩
abbrev S64 : Shape := ⟨1, ![64]⟩
abbrev S96x128 : Shape := ⟨2, ![96, 128]⟩
abbrev S64x8384 : Shape := ⟨2, ![64, 8384]⟩
abbrev S8384 : Shape := ⟨1, ![8384]⟩
abbrev S192x64 : Shape := ⟨2, ![192, 64]⟩
abbrev S_ : Shape := ⟨0, ![]⟩
abbrev S4096x1 : Shape := ⟨2, ![4096, 1]⟩
abbrev S4096x64 : Shape := ⟨2, ![4096, 64]⟩
abbrev S4096x50x1 : Shape := ⟨3, ![4096, 50, 1]⟩
abbrev S4096x50x64 : Shape := ⟨3, ![4096, 50, 64]⟩
abbrev S50 : Shape := ⟨1, ![50]⟩
abbrev S1x50 : Shape := ⟨2, ![1, 50]⟩
abbrev S4096x160 : Shape := ⟨2, ![4096, 160]⟩
abbrev S4096x128 : Shape := ⟨2, ![4096, 128]⟩
abbrev S1x128 : Shape := ⟨2, ![1, 128]⟩
abbrev S1x64 : Shape := ⟨2, ![1, 64]⟩
abbrev S4096x96 : Shape := ⟨2, ![4096, 96]⟩
abbrev S4096x200x1 : Shape := ⟨3, ![4096, 200, 1]⟩
abbrev S4096x200x64 : Shape := ⟨3, ![4096, 200, 64]⟩
abbrev S64x64 : Shape := ⟨2, ![64, 64]⟩
abbrev S64x8320 : Shape := ⟨2, ![64, 8320]⟩
abbrev S8320 : Shape := ⟨1, ![8320]⟩
abbrev S1x8320 : Shape := ⟨2, ![1, 8320]⟩
abbrev S64x200x64 : Shape := ⟨3, ![64, 200, 64]⟩
abbrev S64x200 : Shape := ⟨2, ![64, 200]⟩
abbrev S64x4096 : Shape := ⟨2, ![64, 4096]⟩
abbrev S64x64x64 : Shape := ⟨3, ![64, 64, 64]⟩
abbrev S64x200x1 : Shape := ⟨3, ![64, 200, 1]⟩
abbrev S64x1x64 : Shape := ⟨3, ![64, 1, 64]⟩
abbrev S4096x192 : Shape := ⟨2, ![4096, 192]⟩

abbrev nBuf : Space → Nat
  | .hbm => 178
  | .vmem => 20
  | .smem => 0
  | _ => 0

abbrev hbmTy0_0 (i : Nat) : BufTy := match i % 128 with
  | 0 => ⟨S4096, .i32⟩
  | 1 => ⟨S4096, .i32⟩
  | 2 => ⟨S4096x50, .i32⟩
  | 3 => ⟨S4096, .i32⟩
  | 4 => ⟨S4096x32, .f32⟩
  | 5 => ⟨S4096x32, .f32⟩
  | 6 => ⟨S4096x200, .i32⟩
  | 7 => ⟨S4096x200, .i32⟩
  | 8 => ⟨S4096x200, .i32⟩
  | 9 => ⟨S4096x200, .i32⟩
  | 10 => ⟨S200000x64, .f32⟩
  | 11 => ⟨S100000x64, .f32⟩
  | 12 => ⟨S100000x64, .f32⟩
  | 13 => ⟨S200000x64, .f32⟩
  | 14 => ⟨S160x128, .f32⟩
  | 15 => ⟨S128, .f32⟩
  | 16 => ⟨S128x64, .f32⟩
  | 17 => ⟨S64, .f32⟩
  | 18 => ⟨S96x128, .f32⟩
  | 19 => ⟨S128, .f32⟩
  | 20 => ⟨S128x64, .f32⟩
  | 21 => ⟨S64, .f32⟩
  | 22 => ⟨S64x8384, .f32⟩
  | 23 => ⟨S8384, .f32⟩
  | 24 => ⟨S192x64, .f32⟩
  | 25 => ⟨S_, .i32⟩
  | 26 => ⟨S4096, .i32⟩
  | 27 => ⟨S4096, .i1⟩
  | 28 => ⟨S_, .i32⟩
  | 29 => ⟨S4096, .i32⟩
  | 30 => ⟨S4096, .i32⟩
  | 31 => ⟨S4096, .i32⟩
  | 32 => ⟨S4096x1, .i32⟩
  | 33 => ⟨S4096x64, .f32⟩
  | 34 => ⟨S_, .i32⟩
  | 35 => ⟨S4096x50, .i32⟩
  | 36 => ⟨S4096x50, .i1⟩
  | 37 => ⟨S_, .i32⟩
  | 38 => ⟨S4096x50, .i32⟩
  | 39 => ⟨S4096x50, .i32⟩
  | 40 => ⟨S4096x50, .i32⟩
  | 41 => ⟨S4096x50x1, .i32⟩
  | 42 => ⟨S4096x50x64, .f32⟩
  | 43 => ⟨S50, .i32⟩
  | 44 => ⟨S1x50, .i32⟩
  | 45 => ⟨S4096x1, .i32⟩
  | 46 => ⟨S4096x50, .i32⟩
  | 47 => ⟨S4096x50, .i32⟩
  | 48 => ⟨S4096x50, .i1⟩
  | 49 => ⟨S4096x50, .f32⟩
  | 50 => ⟨S4096x50x1, .f32⟩
  | 51 => ⟨S4096x50x64, .f32⟩
  | 52 => ⟨S4096x50x64, .f32⟩
  | 53 => ⟨S_, .f32⟩
  | 54 => ⟨S4096x64, .f32⟩
  | 55 => ⟨S_, .i32⟩
  | 56 => ⟨S4096, .i32⟩
  | 57 => ⟨S4096, .i32⟩
  | 58 => ⟨S4096, .f32⟩
  | 59 => ⟨S4096x1, .f32⟩
  | 60 => ⟨S4096x64, .f32⟩
  | 61 => ⟨S4096x64, .f32⟩
  | 62 => ⟨S4096x160, .f32⟩
  | 63 => ⟨S4096x128, .f32⟩
  | 64 => ⟨S1x128, .f32⟩
  | 65 => ⟨S4096x128, .f32⟩
  | 66 => ⟨S4096x128, .f32⟩
  | 67 => ⟨S_, .f32⟩
  | 68 => ⟨S4096x128, .f32⟩
  | 69 => ⟨S4096x128, .f32⟩
  | 70 => ⟨S4096x64, .f32⟩
  | 71 => ⟨S1x64, .f32⟩
  | 72 => ⟨S4096x64, .f32⟩
  | 73 => ⟨S4096x64, .f32⟩
  | 74 => ⟨S_, .f32⟩
  | 75 => ⟨S4096x64, .f32⟩
  | 76 => ⟨S4096x64, .f32⟩
  | 77 => ⟨S_, .i32⟩
  | 78 => ⟨S4096, .i32⟩
  | 79 => ⟨S4096, .i1⟩
  | 80 => ⟨S_, .i32⟩
  | 81 => ⟨S4096, .i32⟩
  | 82 => ⟨S4096, .i32⟩
  | 83 => ⟨S4096, .i32⟩
  | 84 => ⟨S4096x1, .i32⟩
  | 85 => ⟨S4096x64, .f32⟩
  | 86 => ⟨S4096x96, .f32⟩
  | 87 => ⟨S4096x128, .f32⟩
  | 88 => ⟨S1x128, .f32⟩
  | 89 => ⟨S4096x128, .f32⟩
  | 90 => ⟨S4096x128, .f32⟩
  | 91 => ⟨S_, .f32⟩
  | 92 => ⟨S4096x128, .f32⟩
  | 93 => ⟨S4096x128, .f32⟩
  | 94 => ⟨S4096x64, .f32⟩
  | 95 => ⟨S1x64, .f32⟩
  | 96 => ⟨S4096x64, .f32⟩
  | 97 => ⟨S4096x64, .f32⟩
  | 98 => ⟨S_, .f32⟩
  | 99 => ⟨S4096x64, .f32⟩
  | 100 => ⟨S4096x64, .f32⟩
  | 101 => ⟨S_, .i32⟩
  | 102 => ⟨S4096, .i32⟩
  | 103 => ⟨S4096, .i1⟩
  | 104 => ⟨S_, .i32⟩
  | 105 => ⟨S4096, .i32⟩
  | 106 => ⟨S4096, .i32⟩
  | 107 => ⟨S4096, .i32⟩
  | 108 => ⟨S4096x1, .i32⟩
  | 109 => ⟨S4096x64, .f32⟩
  | 110 => ⟨S4096x64, .bf16⟩
  | 111 => ⟨S200000x64, .bf16⟩
  | 112 => ⟨S_, .i32⟩
  | 113 => ⟨S4096x200, .i32⟩
  | 114 => ⟨S4096x200, .i1⟩
  | 115 => ⟨S_, .i32⟩
  | 116 => ⟨S4096x200, .i32⟩
  | 117 => ⟨S4096x200, .i32⟩
  | 118 => ⟨S4096x200, .i32⟩
  | 119 => ⟨S4096x200x1, .i32⟩
  | 120 => ⟨S4096x200x64, .bf16⟩
  | 121 => ⟨S_, .i32⟩
  | 122 => ⟨S4096x200, .i32⟩
  | 123 => ⟨S4096x200, .i1⟩
  | 124 => ⟨S_, .i32⟩
  | 125 => ⟨S4096x200, .i32⟩
  | 126 => ⟨S4096x200, .i32⟩
  | 127 => ⟨S4096x200, .i32⟩
  | _ => ⟨S4096, .i32⟩

abbrev hbmTy0_1 (i : Nat) : BufTy := match i % 128 with
  | 0 => ⟨S4096x200x1, .i32⟩
  | 1 => ⟨S4096x200x64, .bf16⟩
  | 2 => ⟨S4096x200, .f32⟩
  | 3 => ⟨S4096x200, .f32⟩
  | 4 => ⟨S64x64, .f32⟩
  | 5 => ⟨S64x64, .bf16⟩
  | 6 => ⟨S64x8320, .f32⟩
  | 7 => ⟨S64x8320, .bf16⟩
  | 8 => ⟨S64, .f32⟩
  | 9 => ⟨S1x64, .f32⟩
  | 10 => ⟨S8320, .f32⟩
  | 11 => ⟨S1x8320, .f32⟩
  | 12 => ⟨S4096x64, .f32⟩
  | 13 => ⟨S4096x64, .f32⟩
  | 14 => ⟨S4096x64, .f32⟩
  | 15 => ⟨S_, .f32⟩
  | 16 => ⟨S4096, .f32⟩
  | 17 => ⟨S4096x1, .f32⟩
  | 18 => ⟨S_, .f32⟩
  | 19 => ⟨S4096, .f32⟩
  | 20 => ⟨S4096x1, .f32⟩
  | 21 => ⟨S4096x64, .f32⟩
  | 22 => ⟨S4096x64, .f32⟩
  | 23 => ⟨S4096x64, .f32⟩
  | 24 => ⟨S4096x64, .f32⟩
  | 25 => ⟨S4096x64, .f32⟩
  | 26 => ⟨S4096x64, .f32⟩
  | 27 => ⟨S_, .f32⟩
  | 28 => ⟨S4096x64, .f32⟩
  | 29 => ⟨S4096x64, .f32⟩
  | 30 => ⟨S4096x64, .f32⟩
  | 31 => ⟨S4096x64, .f32⟩
  | 32 => ⟨S4096x64, .i1⟩
  | 33 => ⟨S4096x64, .f32⟩
  | 34 => ⟨S4096x64, .f32⟩
  | 35 => ⟨S4096x64, .f32⟩
  | 36 => ⟨S4096x64, .f32⟩
  | 37 => ⟨S4096x64, .f32⟩
  | 38 => ⟨S4096x64, .f32⟩
  | 39 => ⟨S4096x64, .f32⟩
  | 40 => ⟨S4096x64, .f32⟩
  | 41 => ⟨S4096x192, .f32⟩
  | 42 => ⟨S4096x64, .f32⟩
  | 43 => ⟨S_, .f32⟩
  | 44 => ⟨S4096x64, .f32⟩
  | 45 => ⟨S4096x64, .f32⟩
  | 46 => ⟨S4096x64, .f32⟩
  | 47 => ⟨S_, .f32⟩
  | 48 => ⟨S4096, .f32⟩
  | 49 => ⟨S4096x1, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | .local _ .vmem, ⟨0, _⟩ => ⟨S64x64, .bf16⟩
  | .local _ .vmem, ⟨1, _⟩ => ⟨S64x64, .bf16⟩
  | .local _ .vmem, ⟨2, _⟩ => ⟨S64x64, .bf16⟩
  | .local _ .vmem, ⟨3, _⟩ => ⟨S1x64, .f32⟩
  | .local _ .vmem, ⟨4, _⟩ => ⟨S64x8320, .bf16⟩
  | .local _ .vmem, ⟨5, _⟩ => ⟨S1x8320, .f32⟩
  | .local _ .vmem, ⟨6, _⟩ => ⟨S64x200x64, .bf16⟩
  | .local _ .vmem, ⟨7, _⟩ => ⟨S64x200x64, .bf16⟩
  | .local _ .vmem, ⟨8, _⟩ => ⟨S64x200x64, .bf16⟩
  | .local _ .vmem, ⟨9, _⟩ => ⟨S64x200x64, .bf16⟩
  | .local _ .vmem, ⟨10, _⟩ => ⟨S64x200, .f32⟩
  | .local _ .vmem, ⟨11, _⟩ => ⟨S64x200, .f32⟩
  | .local _ .vmem, ⟨12, _⟩ => ⟨S64x200, .f32⟩
  | .local _ .vmem, ⟨13, _⟩ => ⟨S64x200, .f32⟩
  | .local _ .vmem, ⟨14, _⟩ => ⟨S64x64, .f32⟩
  | .local _ .vmem, ⟨15, _⟩ => ⟨S64x64, .f32⟩
  | .local _ .vmem, ⟨16, _⟩ => ⟨S64x64, .f32⟩
  | .local _ .vmem, ⟨17, _⟩ => ⟨S64x64, .f32⟩
  | .local _ .vmem, ⟨18, _⟩ => ⟨S64x64, .f32⟩
  | .local _ .vmem, ⟨19, _⟩ => ⟨S64x64, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_v0 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_c_1 : Ref sig .tc := ⟨.hbm, 34, rfl⟩
abbrev main_v7 : Ref sig .tc := ⟨.hbm, 35, rfl⟩
abbrev main_v8 : Ref sig .tc := ⟨.hbm, 36, rfl⟩
abbrev main_c_2 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst : Ref sig .tc := ⟨.hbm, 53, rfl⟩
abbrev main_v24 : Ref sig .tc := ⟨.hbm, 54, rfl⟩
abbrev main_c_3 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_call0_cst : Ref sig .tc := ⟨.hbm, 67, rfl⟩
abbrev main_call0_v0 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_call1_cst : Ref sig .tc := ⟨.hbm, 74, rfl⟩
abbrev main_call1_v0 : Ref sig .tc := ⟨.hbm, 75, rfl⟩
abbrev main_v41 : Ref sig .tc := ⟨.hbm, 76, rfl⟩
abbrev main_c_4 : Ref sig .tc := ⟨.hbm, 77, rfl⟩
abbrev main_v42 : Ref sig .tc := ⟨.hbm, 78, rfl⟩
abbrev main_v43 : Ref sig .tc := ⟨.hbm, 79, rfl⟩
abbrev main_c_5 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_call2_cst : Ref sig .tc := ⟨.hbm, 91, rfl⟩
abbrev main_call2_v0 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_call3_cst : Ref sig .tc := ⟨.hbm, 98, rfl⟩
abbrev main_call3_v0 : Ref sig .tc := ⟨.hbm, 99, rfl⟩
abbrev main_v59 : Ref sig .tc := ⟨.hbm, 100, rfl⟩
abbrev main_c_6 : Ref sig .tc := ⟨.hbm, 101, rfl⟩
abbrev main_v60 : Ref sig .tc := ⟨.hbm, 102, rfl⟩
abbrev main_v61 : Ref sig .tc := ⟨.hbm, 103, rfl⟩
abbrev main_c_7 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_c_8 : Ref sig .tc := ⟨.hbm, 112, rfl⟩
abbrev main_v69 : Ref sig .tc := ⟨.hbm, 113, rfl⟩
abbrev main_v70 : Ref sig .tc := ⟨.hbm, 114, rfl⟩
abbrev main_c_9 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_c_10 : Ref sig .tc := ⟨.hbm, 121, rfl⟩
abbrev main_v76 : Ref sig .tc := ⟨.hbm, 122, rfl⟩
abbrev main_v77 : Ref sig .tc := ⟨.hbm, 123, rfl⟩
abbrev main_c_11 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93_0 : Ref sig .tc := ⟨.hbm, 140, rfl⟩
abbrev main_v93_1 : Ref sig .tc := ⟨.hbm, 141, rfl⟩
abbrev main_v93_2 : Ref sig .tc := ⟨.hbm, 142, rfl⟩
abbrev main_cst_12 : Ref sig .tc := ⟨.hbm, 143, rfl⟩
abbrev main_v94 : Ref sig .tc := ⟨.hbm, 144, rfl⟩
abbrev main_v95 : Ref sig .tc := ⟨.hbm, 145, rfl⟩
abbrev main_cst_13 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_call4_cst : Ref sig .tc := ⟨.hbm, 155, rfl⟩
abbrev main_call4_v0 : Ref sig .tc := ⟨.hbm, 156, rfl⟩
abbrev main_call4_v1 : Ref sig .tc := ⟨.hbm, 157, rfl⟩
abbrev main_call4_v2 : Ref sig .tc := ⟨.hbm, 158, rfl⟩
abbrev main_call4_v3 : Ref sig .tc := ⟨.hbm, 159, rfl⟩
abbrev main_call4_v4 : Ref sig .tc := ⟨.hbm, 160, rfl⟩
abbrev main_call4_v5 : Ref sig .tc := ⟨.hbm, 161, rfl⟩
abbrev main_call4_v6 : Ref sig .tc := ⟨.hbm, 162, rfl⟩
abbrev main_call4_v7 : Ref sig .tc := ⟨.hbm, 163, rfl⟩
abbrev main_call4_v8 : Ref sig .tc := ⟨.hbm, 164, rfl⟩
abbrev main_call4_v9 : Ref sig .tc := ⟨.hbm, 165, rfl⟩
abbrev main_call4_v10 : Ref sig .tc := ⟨.hbm, 166, rfl⟩
abbrev main_call4_v11 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_call5_cst : Ref sig .tc := ⟨.hbm, 171, rfl⟩
abbrev main_call5_v0 : Ref sig .tc := ⟨.hbm, 172, rfl⟩
abbrev main_v107 : Ref sig .tc := ⟨.hbm, 173, rfl⟩
abbrev main_v108 : Ref sig .tc := ⟨.hbm, 174, rfl⟩
abbrev main_cst_14 : Ref sig .tc := ⟨.hbm, 175, rfl⟩
abbrev main_v109 : Ref sig .tc := ⟨.hbm, 176, rfl⟩
abbrev main_v110 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x8320 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x200x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x200x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x200 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x200 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S50_S1x50_1 : S50.BroadcastsInDim S1x50 (![1] : Fin 1 → Fin S1x50.rank)
  bcast_S1x50_S4096x50_0_1 : S1x50.BroadcastsInDim S4096x50 (![0, 1] : Fin 2 → Fin S4096x50.rank)
  bcast_S4096x1_S4096x50_0_1 : S4096x1.BroadcastsInDim S4096x50 (![0, 1] : Fin 2 → Fin S4096x50.rank)
  bcast_S4096x50x1_S4096x50x64_0_1_2 : S4096x50x1.BroadcastsInDim S4096x50x64 (![0, 1, 2] : Fin 3 → Fin S4096x50x64.rank)
  reducesTo_S4096x50x64_S4096x64_d1 : S4096x50x64.ReducesTo [1] S4096x64
  h_S_ : 0 < S_.numel
  bcast_S4096x1_S4096x64_0_1 : S4096x1.BroadcastsInDim S4096x64 (![0, 1] : Fin 2 → Fin S4096x64.rank)
  concatenates_S4096x64_S4096x64_S4096x32_S4096x160_d1 : Shape.Concatenates [S4096x64, S4096x64, S4096x32] S4096x160 1
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  concatenates_S4096x64_S4096x32_S4096x96_d1 : Shape.Concatenates [S4096x64, S4096x32] S4096x96 1
  bitsLt_bf16_f32 : FTy.bits .bf16 < FTy.bits .f32
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  slices_S64x8384_S64x64_0_0 : S64x8384.Slices ![0, 0] S64x64
  slices_S64x8384_S64x8320_0_64 : S64x8384.Slices ![0, 64] S64x8320
  slices_S8384_S64_0 : S8384.Slices ![0] S64
  shapeCasts_S64_S1x64 : S64.ShapeCasts S1x64
  slices_S8384_S8320_64 : S8384.Slices ![64] S8320
  shapeCasts_S8320_S1x8320 : S8320.ShapeCasts S1x8320
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x8320_S64x8320_0_0 : ∀ a, (![0, 0] : Fin 2 → Nat) a + S64x8320.size a ≤ S64x8320.size a
  h_S64x8320 : 0 < S64x8320.numel
  shapeCasts_S64x8320_S64x8320 : S64x8320.ShapeCasts S64x8320
  inb_S1x8320_S1x8320_0_0 : ∀ a, (![0, 0] : Fin 2 → Nat) a + S1x8320.size a ≤ S1x8320.size a
  h_S1x8320 : 0 < S1x8320.numel
  shapeCasts_S1x8320_S1x8320 : S1x8320.ShapeCasts S1x8320
  broadcasts_S1x64_S64x64 : S1x64.Broadcasts S64x64
  broadcasts_S1x8320_S64x8320 : S1x8320.Broadcasts S64x8320
  slices_S64x8320_o0_0_S64x4096 : S64x8320.Slices ![0, 0] S64x4096
  shapeCasts_S64x4096_S64x64x64 : S64x4096.ShapeCasts S64x64x64
  slices_S64x8320_o0_4096_S64x64 : S64x8320.Slices ![0, 4096] S64x64
  slices_S64x8320_o0_4160_S64x4096 : S64x8320.Slices ![0, 4160] S64x4096
  slices_S64x8320_o0_8256_S64x64 : S64x8320.Slices ![0, 8256] S64x64
  shapeCasts_S64x64_S64x1x64 : S64x64.ShapeCasts S64x1x64
  inb_S64x200x64_S64x200x64_0_0_0 : ∀ a, (![0, 0, 0] : Fin 3 → Nat) a + S64x200x64.size a ≤ S64x200x64.size a
  h_S64x200x64 : 0 < S64x200x64.numel
  shapeCasts_S64x200x64_S64x200x64 : S64x200x64.ShapeCasts S64x200x64
  inb_S64x200_S64x200_0_0 : ∀ a, (![0, 0] : Fin 2 → Nat) a + S64x200.size a ≤ S64x200.size a
  h_S64x200 : 0 < S64x200.numel
  shapeCasts_S64x200_S64x200 : S64x200.ShapeCasts S64x200
  shapeCasts_S64x200_S64x200x1 : S64x200.ShapeCasts S64x200x1
  broadcasts_S64x200x1_S64x200x64 : S64x200x1.Broadcasts S64x200x64
  reduces_S64x200x64_S64x64 : S64x200x64.Reduces [1] S64x64
  reducesTo_S4096x200_S4096_d1 : S4096x200.ReducesTo [1] S4096
  concatenates_S4096x64_S4096x64_S4096x64_S4096x192_d1 : Shape.Concatenates [S4096x64, S4096x64, S4096x64] S4096x192 1
  reducesTo_S4096x64_S4096_d1 : S4096x64.ReducesTo [1] S4096
  gather_S200000x64_S4096x1_S4096x64_1_0_n_n_0_1_164_wf : GatherDims.WF S200000x64 S4096x1 S4096x64 [1] [0] [] [0] [] 1 ![1, 64]
  gather_S100000x64_S4096x50x1_S4096x50x64_2_0_n_n_0_2_164_wf : GatherDims.WF S100000x64 S4096x50x1 S4096x50x64 [2] [0] [] [0] [] 2 ![1, 64]
  dot_S4096x160_S160x128_S4096x128_1_0_0_1_n_n_wf : DotDims.WF S4096x160 S160x128 S4096x128 [1] [0] [0] [1] [] []
  dot_S4096x128_S128x64_S4096x64_1_0_0_1_n_n_wf : DotDims.WF S4096x128 S128x64 S4096x64 [1] [0] [0] [1] [] []
  gather_S100000x64_S4096x1_S4096x64_1_0_n_n_0_1_164_wf : GatherDims.WF S100000x64 S4096x1 S4096x64 [1] [0] [] [0] [] 1 ![1, 64]
  dot_S4096x96_S96x128_S4096x128_1_0_0_1_n_n_wf : DotDims.WF S4096x96 S96x128 S4096x128 [1] [0] [0] [1] [] []
  gather_S200000x64_S4096x200x1_S4096x200x64_2_0_n_n_0_2_164_wf : GatherDims.WF S200000x64 S4096x200x1 S4096x200x64 [2] [0] [] [0] [] 2 ![1, 64]
  dot_S64x64_S64x64_S64x64_1_0_0_1_n_n_wf : DotDims.WF S64x64 S64x64 S64x64 [1] [0] [0] [1] [] []
  dot_S64x64_S64x8320_S64x8320_1_0_0_1_n_n_wf : DotDims.WF S64x64 S64x8320 S64x8320 [1] [0] [0] [1] [] []
  dot_S64x200x1_S64x1x64_S64x200x64_2_1_1_2_0_0_wf : DotDims.WF S64x200x1 S64x1x64 S64x200x64 [2] [1] [1] [2] [0] [0]
  dot_S64x200x64_S64x64x64_S64x200x64_2_1_1_2_0_0_wf : DotDims.WF S64x200x64 S64x64x64 S64x200x64 [2] [1] [1] [2] [0] [0]
  dot_S4096x192_S192x64_S4096x64_1_0_0_1_n_n_wf : DotDims.WF S4096x192 S192x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64.size a ≤ S4096x64.size a
  hwx0_0 : ∀ i : grid0.Coords, EltTy.bits .bf16 = 32 ∨ (Rect.block (s := S4096x64) S64x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x8320.size a ≤ S64x8320.size a
  hwx0_3 : ∀ i : grid0.Coords, EltTy.bits .bf16 = 32 ∨ (Rect.block (s := S64x8320) S64x8320.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8320.size a ≤ S1x8320.size a
  hwx0_4 : ∀ i : grid0.Coords, EltTy.bits .f32 = 32 ∨ (Rect.block (s := S1x8320) S1x8320.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x200x64.size a ≤ S4096x200x64.size a
  hwx0_5 : ∀ i : grid0.Coords, EltTy.bits .bf16 = 32 ∨ (Rect.block (s := S4096x200x64) S64x200x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x200x64.size a ≤ S4096x200x64.size a
  hwx0_6 : ∀ i : grid0.Coords, EltTy.bits .bf16 = 32 ∨ (Rect.block (s := S4096x200x64) S64x200x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x200.size a ≤ S4096x200.size a
  hwx0_7 : ∀ i : grid0.Coords, EltTy.bits .f32 = 32 ∨ (Rect.block (s := S4096x200) S64x200.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x200.size a ≤ S4096x200.size a
  hwx0_8 : ∀ i : grid0.Coords, EltTy.bits .f32 = 32 ∨ (Rect.block (s := S4096x200) S64x200.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S4096x64.size a
  hwx0_9 : ∀ i : grid0.Coords, EltTy.bits .f32 = 32 ∨ (Rect.block (s := S4096x64) S64x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S4096x64.size a
  hwx0_10 : ∀ i : grid0.Coords, EltTy.bits .f32 = 32 ∨ (Rect.block (s := S4096x64) S64x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S4096x64.size a
  hwx0_11 : ∀ i : grid0.Coords, EltTy.bits .f32 = 32 ∨ (Rect.block (s := S4096x64) S64x64.size (cc0_transform_11 i) (hinb0_11 i)).WholeWords (EltTy.packing .f32)

variable [Facts₀]

def gather_S200000x64_S4096x1_S4096x64_1_0_n_n_0_1_164 : GatherDims S200000x64 S4096x1 S4096x64 where
  offsetDims := [1]
  collapsedSliceDims := [0]
  operandBatchingDims := []
  startIndicesBatchingDims := []
  startIndexMap := [0]
  indexVectorDim := 1
  sliceSizes := ![1, 64]
  wf := gather_S200000x64_S4096x1_S4096x64_1_0_n_n_0_1_164_wf
def gather_S100000x64_S4096x50x1_S4096x50x64_2_0_n_n_0_2_164 : GatherDims S100000x64 S4096x50x1 S4096x50x64 where
  offsetDims := [2]
  collapsedSliceDims := [0]
  operandBatchingDims := []
  startIndicesBatchingDims := []
  startIndexMap := [0]
  indexVectorDim := 2
  sliceSizes := ![1, 64]
  wf := gather_S100000x64_S4096x50x1_S4096x50x64_2_0_n_n_0_2_164_wf
def dot_S4096x160_S160x128_S4096x128_1_0_0_1_n_n : DotDims S4096x160 S160x128 S4096x128 where
  lhsContracting := [1]
  rhsContracting := [0]
  lhsNonContracting := [0]
  rhsNonContracting := [1]
  lhsBatch := []
  rhsBatch := []
  wf := dot_S4096x160_S160x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def dot_S4096x96_S96x128_S4096x128_1_0_0_1_n_n : DotDims S4096x96 S96x128 S4096x128 where
  lhsContracting := [1]
  rhsContracting := [0]
  lhsNonContracting := [0]
  rhsNonContracting := [1]
  lhsBatch := []
  rhsBatch := []
  wf := dot_S4096x96_S96x128_S4096x128_1_0_0_1_n_n_wf
def gather_S200000x64_S4096x200x1_S4096x200x64_2_0_n_n_0_2_164 : GatherDims S200000x64 S4096x200x1 S4096x200x64 where
  offsetDims := [2]
  collapsedSliceDims := [0]
  operandBatchingDims := []
  startIndicesBatchingDims := []
  startIndexMap := [0]
  indexVectorDim := 2
  sliceSizes := ![1, 64]
  wf := gather_S200000x64_S4096x200x1_S4096x200x64_2_0_n_n_0_2_164_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x8320_S64x8320_1_0_0_1_n_n : DotDims S64x64 S64x8320 S64x8320 where
  lhsContracting := [1]
  rhsContracting := [0]
  lhsNonContracting := [0]
  rhsNonContracting := [1]
  lhsBatch := []
  rhsBatch := []
  wf := dot_S64x64_S64x8320_S64x8320_1_0_0_1_n_n_wf
def dot_S64x200x1_S64x1x64_S64x200x64_2_1_1_2_0_0 : DotDims S64x200x1 S64x1x64 S64x200x64 where
  lhsContracting := [2]
  rhsContracting := [1]
  lhsNonContracting := [1]
  rhsNonContracting := [2]
  lhsBatch := [0]
  rhsBatch := [0]
  wf := dot_S64x200x1_S64x1x64_S64x200x64_2_1_1_2_0_0_wf
def dot_S64x200x64_S64x64x64_S64x200x64_2_1_1_2_0_0 : DotDims S64x200x64 S64x64x64 S64x200x64 where
  lhsContracting := [2]
  rhsContracting := [1]
  lhsNonContracting := [1]
  rhsNonContracting := [2]
  lhsBatch := [0]
  rhsBatch := [0]
  wf := dot_S64x200x64_S64x64x64_S64x200x64_2_1_1_2_0_0_wf
def dot_S4096x192_S192x64_S4096x64_1_0_0_1_n_n : DotDims S4096x192 S192x64 S4096x64 where
  lhsContracting := [1]
  rhsContracting := [0]
  lhsNonContracting := [0]
  rhsNonContracting := [1]
  lhsBatch := []
  rhsBatch := []
  wf := dot_S4096x192_S192x64_S4096x64_1_0_0_1_n_n_wf

abbrev win0_0 : Pipeline.Window sig grid0 :=
  Pipeline.Window.ofSpec (Memref.whole main_v67) S64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v86) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v90) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v88) S64x8320.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v92) S1x8320.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v75) S64x200x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v82) S64x200x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v83) S64x200.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v84) S64x200.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v93_0) S64x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v93_1) S64x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v93_2) S64x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096 : Shape := ⟨1, ![4096]⟩
abbrev S4096x50 : Shape := ⟨2, ![4096, 50]⟩
abbrev S4096x32 : Shape := ⟨2, ![4096, 32]⟩
abbrev S4096x200 : Shape := ⟨2, ![4096, 200]⟩
abbrev S200000x64 : Shape := ⟨2, ![200000, 64]⟩
abbrev S100000x64 : Shape := ⟨2, ![100000, 64]⟩
abbrev S160x128 : Shape := ⟨2, ![160, 128]⟩
abbrev S128 : Shape := ⟨1, ![128]⟩
abbrev S128x64 : Shape := ⟨2, ![128, 64]⟩
abbrev S64 : Shape := ⟨1, ![64]⟩
abbrev S96x128 : Shape := ⟨2, ![96, 128]⟩
abbrev S64x8384 : Shape := ⟨2, ![64, 8384]⟩
abbrev S8384 : Shape := ⟨1, ![8384]⟩
abbrev S192x64 : Shape := ⟨2, ![192, 64]⟩
abbrev S_ : Shape := ⟨0, ![]⟩
abbrev S4096x1 : Shape := ⟨2, ![4096, 1]⟩
abbrev S4096x64 : Shape := ⟨2, ![4096, 64]⟩
abbrev S4096x50x1 : Shape := ⟨3, ![4096, 50, 1]⟩
abbrev S4096x50x64 : Shape := ⟨3, ![4096, 50, 64]⟩
abbrev S50 : Shape := ⟨1, ![50]⟩
abbrev S1x50 : Shape := ⟨2, ![1, 50]⟩
abbrev S4096x160 : Shape := ⟨2, ![4096, 160]⟩
abbrev S4096x128 : Shape := ⟨2, ![4096, 128]⟩
abbrev S1x128 : Shape := ⟨2, ![1, 128]⟩
abbrev S1x64 : Shape := ⟨2, ![1, 64]⟩
abbrev S4096x96 : Shape := ⟨2, ![4096, 96]⟩
abbrev S4096x8384 : Shape := ⟨2, ![4096, 8384]⟩
abbrev S1x8384 : Shape := ⟨2, ![1, 8384]⟩
abbrev S4096x8320 : Shape := ⟨2, ![4096, 8320]⟩
abbrev S4096x200x1 : Shape := ⟨3, ![4096, 200, 1]⟩
abbrev S4096x200x64 : Shape := ⟨3, ![4096, 200, 64]⟩
abbrev S4096x4096 : Shape := ⟨2, ![4096, 4096]⟩
abbrev S4096x64x64 : Shape := ⟨3, ![4096, 64, 64]⟩
abbrev S4096x1x64 : Shape := ⟨3, ![4096, 1, 64]⟩
abbrev S4096x192 : Shape := ⟨2, ![4096, 192]⟩

abbrev nBuf : Space → Nat
  | .hbm => 216
  | .vmem => 0
  | .smem => 0
  | _ => 0

abbrev hbmTy0_0 (i : Nat) : BufTy := match i % 128 with
  | 0 => ⟨S4096, .i32⟩
  | 1 => ⟨S4096, .i32⟩
  | 2 => ⟨S4096x50, .i32⟩
  | 3 => ⟨S4096, .i32⟩
  | 4 => ⟨S4096x32, .f32⟩
  | 5 => ⟨S4096x32, .f32⟩
  | 6 => ⟨S4096x200, .i32⟩
  | 7 => ⟨S4096x200, .i32⟩
  | 8 => ⟨S4096x200, .i32⟩
  | 9 => ⟨S4096x200, .i32⟩
  | 10 => ⟨S200000x64, .f32⟩
  | 11 => ⟨S100000x64, .f32⟩
  | 12 => ⟨S100000x64, .f32⟩
  | 13 => ⟨S200000x64, .f32⟩
  | 14 => ⟨S160x128, .f32⟩
  | 15 => ⟨S128, .f32⟩
  | 16 => ⟨S128x64, .f32⟩
  | 17 => ⟨S64, .f32⟩
  | 18 => ⟨S96x128, .f32⟩
  | 19 => ⟨S128, .f32⟩
  | 20 => ⟨S128x64, .f32⟩
  | 21 => ⟨S64, .f32⟩
  | 22 => ⟨S64x8384, .f32⟩
  | 23 => ⟨S8384, .f32⟩
  | 24 => ⟨S192x64, .f32⟩
  | 25 => ⟨S_, .i32⟩
  | 26 => ⟨S4096, .i32⟩
  | 27 => ⟨S4096, .i1⟩
  | 28 => ⟨S_, .i32⟩
  | 29 => ⟨S4096, .i32⟩
  | 30 => ⟨S4096, .i32⟩
  | 31 => ⟨S4096, .i32⟩
  | 32 => ⟨S4096x1, .i32⟩
  | 33 => ⟨S4096x64, .f32⟩
  | 34 => ⟨S_, .i32⟩
  | 35 => ⟨S4096x50, .i32⟩
  | 36 => ⟨S4096x50, .i1⟩
  | 37 => ⟨S_, .i32⟩
  | 38 => ⟨S4096x50, .i32⟩
  | 39 => ⟨S4096x50, .i32⟩
  | 40 => ⟨S4096x50, .i32⟩
  | 41 => ⟨S4096x50x1, .i32⟩
  | 42 => ⟨S4096x50x64, .f32⟩
  | 43 => ⟨S50, .i32⟩
  | 44 => ⟨S1x50, .i32⟩
  | 45 => ⟨S4096x1, .i32⟩
  | 46 => ⟨S4096x50, .i32⟩
  | 47 => ⟨S4096x50, .i32⟩
  | 48 => ⟨S4096x50, .i1⟩
  | 49 => ⟨S4096x50, .f32⟩
  | 50 => ⟨S4096x50x1, .f32⟩
  | 51 => ⟨S4096x50x64, .f32⟩
  | 52 => ⟨S4096x50x64, .f32⟩
  | 53 => ⟨S_, .f32⟩
  | 54 => ⟨S4096x64, .f32⟩
  | 55 => ⟨S_, .i32⟩
  | 56 => ⟨S4096, .i32⟩
  | 57 => ⟨S4096, .i32⟩
  | 58 => ⟨S4096, .f32⟩
  | 59 => ⟨S4096x1, .f32⟩
  | 60 => ⟨S4096x64, .f32⟩
  | 61 => ⟨S4096x64, .f32⟩
  | 62 => ⟨S4096x160, .f32⟩
  | 63 => ⟨S4096x128, .f32⟩
  | 64 => ⟨S1x128, .f32⟩
  | 65 => ⟨S4096x128, .f32⟩
  | 66 => ⟨S4096x128, .f32⟩
  | 67 => ⟨S_, .f32⟩
  | 68 => ⟨S4096x128, .f32⟩
  | 69 => ⟨S4096x128, .f32⟩
  | 70 => ⟨S4096x64, .f32⟩
  | 71 => ⟨S1x64, .f32⟩
  | 72 => ⟨S4096x64, .f32⟩
  | 73 => ⟨S4096x64, .f32⟩
  | 74 => ⟨S_, .f32⟩
  | 75 => ⟨S4096x64, .f32⟩
  | 76 => ⟨S4096x64, .f32⟩
  | 77 => ⟨S_, .i32⟩
  | 78 => ⟨S4096, .i32⟩
  | 79 => ⟨S4096, .i1⟩
  | 80 => ⟨S_, .i32⟩
  | 81 => ⟨S4096, .i32⟩
  | 82 => ⟨S4096, .i32⟩
  | 83 => ⟨S4096, .i32⟩
  | 84 => ⟨S4096x1, .i32⟩
  | 85 => ⟨S4096x64, .f32⟩
  | 86 => ⟨S4096x96, .f32⟩
  | 87 => ⟨S4096x128, .f32⟩
  | 88 => ⟨S1x128, .f32⟩
  | 89 => ⟨S4096x128, .f32⟩
  | 90 => ⟨S4096x128, .f32⟩
  | 91 => ⟨S_, .f32⟩
  | 92 => ⟨S4096x128, .f32⟩
  | 93 => ⟨S4096x128, .f32⟩
  | 94 => ⟨S4096x64, .f32⟩
  | 95 => ⟨S1x64, .f32⟩
  | 96 => ⟨S4096x64, .f32⟩
  | 97 => ⟨S4096x64, .f32⟩
  | 98 => ⟨S_, .f32⟩
  | 99 => ⟨S4096x64, .f32⟩
  | 100 => ⟨S4096x64, .f32⟩
  | 101 => ⟨S_, .i32⟩
  | 102 => ⟨S4096, .i32⟩
  | 103 => ⟨S4096, .i1⟩
  | 104 => ⟨S_, .i32⟩
  | 105 => ⟨S4096, .i32⟩
  | 106 => ⟨S4096, .i32⟩
  | 107 => ⟨S4096, .i32⟩
  | 108 => ⟨S4096x1, .i32⟩
  | 109 => ⟨S4096x64, .f32⟩
  | 110 => ⟨S4096x8384, .f32⟩
  | 111 => ⟨S1x8384, .f32⟩
  | 112 => ⟨S4096x8384, .f32⟩
  | 113 => ⟨S4096x8384, .f32⟩
  | 114 => ⟨S_, .f32⟩
  | 115 => ⟨S4096x8384, .f32⟩
  | 116 => ⟨S4096x8384, .f32⟩
  | 117 => ⟨S4096x64, .f32⟩
  | 118 => ⟨S4096x8320, .f32⟩
  | 119 => ⟨S4096x200, .f32⟩
  | 120 => ⟨S4096x200x1, .f32⟩
  | 121 => ⟨S4096x200, .f32⟩
  | 122 => ⟨S4096x200x1, .f32⟩
  | 123 => ⟨S_, .i32⟩
  | 124 => ⟨S4096x200, .i32⟩
  | 125 => ⟨S4096x200, .i1⟩
  | 126 => ⟨S_, .i32⟩
  | 127 => ⟨S4096x200, .i32⟩
  | _ => ⟨S4096, .i32⟩

abbrev hbmTy0_1 (i : Nat) : BufTy := match i % 128 with
  | 0 => ⟨S4096x200, .i32⟩
  | 1 => ⟨S4096x200, .i32⟩
  | 2 => ⟨S4096x200x1, .i32⟩
  | 3 => ⟨S4096x200x64, .f32⟩
  | 4 => ⟨S4096x4096, .f32⟩
  | 5 => ⟨S4096x64x64, .f32⟩
  | 6 => ⟨S4096x64, .f32⟩
  | 7 => ⟨S4096x4096, .f32⟩
  | 8 => ⟨S4096x64x64, .f32⟩
  | 9 => ⟨S4096x64, .f32⟩
  | 10 => ⟨S4096x200x64, .f32⟩
  | 11 => ⟨S4096x1x64, .f32⟩
  | 12 => ⟨S4096x200x64, .f32⟩
  | 13 => ⟨S4096x200x64, .f32⟩
  | 14 => ⟨S_, .f32⟩
  | 15 => ⟨S4096x200x64, .f32⟩
  | 16 => ⟨S4096x200x64, .f32⟩
  | 17 => ⟨S4096x200x64, .f32⟩
  | 18 => ⟨S4096x1x64, .f32⟩
  | 19 => ⟨S4096x200x64, .f32⟩
  | 20 => ⟨S4096x200x64, .f32⟩
  | 21 => ⟨S4096x200x64, .f32⟩
  | 22 => ⟨S4096x200x64, .f32⟩
  | 23 => ⟨S_, .i32⟩
  | 24 => ⟨S4096x200, .i32⟩
  | 25 => ⟨S4096x200, .i1⟩
  | 26 => ⟨S_, .i32⟩
  | 27 => ⟨S4096x200, .i32⟩
  | 28 => ⟨S4096x200, .i32⟩
  | 29 => ⟨S4096x200, .i32⟩
  | 30 => ⟨S4096x200x1, .i32⟩
  | 31 => ⟨S4096x200x64, .f32⟩
  | 32 => ⟨S4096x4096, .f32⟩
  | 33 => ⟨S4096x64x64, .f32⟩
  | 34 => ⟨S4096x64, .f32⟩
  | 35 => ⟨S4096x4096, .f32⟩
  | 36 => ⟨S4096x64x64, .f32⟩
  | 37 => ⟨S4096x64, .f32⟩
  | 38 => ⟨S4096x200x64, .f32⟩
  | 39 => ⟨S4096x1x64, .f32⟩
  | 40 => ⟨S4096x200x64, .f32⟩
  | 41 => ⟨S4096x200x64, .f32⟩
  | 42 => ⟨S_, .f32⟩
  | 43 => ⟨S4096x200x64, .f32⟩
  | 44 => ⟨S4096x200x64, .f32⟩
  | 45 => ⟨S4096x200x64, .f32⟩
  | 46 => ⟨S4096x1x64, .f32⟩
  | 47 => ⟨S4096x200x64, .f32⟩
  | 48 => ⟨S4096x200x64, .f32⟩
  | 49 => ⟨S4096x200x64, .f32⟩
  | 50 => ⟨S4096x200x64, .f32⟩
  | 51 => ⟨S_, .f32⟩
  | 52 => ⟨S4096x64, .f32⟩
  | 53 => ⟨S_, .f32⟩
  | 54 => ⟨S4096x64, .f32⟩
  | 55 => ⟨S_, .f32⟩
  | 56 => ⟨S4096x1, .f32⟩
  | 57 => ⟨S_, .f32⟩
  | 58 => ⟨S4096x1, .f32⟩
  | 59 => ⟨S4096x64, .f32⟩
  | 60 => ⟨S4096x64, .f32⟩
  | 61 => ⟨S4096x64, .f32⟩
  | 62 => ⟨S4096x64, .f32⟩
  | 63 => ⟨S4096x64, .f32⟩
  | 64 => ⟨S4096x64, .f32⟩
  | 65 => ⟨S_, .f32⟩
  | 66 => ⟨S4096x64, .f32⟩
  | 67 => ⟨S4096x64, .f32⟩
  | 68 => ⟨S4096x64, .f32⟩
  | 69 => ⟨S4096x64, .f32⟩
  | 70 => ⟨S4096x64, .i1⟩
  | 71 => ⟨S4096x64, .f32⟩
  | 72 => ⟨S4096x64, .f32⟩
  | 73 => ⟨S4096x64, .f32⟩
  | 74 => ⟨S4096x64, .f32⟩
  | 75 => ⟨S4096x64, .f32⟩
  | 76 => ⟨S4096x64, .f32⟩
  | 77 => ⟨S4096x64, .f32⟩
  | 78 => ⟨S4096x64, .f32⟩
  | 79 => ⟨S4096x192, .f32⟩
  | 80 => ⟨S4096x64, .f32⟩
  | 81 => ⟨S_, .f32⟩
  | 82 => ⟨S4096x64, .f32⟩
  | 83 => ⟨S4096x64, .f32⟩
  | 84 => ⟨S4096x64, .f32⟩
  | 85 => ⟨S_, .f32⟩
  | 86 => ⟨S4096, .f32⟩
  | 87 => ⟨S4096x1, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_v0 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_c_1 : Ref sig .tc := ⟨.hbm, 34, rfl⟩
abbrev main_v7 : Ref sig .tc := ⟨.hbm, 35, rfl⟩
abbrev main_v8 : Ref sig .tc := ⟨.hbm, 36, rfl⟩
abbrev main_c_2 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst : Ref sig .tc := ⟨.hbm, 53, rfl⟩
abbrev main_v24 : Ref sig .tc := ⟨.hbm, 54, rfl⟩
abbrev main_c_3 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_call0_cst : Ref sig .tc := ⟨.hbm, 67, rfl⟩
abbrev main_call0_v0 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_call1_cst : Ref sig .tc := ⟨.hbm, 74, rfl⟩
abbrev main_call1_v0 : Ref sig .tc := ⟨.hbm, 75, rfl⟩
abbrev main_v41 : Ref sig .tc := ⟨.hbm, 76, rfl⟩
abbrev main_c_4 : Ref sig .tc := ⟨.hbm, 77, rfl⟩
abbrev main_v42 : Ref sig .tc := ⟨.hbm, 78, rfl⟩
abbrev main_v43 : Ref sig .tc := ⟨.hbm, 79, rfl⟩
abbrev main_c_5 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_call2_cst : Ref sig .tc := ⟨.hbm, 91, rfl⟩
abbrev main_call2_v0 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_call3_cst : Ref sig .tc := ⟨.hbm, 98, rfl⟩
abbrev main_call3_v0 : Ref sig .tc := ⟨.hbm, 99, rfl⟩
abbrev main_v59 : Ref sig .tc := ⟨.hbm, 100, rfl⟩
abbrev main_c_6 : Ref sig .tc := ⟨.hbm, 101, rfl⟩
abbrev main_v60 : Ref sig .tc := ⟨.hbm, 102, rfl⟩
abbrev main_v61 : Ref sig .tc := ⟨.hbm, 103, rfl⟩
abbrev main_c_7 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_call4_cst : Ref sig .tc := ⟨.hbm, 114, rfl⟩
abbrev main_call4_v0 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_c_8 : Ref sig .tc := ⟨.hbm, 123, rfl⟩
abbrev main_v78 : Ref sig .tc := ⟨.hbm, 124, rfl⟩
abbrev main_v79 : Ref sig .tc := ⟨.hbm, 125, rfl⟩
abbrev main_c_9 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_call5_cst : Ref sig .tc := ⟨.hbm, 142, rfl⟩
abbrev main_call5_v0 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_c_10 : Ref sig .tc := ⟨.hbm, 151, rfl⟩
abbrev main_v102 : Ref sig .tc := ⟨.hbm, 152, rfl⟩
abbrev main_v103 : Ref sig .tc := ⟨.hbm, 153, rfl⟩
abbrev main_c_11 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_call6_cst : Ref sig .tc := ⟨.hbm, 170, rfl⟩
abbrev main_call6_v0 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_cst_12 : Ref sig .tc := ⟨.hbm, 179, rfl⟩
abbrev main_v126 : Ref sig .tc := ⟨.hbm, 180, rfl⟩
abbrev main_cst_13 : Ref sig .tc := ⟨.hbm, 181, rfl⟩
abbrev main_v127 : Ref sig .tc := ⟨.hbm, 182, rfl⟩
abbrev main_cst_14 : Ref sig .tc := ⟨.hbm, 183, rfl⟩
abbrev main_v128 : Ref sig .tc := ⟨.hbm, 184, rfl⟩
abbrev main_cst_15 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_call7_cst : Ref sig .tc := ⟨.hbm, 193, rfl⟩
abbrev main_call7_v0 : Ref sig .tc := ⟨.hbm, 194, rfl⟩
abbrev main_call7_v1 : Ref sig .tc := ⟨.hbm, 195, rfl⟩
abbrev main_call7_v2 : Ref sig .tc := ⟨.hbm, 196, rfl⟩
abbrev main_call7_v3 : Ref sig .tc := ⟨.hbm, 197, rfl⟩
abbrev main_call7_v4 : Ref sig .tc := ⟨.hbm, 198, rfl⟩
abbrev main_call7_v5 : Ref sig .tc := ⟨.hbm, 199, rfl⟩
abbrev main_call7_v6 : Ref sig .tc := ⟨.hbm, 200, rfl⟩
abbrev main_call7_v7 : Ref sig .tc := ⟨.hbm, 201, rfl⟩
abbrev main_call7_v8 : Ref sig .tc := ⟨.hbm, 202, rfl⟩
abbrev main_call7_v9 : Ref sig .tc := ⟨.hbm, 203, rfl⟩
abbrev main_call7_v10 : Ref sig .tc := ⟨.hbm, 204, rfl⟩
abbrev main_call7_v11 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_call8_cst : Ref sig .tc := ⟨.hbm, 209, rfl⟩
abbrev main_call8_v0 : Ref sig .tc := ⟨.hbm, 210, rfl⟩
abbrev main_v139 : Ref sig .tc := ⟨.hbm, 211, rfl⟩
abbrev main_v140 : Ref sig .tc := ⟨.hbm, 212, rfl⟩
abbrev main_cst_16 : Ref sig .tc := ⟨.hbm, 213, rfl⟩
abbrev main_v141 : Ref sig .tc := ⟨.hbm, 214, rfl⟩
abbrev main_v142 : Ref sig .tc := ⟨.hbm, 215, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S50_S1x50_1 : S50.BroadcastsInDim S1x50 (![1] : Fin 1 → Fin S1x50.rank)
  bcast_S1x50_S4096x50_0_1 : S1x50.BroadcastsInDim S4096x50 (![0, 1] : Fin 2 → Fin S4096x50.rank)
  bcast_S4096x1_S4096x50_0_1 : S4096x1.BroadcastsInDim S4096x50 (![0, 1] : Fin 2 → Fin S4096x50.rank)
  bcast_S4096x50x1_S4096x50x64_0_1_2 : S4096x50x1.BroadcastsInDim S4096x50x64 (![0, 1, 2] : Fin 3 → Fin S4096x50x64.rank)
  reducesTo_S4096x50x64_S4096x64_d1 : S4096x50x64.ReducesTo [1] S4096x64
  h_S_ : 0 < S_.numel
  bcast_S4096x1_S4096x64_0_1 : S4096x1.BroadcastsInDim S4096x64 (![0, 1] : Fin 2 → Fin S4096x64.rank)
  concatenates_S4096x64_S4096x64_S4096x32_S4096x160_d1 : Shape.Concatenates [S4096x64, S4096x64, S4096x32] S4096x160 1
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  concatenates_S4096x64_S4096x32_S4096x96_d1 : Shape.Concatenates [S4096x64, S4096x32] S4096x96 1
  bcast_S8384_S1x8384_1 : S8384.BroadcastsInDim S1x8384 (![1] : Fin 1 → Fin S1x8384.rank)
  bcast_S1x8384_S4096x8384_0_1 : S1x8384.BroadcastsInDim S4096x8384 (![0, 1] : Fin 2 → Fin S4096x8384.rank)
  bcast_S_S4096x8384 : S_.BroadcastsInDim S4096x8384 (![] : Fin 0 → Fin S4096x8384.rank)
  slices_S4096x8384_S4096x64_0_0 : S4096x8384.Slices ![0, 0] S4096x64
  slices_S4096x8384_S4096x8320_0_64 : S4096x8384.Slices ![0, 64] S4096x8320
  bcast_S4096x200_S4096x200x1_0_1 : S4096x200.BroadcastsInDim S4096x200x1 (![0, 1] : Fin 2 → Fin S4096x200x1.rank)
  bcast_S_S4096x200 : S_.BroadcastsInDim S4096x200 (![] : Fin 0 → Fin S4096x200.rank)
  slices_S4096x8320_S4096x4096_0_0 : S4096x8320.Slices ![0, 0] S4096x4096
  shapeCasts_S4096x4096_S4096x64x64 : S4096x4096.ShapeCasts S4096x64x64
  slices_S4096x8320_S4096x64_0_4096 : S4096x8320.Slices ![0, 4096] S4096x64
  slices_S4096x8320_S4096x4096_0_4160 : S4096x8320.Slices ![0, 4160] S4096x4096
  slices_S4096x8320_S4096x64_0_8256 : S4096x8320.Slices ![0, 8256] S4096x64
  bcast_S4096x64_S4096x1x64_0_2 : S4096x64.BroadcastsInDim S4096x1x64 (![0, 2] : Fin 2 → Fin S4096x1x64.rank)
  bcast_S4096x1x64_S4096x200x64_0_1_2 : S4096x1x64.BroadcastsInDim S4096x200x64 (![0, 1, 2] : Fin 3 → Fin S4096x200x64.rank)
  bcast_S_S4096x200x64 : S_.BroadcastsInDim S4096x200x64 (![] : Fin 0 → Fin S4096x200x64.rank)
  bcast_S4096x200x1_S4096x200x64_0_1_2 : S4096x200x1.BroadcastsInDim S4096x200x64 (![0, 1, 2] : Fin 3 → Fin S4096x200x64.rank)
  reducesTo_S4096x200x64_S4096x64_d1 : S4096x200x64.ReducesTo [1] S4096x64
  reducesTo_S4096x200x1_S4096x1_d1 : S4096x200x1.ReducesTo [1] S4096x1
  concatenates_S4096x64_S4096x64_S4096x64_S4096x192_d1 : Shape.Concatenates [S4096x64, S4096x64, S4096x64] S4096x192 1
  reducesTo_S4096x64_S4096_d1 : S4096x64.ReducesTo [1] S4096
  gather_S200000x64_S4096x1_S4096x64_1_0_n_n_0_1_164_wf : GatherDims.WF S200000x64 S4096x1 S4096x64 [1] [0] [] [0] [] 1 ![1, 64]
  gather_S100000x64_S4096x50x1_S4096x50x64_2_0_n_n_0_2_164_wf : GatherDims.WF S100000x64 S4096x50x1 S4096x50x64 [2] [0] [] [0] [] 2 ![1, 64]
  dot_S4096x160_S160x128_S4096x128_1_0_0_1_n_n_wf : DotDims.WF S4096x160 S160x128 S4096x128 [1] [0] [0] [1] [] []
  dot_S4096x128_S128x64_S4096x64_1_0_0_1_n_n_wf : DotDims.WF S4096x128 S128x64 S4096x64 [1] [0] [0] [1] [] []
  gather_S100000x64_S4096x1_S4096x64_1_0_n_n_0_1_164_wf : GatherDims.WF S100000x64 S4096x1 S4096x64 [1] [0] [] [0] [] 1 ![1, 64]
  dot_S4096x96_S96x128_S4096x128_1_0_0_1_n_n_wf : DotDims.WF S4096x96 S96x128 S4096x128 [1] [0] [0] [1] [] []
  dot_S4096x64_S64x8384_S4096x8384_1_0_0_1_n_n_wf : DotDims.WF S4096x64 S64x8384 S4096x8384 [1] [0] [0] [1] [] []
  gather_S200000x64_S4096x200x1_S4096x200x64_2_0_n_n_0_2_164_wf : GatherDims.WF S200000x64 S4096x200x1 S4096x200x64 [2] [0] [] [0] [] 2 ![1, 64]
  dot_S4096x200x64_S4096x64x64_S4096x200x64_2_1_1_2_0_0_wf : DotDims.WF S4096x200x64 S4096x64x64 S4096x200x64 [2] [1] [1] [2] [0] [0]
  dot_S4096x192_S192x64_S4096x64_1_0_0_1_n_n_wf : DotDims.WF S4096x192 S192x64 S4096x64 [1] [0] [0] [1] [] []

variable [Facts₀]

def gather_S200000x64_S4096x1_S4096x64_1_0_n_n_0_1_164 : GatherDims S200000x64 S4096x1 S4096x64 where
  offsetDims := [1]
  collapsedSliceDims := [0]
  operandBatchingDims := []
  startIndicesBatchingDims := []
  startIndexMap := [0]
  indexVectorDim := 1
  sliceSizes := ![1, 64]
  wf := gather_S200000x64_S4096x1_S4096x64_1_0_n_n_0_1_164_wf
def gather_S100000x64_S4096x50x1_S4096x50x64_2_0_n_n_0_2_164 : GatherDims S100000x64 S4096x50x1 S4096x50x64 where
  offsetDims := [2]
  collapsedSliceDims := [0]
  operandBatchingDims := []
  startIndicesBatchingDims := []
  startIndexMap := [0]
  indexVectorDim := 2
  sliceSizes := ![1, 64]
  wf := gather_S100000x64_S4096x50x1_S4096x50x64_2_0_n_n_0_2_164_wf
def dot_S4096x160_S160x128_S4096x128_1_0_0_1_n_n : DotDims S4096x160 S160x128 S4096x128 where
  lhsContracting := [1]
  rhsContracting := [0]
  lhsNonContracting := [0]
  rhsNonContracting := [1]
  lhsBatch := []
  rhsBatch := []
  wf := dot_S4096x160_S160x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def dot_S4096x96_S96x128_S4096x128_1_0_0_1_n_n : DotDims S4096x96 S96x128 S4096x128 where
  lhsContracting := [1]
  rhsContracting := [0]
  lhsNonContracting := [0]
  rhsNonContracting := [1]
  lhsBatch := []
  rhsBatch := []
  wf := dot_S4096x96_S96x128_S4096x128_1_0_0_1_n_n_wf
def dot_S4096x64_S64x8384_S4096x8384_1_0_0_1_n_n : DotDims S4096x64 S64x8384 S4096x8384 where
  lhsContracting := [1]
  rhsContracting := [0]
  lhsNonContracting := [0]
  rhsNonContracting := [1]
  lhsBatch := []
  rhsBatch := []
  wf := dot_S4096x64_S64x8384_S4096x8384_1_0_0_1_n_n_wf
def gather_S200000x64_S4096x200x1_S4096x200x64_2_0_n_n_0_2_164 : GatherDims S200000x64 S4096x200x1 S4096x200x64 where
  offsetDims := [2]
  collapsedSliceDims := [0]
  operandBatchingDims := []
  startIndicesBatchingDims := []
  startIndexMap := [0]
  indexVectorDim := 2
  sliceSizes := ![1, 64]
  wf := gather_S200000x64_S4096x200x1_S4096x200x64_2_0_n_n_0_2_164_wf
def dot_S4096x200x64_S4096x64x64_S4096x200x64_2_1_1_2_0_0 : DotDims S4096x200x64 S4096x64x64 S4096x200x64 where
  lhsContracting := [2]
  rhsContracting := [1]
  lhsNonContracting := [1]
  rhsNonContracting := [2]
  lhsBatch := [0]
  rhsBatch := [0]
  wf := dot_S4096x200x64_S4096x64x64_S4096x200x64_2_1_1_2_0_0_wf
def dot_S4096x192_S192x64_S4096x64_1_0_0_1_n_n : DotDims S4096x192 S192x64 S4096x64 where
  lhsContracting := [1]
  rhsContracting := [0]
  lhsNonContracting := [0]
  rhsNonContracting := [1]
  lhsBatch := []
  rhsBatch := []
  wf := dot_S4096x192_S192x64_S4096x64_1_0_0_1_n_n_wf

class Facts : Prop extends Facts₀ where

variable [Facts]
-- ==== Proof.KernelAround.lean ====
/-
  `@main` of `Kernel` around its one kernel region, at any float instance.

  The host lines before the region (the two towers' dense layers, the gathers of embedding rows, the
  slices of the hypernetwork's weight and bias) are folded into one valuation `V0`: what every
  TensorCore buffer holds when the region is entered. The host lines after it (the two mask counts,
  the softplus loss, the fusion layer and the final row sum) read the three result arrays and write
  only buffers of their own. None of these lines writes an argument array, so each argument is found
  by the region, and left at the end, exactly as launched: that is the frame claim once the region
  itself has run.
-/
import proofs.«175546_j19585050870116_2_alg».proof.Proof.Gen.Kernel.Launch
import proofs.«175546_j19585050870116_2_alg».proof.Proof.Gen.Kernel.Skeleton
import proofs.«175546_j19585050870116_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host lines, before and after -/

/-- The stretches of host operations before the region, in program order. -/
abbrev prefixOps : List (List (HloOp τ sig (Elt F))) := [hostOps0, hostOps0_1, hostOps0_2, hostOps0_3, hostOps0_4, hostOps0_5, hostOps0_6, hostOps0_7, hostOps0_8]
/-- The stretches of host operations after the region, in program order. -/
abbrev suffixOps : List (List (HloOp τ sig (Elt F))) := [hostOps1, hostOps1_1, hostOps1_2, hostOps1_3, hostOps1_4]

/-- What core `c`'s TensorCore buffers hold when the region is entered: the launch contents run through
    every host line before it. -/
abbrev V0 (c : Dev nD) : Valuation τ sig (Elt F) := StableHlo.after (List.flatten (prefixOps (F := F))) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- `@main` is the host lines before the region, the region, and the host lines after it; so it reduces to
    the region entered at `V` and continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((suffixOps (F := F)).map StableHlo.seq)) :=
  Pipeline.hmain_around cfgs 0 defs₀ 𝒱₀ m main prefixOps suffixOps
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The later lines touch only the region's arrays and buffers that bypass the region. -/
theorem sfx_sub : ∀ ops ∈ (suffixOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (suffixOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
set_option maxHeartbeats 4000000 in
/-- And none of them writes an array of the region: each writes its own result buffer only. -/
theorem sfx_keeps : ∀ ops ∈ (suffixOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · simp only [hostOps1, List.mem_cons, List.mem_nil_iff, or_false] at hop
    rcases hop with rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
  · simp only [hostOps1_1, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
  · simp only [hostOps1_2, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
  · simp only [hostOps1_4, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The argument arrays are written by no host line -/

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 0 either, and it is no array of the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) suffixOps c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 1 either, and it is no array of the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) suffixOps c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 2 either, and it is no array of the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) suffixOps c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 3 either, and it is no array of the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) suffixOps c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 4 either, and it is no array of the region: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) suffixOps c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 5 either, and it is no array of the region: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) suffixOps c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 6 either, and it is no array of the region: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) suffixOps c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 7 either, and it is no array of the region: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) suffixOps c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 8 either, and it is no array of the region: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) suffixOps c main_arg8 = m ((c : Thread nD τ).loc main_arg8) := by
  unfold Pipeline.afterTail₀
  rw [StableHlo.after_of_forall_not_mem (b := Proc.devRef .tc main_arg8) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 9 either, and it is no array of the region: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) suffixOps c main_arg9 = m ((c : Thread nD τ).loc main_arg9) := by
  unfold Pipeline.afterTail₀
  rw [StableHlo.after_of_forall_not_mem (b := Proc.devRef .tc main_arg9) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 10 either, and it is no array of the region: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) suffixOps c main_arg10 = m ((c : Thread nD τ).loc main_arg10) := by
  unfold Pipeline.afterTail₀
  rw [StableHlo.after_of_forall_not_mem (b := Proc.devRef .tc main_arg10) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host line before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 11 either, and it is no array of the region: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) suffixOps c main_arg11 = m ((c : Thread nD τ).loc main_arg11) := by
  unfold Pipeline.afterTail₀
  rw [StableHlo.after_of_forall_not_mem (b := Proc.devRef .tc main_arg11) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host line before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 12 either, and it is no array of the region: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) suffixOps c main_arg12 = m ((c : Thread nD τ).loc main_arg12) := by
  unfold Pipeline.afterTail₀
  rw [StableHlo.after_of_forall_not_mem (b := Proc.devRef .tc main_arg12) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- No host line before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 13 either, and it is no array of the region: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) suffixOps c main_arg13 = m ((c : Thread nD τ).loc main_arg13) := by
  unfold Pipeline.afterTail₀
  rw [StableHlo.after_of_forall_not_mem (b := Proc.devRef .tc main_arg13) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- No host line before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 14 either, and it is no array of the region: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) suffixOps c main_arg14 = m ((c : Thread nD τ).loc main_arg14) := by
  unfold Pipeline.afterTail₀
  rw [StableHlo.after_of_forall_not_mem (b := Proc.devRef .tc main_arg14) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-- No host line before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 15 either, and it is no array of the region: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) suffixOps c main_arg15 = m ((c : Thread nD τ).loc main_arg15) := by
  unfold Pipeline.afterTail₀
  rw [StableHlo.after_of_forall_not_mem (b := Proc.devRef .tc main_arg15) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

/-- No host line before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 16 either, and it is no array of the region: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) suffixOps c main_arg16 = m ((c : Thread nD τ).loc main_arg16) := by
  unfold Pipeline.afterTail₀
  rw [StableHlo.after_of_forall_not_mem (b := Proc.devRef .tc main_arg16) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

/-- No host line before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 17 either, and it is no array of the region: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) suffixOps c main_arg17 = m ((c : Thread nD τ).loc main_arg17) := by
  unfold Pipeline.afterTail₀
  rw [StableHlo.after_of_forall_not_mem (b := Proc.devRef .tc main_arg17) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c

/-- No host line before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 18 either, and it is no array of the region: it ends as launched. -/
theorem W_main_arg18 (dats : (p : Fin _) → (c : Dev nD) → Dat τ (Elt F) Unit ℕ (UR sig nD τ) ℕ (cfgs p) c) (c : Dev nD) :
    Pipeline.afterTail₀ cfgs dats 0 (V0 m) suffixOps c main_arg18 = m ((c : Thread nD τ).loc main_arg18) := by
  unfold Pipeline.afterTail₀
  rw [StableHlo.after_of_forall_not_mem (b := Proc.devRef .tc main_arg18) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c

/-- No host line before the region writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 19 either, and it is no array of the region: it ends as launched. -/
theorem W_main_arg19 (dats : (p : Fin _) → (c : Dev nD) → Dat τ (Elt F) Unit ℕ (UR sig nD τ) ℕ (cfgs p) c) (c : Dev nD) :
    Pipeline.afterTail₀ cfgs dats 0 (V0 m) suffixOps c main_arg19 = m ((c : Thread nD τ).loc main_arg19) := by
  unfold Pipeline.afterTail₀
  rw [StableHlo.after_of_forall_not_mem (b := Proc.devRef .tc main_arg19) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg19 (by exact (by decide : ∀ w, Pipeline.arrRef spec0 w ≠ main_arg19))]
  exact V_main_arg19 m c

/-- No host line before the region writes argument 20: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 20 either, and it is no array of the region: it ends as launched. -/
theorem W_main_arg20 (dats : (p : Fin _) → (c : Dev nD) → Dat τ (Elt F) Unit ℕ (UR sig nD τ) ℕ (cfgs p) c) (c : Dev nD) :
    Pipeline.afterTail₀ cfgs dats 0 (V0 m) suffixOps c main_arg20 = m ((c : Thread nD τ).loc main_arg20) := by
  unfold Pipeline.afterTail₀
  rw [StableHlo.after_of_forall_not_mem (b := Proc.devRef .tc main_arg20) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg20 (by exact (by decide : ∀ w, Pipeline.arrRef spec0 w ≠ main_arg20))]
  exact V_main_arg20 m c

/-- No host line before the region writes argument 21: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 21 either, and it is no array of the region: it ends as launched. -/
theorem W_main_arg21 (dats : (p : Fin _) → (c : Dev nD) → Dat τ (Elt F) Unit ℕ (UR sig nD τ) ℕ (cfgs p) c) (c : Dev nD) :
    Pipeline.afterTail₀ cfgs dats 0 (V0 m) suffixOps c main_arg21 = m ((c : Thread nD τ).loc main_arg21) := by
  unfold Pipeline.afterTail₀
  rw [StableHlo.after_of_forall_not_mem (b := Proc.devRef .tc main_arg21) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg21 (by exact (by decide : ∀ w, Pipeline.arrRef spec0 w ≠ main_arg21))]
  exact V_main_arg21 m c

/-- No host line before the region writes argument 22: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 22 either, and it is no array of the region: it ends as launched. -/
theorem W_main_arg22 (dats : (p : Fin _) → (c : Dev nD) → Dat τ (Elt F) Unit ℕ (UR sig nD τ) ℕ (cfgs p) c) (c : Dev nD) :
    Pipeline.afterTail₀ cfgs dats 0 (V0 m) suffixOps c main_arg22 = m ((c : Thread nD τ).loc main_arg22) := by
  unfold Pipeline.afterTail₀
  rw [StableHlo.after_of_forall_not_mem (b := Proc.devRef .tc main_arg22) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg22 (by exact (by decide : ∀ w, Pipeline.arrRef spec0 w ≠ main_arg22))]
  exact V_main_arg22 m c

/-- No host line before the region writes argument 23: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 23 either, and it is no array of the region: it ends as launched. -/
theorem W_main_arg23 (dats : (p : Fin _) → (c : Dev nD) → Dat τ (Elt F) Unit ℕ (UR sig nD τ) ℕ (cfgs p) c) (c : Dev nD) :
    Pipeline.afterTail₀ cfgs dats 0 (V0 m) suffixOps c main_arg23 = m ((c : Thread nD τ).loc main_arg23) := by
  unfold Pipeline.afterTail₀
  rw [StableHlo.after_of_forall_not_mem (b := Proc.devRef .tc main_arg23) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg23 (by exact (by decide : ∀ w, Pipeline.arrRef spec0 w ≠ main_arg23))]
  exact V_main_arg23 m c

/-- No host line before the region writes argument 24: the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 24 either, and it is no array of the region: it ends as launched. -/
theorem W_main_arg24 (dats : (p : Fin _) → (c : Dev nD) → Dat τ (Elt F) Unit ℕ (UR sig nD τ) ℕ (cfgs p) c) (c : Dev nD) :
    Pipeline.afterTail₀ cfgs dats 0 (V0 m) suffixOps c main_arg24 = m ((c : Thread nD τ).loc main_arg24) := by
  unfold Pipeline.afterTail₀
  rw [StableHlo.after_of_forall_not_mem (b := Proc.devRef .tc main_arg24) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg24 (by exact (by decide : ∀ w, Pipeline.arrRef spec0 w ≠ main_arg24))]
  exact V_main_arg24 m c

end Cert.Kernel.Around

end
-- ==== Proof.KernelBody.lean ====
/-
  The kernel region of `Kernel`, at any float instance: what one grid point leaves in the three result
  blocks, that the body really does so, and the run of `@main` that follows from it.

  Grid point `t` (one of 64) works on batch rows `64·t … 64·t + 63`. It is handed the block of gathered
  prompt-item rows, the whole hypernetwork weight and bias (in two column pieces each), the two blocks of
  gathered prompt-user rows and the two blocks of masks. It writes three 64×64 blocks, each by one store
  that covers the block: the prompt embedding, and the two masked sums. Each stored value is one pure
  function of the loaded blocks (the skeleton's payloads), so the body's triple is: inputs kept, each
  output block equal to that function of the input blocks.
-/
import proofs.«175546_j19585050870116_2_alg».proof.Proof.KernelAround

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetched it or the
    block index has not moved since it was fetched. -/
theorem beforeIn0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetched it or the
    block index has not moved since it was fetched. -/
theorem beforeIn1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetched it or the
    block index has not moved since it was fetched. -/
theorem beforeIn2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetched it or the
    block index has not moved since it was fetched. -/
theorem beforeIn3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetched it or the
    block index has not moved since it was fetched. -/
theorem beforeIn4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the point fetched it or the
    block index has not moved since it was fetched. -/
theorem beforeIn5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether the point fetched it or the
    block index has not moved since it was fetched. -/
theorem beforeIn6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether the point fetched it or the
    block index has not moved since it was fetched. -/
theorem beforeIn7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, whether the point fetched it or the
    block index has not moved since it was fetched. -/
theorem beforeIn8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each result block -/

/-- The whole-block rectangles the body loads and stores through. -/
abbrev rSq : Rect S64x64 := Rect.unit (s := S64x64) ![0, 0] S64x64.size inb_S64x64_S64x64_0_0
abbrev rRow : Rect S1x64 := Rect.unit (s := S1x64) ![0, 0] S1x64.size inb_S1x64_S1x64_0_0
abbrev rWide : Rect S64x8320 := Rect.unit (s := S64x8320) ![0, 0] S64x8320.size inb_S64x8320_S64x8320_0_0
abbrev rWideRow : Rect S1x8320 := Rect.unit (s := S1x8320) ![0, 0] S1x8320.size inb_S1x8320_S1x8320_0_0
abbrev rSeq : Rect S64x200x64 := Rect.unit (s := S64x200x64) ![0, 0, 0] S64x200x64.size inb_S64x200x64_S64x200x64_0_0_0
abbrev rMask : Rect S64x200 := Rect.unit (s := S64x200) ![0, 0] S64x200.size inb_S64x200_S64x200_0_0

/-- The prompt-embedding block: the relu of the item rows times the first weight piece plus the first bias piece. -/
def outEmbed (x0 : Vec F S64x64 .bf16) (x1 : Vec F S64x64 .bf16) (x2 : Vec F S1x64 .f32) : Vec F S64x64 .f32 :=
  View.canon [⟨rSq, k0_pay4 (View.ld x0 rSq) (View.ld x1 rSq) (View.ld x2 rRow)⟩]

/-- A masked-sum block: the generated two-layer network of each batch row applied along the sequence of gathered
    user rows `xs`, weighted by the mask `xm` and summed over the sequence. -/
def outPooled1 (x0 : Vec F S64x64 .bf16) (x3 : Vec F S64x8320 .bf16) (x4 : Vec F S1x8320 .f32) (xs : Vec F S64x200x64 .bf16) (xm : Vec F S64x200 .f32) : Vec F S64x64 .f32 :=
  View.canon [⟨rSq, k0_pay1 (k0_pay6 (View.ld x0 rSq) (View.ld x3 rWide) (View.ld x4 rWideRow)) (k0_pay7 (View.ld x0 rSq) (View.ld x3 rWide) (View.ld x4 rWideRow))
    (k0_pay9 (View.ld x0 rSq) (View.ld x3 rWide) (View.ld x4 rWideRow)) (k0_pay10 (View.ld x0 rSq) (View.ld x3 rWide) (View.ld x4 rWideRow)) (View.ld xs rSeq) (View.ld xm rMask)⟩]
/-- The same for the second sequence (the second store's payload). -/
def outPooled2 (x0 : Vec F S64x64 .bf16) (x3 : Vec F S64x8320 .bf16) (x4 : Vec F S1x8320 .f32) (xs : Vec F S64x200x64 .bf16) (xm : Vec F S64x200 .f32) : Vec F S64x64 .f32 :=
  View.canon [⟨rSq, k0_pay2 (k0_pay6 (View.ld x0 rSq) (View.ld x3 rWide) (View.ld x4 rWideRow)) (k0_pay7 (View.ld x0 rSq) (View.ld x3 rWide) (View.ld x4 rWideRow))
    (k0_pay9 (View.ld x0 rSq) (View.ld x3 rWide) (View.ld x4 rWideRow)) (k0_pay10 (View.ld x0 rSq) (View.ld x3 rWide) (View.ld x4 rWideRow)) (View.ld xs rSeq) (View.ld xm rMask)⟩]

/-- One whole-block store covers the block. -/
theorem coverSq (p0 : Vec F S64x64 .f32) (y : S64x64.Idx) :
    ∃ pc ∈ ([⟨rSq, p0⟩] : List (View.Piece (Elt F) S64x64 .f32)), y ∈ pc.1.set :=
  View.cover_of_tiled [⟨rSq, p0⟩] S64x64.size (by rfl) y

/-! ## The body's triple -/

set_option maxHeartbeats 4000000 in
/-- The body on whole staging buffers — the nine inputs at contents `x0 … x8`, the three outputs at anything — runs to
    the continuation with the inputs as they were and each output at its block function of the inputs. -/
theorem sound_kernel (c : Dev nD) (E : Set ℕ) (i : grid0.Coords)
    (arg1 : Memref sig .tc .vmem S64x64 .bf16) (harg1 : arg1.IsWhole) (arg2 : Memref sig .tc .vmem S64x64 .bf16) (harg2 : arg2.IsWhole) (arg3 : Memref sig .tc .vmem S1x64 .f32) (harg3 : arg3.IsWhole) (arg4 : Memref sig .tc .vmem S64x8320 .bf16) (harg4 : arg4.IsWhole) (arg5 : Memref sig .tc .vmem S1x8320 .f32) (harg5 : arg5.IsWhole) (arg6 : Memref sig .tc .vmem S64x200x64 .bf16) (harg6 : arg6.IsWhole) (arg7 : Memref sig .tc .vmem S64x200x64 .bf16) (harg7 : arg7.IsWhole) (arg8 : Memref sig .tc .vmem S64x200 .f32) (harg8 : arg8.IsWhole) (arg9 : Memref sig .tc .vmem S64x200 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S64x64 .f32) (harg12 : arg12.IsWhole)
    (x0 : Vec F S64x64 .bf16) (x1 : Vec F S64x64 .bf16) (x2 : Vec F S1x64 .f32) (x3 : Vec F S64x8320 .bf16) (x4 : Vec F S1x8320 .f32) (x5 : Vec F S64x200x64 .bf16) (x6 : Vec F S64x200x64 .bf16) (x7 : Vec F S64x200 .f32) (x8 : Vec F S64x200 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (outEmbed x0 x1 x2)
            ∗ owns (c : Thread nD τ) arg11 fullShare (outPooled1 x0 x3 x4 x5 x7)
            ∗ owns (c : Thread nD τ) arg12 fullShare (outPooled2 x0 x3 x4 x6 x8)) -∗ K ⟨⟩))
      ⊢ wp frame (wpE (defs₀ (F := F)) Variants.none c none) E (cc0__prompt_kernel i arg1 harg1 arg2 harg2 arg3 harg3 arg4 harg4 arg5 harg5 arg6 harg6 arg7 harg7 arg8 harg8 arg9 harg9 arg10 harg10 arg11 harg11 arg12 harg12) K := by
  simp only [cc0__prompt_kernel_eq_skeleton]; unfold cc0__prompt_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (coverSq _)
  isplitl [H10]
  · iexists _; isplitr
    swap; · iexact H10
    ipureintro
    try dsimp only
    exact View.read_writes_eq_canon _ _ _ (coverSq _)
  iexists _; isplitr
  swap; · iexact H11
  ipureintro
  try dsimp only
  exact View.read_writes_eq_canon _ _ _ (coverSq _)

/-! ## The proof data of the region -/

/-- On core `c`: the arrays as the region finds them; after the body at point `t` each input buffer still at its block
    and each output buffer at its block function of the input blocks; the invariant is the untouched rest; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outEmbed (iblk m c 0 t) (iblk m c 1 t) (iblk m c 2 t)
    | ⟨10, _⟩ => outPooled1 (iblk m c 0 t) (iblk m c 3 t) (iblk m c 4 t) (iblk m c 5 t) (iblk m c 7 t)
    | ⟨11, _⟩ => outPooled2 (iblk m c 0 t) (iblk m c 3 t) (iblk m c 4 t) (iblk m c 6 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outEmbed (iblk m c 0 t) (iblk m c 1 t) (iblk m c 2 t) := by dsimp only [dats]
theorem after10 (c : Dev nD) (t : Fin cfg0.N) : (dats m 0 c).after 10 t = outPooled1 (iblk m c 0 t) (iblk m c 3 t) (iblk m c 4 t) (iblk m c 5 t) (iblk m c 7 t) := by dsimp only [dats]
theorem after11 (c : Dev nD) (t : Fin cfg0.N) : (dats m 0 c).after 11 t = outPooled2 (iblk m c 0 t) (iblk m c 3 t) (iblk m c 4 t) (iblk m c 6 t) (iblk m c 8 t) := by dsimp only [dats]

theorem beforeIn0 (c : Dev nD) (t : Fin cfg0.N) (d) : (dats m 0 c).before 0 t d = iblk m c 0 t :=
  beforeIn0_of m (dats m 0 c) (A_eq m c 0) (after0 m c) t d
theorem beforeIn1 (c : Dev nD) (t : Fin cfg0.N) (d) : (dats m 0 c).before 1 t d = iblk m c 1 t :=
  beforeIn1_of m (dats m 0 c) (A_eq m c 1) (after1 m c) t d
theorem beforeIn2 (c : Dev nD) (t : Fin cfg0.N) (d) : (dats m 0 c).before 2 t d = iblk m c 2 t :=
  beforeIn2_of m (dats m 0 c) (A_eq m c 2) (after2 m c) t d
theorem beforeIn3 (c : Dev nD) (t : Fin cfg0.N) (d) : (dats m 0 c).before 3 t d = iblk m c 3 t :=
  beforeIn3_of m (dats m 0 c) (A_eq m c 3) (after3 m c) t d
theorem beforeIn4 (c : Dev nD) (t : Fin cfg0.N) (d) : (dats m 0 c).before 4 t d = iblk m c 4 t :=
  beforeIn4_of m (dats m 0 c) (A_eq m c 4) (after4 m c) t d
theorem beforeIn5 (c : Dev nD) (t : Fin cfg0.N) (d) : (dats m 0 c).before 5 t d = iblk m c 5 t :=
  beforeIn5_of m (dats m 0 c) (A_eq m c 5) (after5 m c) t d
theorem beforeIn6 (c : Dev nD) (t : Fin cfg0.N) (d) : (dats m 0 c).before 6 t d = iblk m c 6 t :=
  beforeIn6_of m (dats m 0 c) (A_eq m c 6) (after6 m c) t d
theorem beforeIn7 (c : Dev nD) (t : Fin cfg0.N) (d) : (dats m 0 c).before 7 t d = iblk m c 7 t :=
  beforeIn7_of m (dats m 0 c) (A_eq m c 7) (after7 m c) t d
theorem beforeIn8 (c : Dev nD) (t : Fin cfg0.N) (d) : (dats m 0 c).before 8 t d = iblk m c 8 t :=
  beforeIn8_of m (dats m 0 c) (A_eq m c 8) (after8 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
/-- The body at any point: the input buffers hold their blocks, so the triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [beforeIn0, beforeIn1, beforeIn2, beforeIn3, beforeIn4, beforeIn5, beforeIn6, beforeIn7, beforeIn8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of `@main` terminates without a fault; at the end every array of the region holds what the
    proof data says, and every other unscoped buffer what the host lines after the region leave there. -/
theorem run_main : θ_run defs (onTc (τ := τ) (main (F := F))) (s₀ m ρ) (Pipeline.FramePost cfgs (dats m) 0 (Pipeline.afterTail₀ cfgs (dats m) 0 (V0 m) suffixOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := suffixOps) (hsub := sfx_sub) (hfresh := sfx_fresh) (hkeep := sfx_keeps)
    (hmain := hmain m Variants.none) (hA := A_eq m) (hΦ := fun _ _ => rfl)

/-- The frame: every argument array ends as launched (none is an array of the region, and no host line writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c),
      ((h c).2 main_arg21 (Pipeline.mem_restRefs_of main_arg21 (by decide) (by decide))).trans (W_main_arg21 m (dats m) c),
      ((h c).2 main_arg22 (Pipeline.mem_restRefs_of main_arg22 (by decide) (by decide))).trans (W_main_arg22 m (dats m) c),
      ((h c).2 main_arg23 (Pipeline.mem_restRefs_of main_arg23 (by decide) (by decide))).trans (W_main_arg23 m (dats m) c),
      ((h c).2 main_arg24 (Pipeline.mem_restRefs_of main_arg24 (by decide) (by decide))).trans (W_main_arg24 m (dats m) c)⟩) (run_main m ρ)

end Cert.Kernel.Around

end
-- ==== Proof.KernelIdealAround.lean ====
/-
  `@main` of `KernelIdeal` around its one kernel region, at any float instance.

  The host lines before the region (the two towers' dense layers, the gathers of embedding rows, the
  slices of the hypernetwork's weight and bias) are folded into one valuation `V0`: what every
  TensorCore buffer holds when the region is entered. The host lines after it (the two mask counts,
  the softplus loss, the fusion layer and the final row sum) read the three result arrays and write
  only buffers of their own. None of these lines writes an argument array, so each argument is found
  by the region, and left at the end, exactly as launched: that is the frame claim once the region
  itself has run.
-/
import proofs.«175546_j19585050870116_2_alg».proof.Proof.Gen.KernelIdeal.Launch
import proofs.«175546_j19585050870116_2_alg».proof.Proof.Gen.KernelIdeal.Skeleton
import proofs.«175546_j19585050870116_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host lines, before and after -/

/-- The stretches of host operations before the region, in program order. -/
abbrev prefixOps : List (List (HloOp τ sig (Elt F))) := [hostOps0, hostOps0_1, hostOps0_2, hostOps0_3, hostOps0_4, hostOps0_5, hostOps0_6, hostOps0_7, hostOps0_8]
/-- The stretches of host operations after the region, in program order. -/
abbrev suffixOps : List (List (HloOp τ sig (Elt F))) := [hostOps1, hostOps1_1, hostOps1_2, hostOps1_3, hostOps1_4]

/-- What core `c`'s TensorCore buffers hold when the region is entered: the launch contents run through
    every host line before it. -/
abbrev V0 (c : Dev nD) : Valuation τ sig (Elt F) := StableHlo.after (List.flatten (prefixOps (F := F))) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- `@main` is the host lines before the region, the region, and the host lines after it; so it reduces to
    the region entered at `V` and continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((suffixOps (F := F)).map StableHlo.seq)) :=
  Pipeline.hmain_around cfgs 0 defs₀ 𝒱₀ m main prefixOps suffixOps
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The later lines touch only the region's arrays and buffers that bypass the region. -/
theorem sfx_sub : ∀ ops ∈ (suffixOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (suffixOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
set_option maxHeartbeats 4000000 in
/-- And none of them writes an array of the region: each writes its own result buffer only. -/
theorem sfx_keeps : ∀ ops ∈ (suffixOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · simp only [hostOps1, List.mem_cons, List.mem_nil_iff, or_false] at hop
    rcases hop with rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
  · simp only [hostOps1_1, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
  · simp only [hostOps1_2, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
  · simp only [hostOps1_4, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The argument arrays are written by no host line -/

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 0 either, and it is no array of the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) suffixOps c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 1 either, and it is no array of the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) suffixOps c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 2 either, and it is no array of the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) suffixOps c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 3 either, and it is no array of the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) suffixOps c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 4 either, and it is no array of the region: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) suffixOps c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 5 either, and it is no array of the region: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) suffixOps c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 6 either, and it is no array of the region: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) suffixOps c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 7 either, and it is no array of the region: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) suffixOps c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 8 either, and it is no array of the region: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) suffixOps c main_arg8 = m ((c : Thread nD τ).loc main_arg8) := by
  unfold Pipeline.afterTail₀
  rw [StableHlo.after_of_forall_not_mem (b := Proc.devRef .tc main_arg8) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 9 either, and it is no array of the region: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) suffixOps c main_arg9 = m ((c : Thread nD τ).loc main_arg9) := by
  unfold Pipeline.afterTail₀
  rw [StableHlo.after_of_forall_not_mem (b := Proc.devRef .tc main_arg9) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 10 either, and it is no array of the region: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) suffixOps c main_arg10 = m ((c : Thread nD τ).loc main_arg10) := by
  unfold Pipeline.afterTail₀
  rw [StableHlo.after_of_forall_not_mem (b := Proc.devRef .tc main_arg10) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host line before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 11 either, and it is no array of the region: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) suffixOps c main_arg11 = m ((c : Thread nD τ).loc main_arg11) := by
  unfold Pipeline.afterTail₀
  rw [StableHlo.after_of_forall_not_mem (b := Proc.devRef .tc main_arg11) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host line before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 12 either, and it is no array of the region: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) suffixOps c main_arg12 = m ((c : Thread nD τ).loc main_arg12) := by
  unfold Pipeline.afterTail₀
  rw [StableHlo.after_of_forall_not_mem (b := Proc.devRef .tc main_arg12) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- No host line before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 13 either, and it is no array of the region: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) suffixOps c main_arg13 = m ((c : Thread nD τ).loc main_arg13) := by
  unfold Pipeline.afterTail₀
  rw [StableHlo.after_of_forall_not_mem (b := Proc.devRef .tc main_arg13) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- No host line before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 14 either, and it is no array of the region: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) suffixOps c main_arg14 = m ((c : Thread nD τ).loc main_arg14) := by
  unfold Pipeline.afterTail₀
  rw [StableHlo.after_of_forall_not_mem (b := Proc.devRef .tc main_arg14) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-- No host line before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 15 either, and it is no array of the region: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) suffixOps c main_arg15 = m ((c : Thread nD τ).loc main_arg15) := by
  unfold Pipeline.afterTail₀
  rw [StableHlo.after_of_forall_not_mem (b := Proc.devRef .tc main_arg15) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

/-- No host line before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 16 either, and it is no array of the region: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) suffixOps c main_arg16 = m ((c : Thread nD τ).loc main_arg16) := by
  unfold Pipeline.afterTail₀
  rw [StableHlo.after_of_forall_not_mem (b := Proc.devRef .tc main_arg16) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

/-- No host line before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 17 either, and it is no array of the region: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) suffixOps c main_arg17 = m ((c : Thread nD τ).loc main_arg17) := by
  unfold Pipeline.afterTail₀
  rw [StableHlo.after_of_forall_not_mem (b := Proc.devRef .tc main_arg17) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c

/-- No host line before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 18 either, and it is no array of the region: it ends as launched. -/
theorem W_main_arg18 (dats : (p : Fin _) → (c : Dev nD) → Dat τ (Elt F) Unit ℕ (UR sig nD τ) ℕ (cfgs p) c) (c : Dev nD) :
    Pipeline.afterTail₀ cfgs dats 0 (V0 m) suffixOps c main_arg18 = m ((c : Thread nD τ).loc main_arg18) := by
  unfold Pipeline.afterTail₀
  rw [StableHlo.after_of_forall_not_mem (b := Proc.devRef .tc main_arg18) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c

/-- No host line before the region writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 19 either, and it is no array of the region: it ends as launched. -/
theorem W_main_arg19 (dats : (p : Fin _) → (c : Dev nD) → Dat τ (Elt F) Unit ℕ (UR sig nD τ) ℕ (cfgs p) c) (c : Dev nD) :
    Pipeline.afterTail₀ cfgs dats 0 (V0 m) suffixOps c main_arg19 = m ((c : Thread nD τ).loc main_arg19) := by
  unfold Pipeline.afterTail₀
  rw [StableHlo.after_of_forall_not_mem (b := Proc.devRef .tc main_arg19) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg19 (by exact (by decide : ∀ w, Pipeline.arrRef spec0 w ≠ main_arg19))]
  exact V_main_arg19 m c

/-- No host line before the region writes argument 20: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 20 either, and it is no array of the region: it ends as launched. -/
theorem W_main_arg20 (dats : (p : Fin _) → (c : Dev nD) → Dat τ (Elt F) Unit ℕ (UR sig nD τ) ℕ (cfgs p) c) (c : Dev nD) :
    Pipeline.afterTail₀ cfgs dats 0 (V0 m) suffixOps c main_arg20 = m ((c : Thread nD τ).loc main_arg20) := by
  unfold Pipeline.afterTail₀
  rw [StableHlo.after_of_forall_not_mem (b := Proc.devRef .tc main_arg20) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg20 (by exact (by decide : ∀ w, Pipeline.arrRef spec0 w ≠ main_arg20))]
  exact V_main_arg20 m c

/-- No host line before the region writes argument 21: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 21 either, and it is no array of the region: it ends as launched. -/
theorem W_main_arg21 (dats : (p : Fin _) → (c : Dev nD) → Dat τ (Elt F) Unit ℕ (UR sig nD τ) ℕ (cfgs p) c) (c : Dev nD) :
    Pipeline.afterTail₀ cfgs dats 0 (V0 m) suffixOps c main_arg21 = m ((c : Thread nD τ).loc main_arg21) := by
  unfold Pipeline.afterTail₀
  rw [StableHlo.after_of_forall_not_mem (b := Proc.devRef .tc main_arg21) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg21 (by exact (by decide : ∀ w, Pipeline.arrRef spec0 w ≠ main_arg21))]
  exact V_main_arg21 m c

/-- No host line before the region writes argument 22: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 22 either, and it is no array of the region: it ends as launched. -/
theorem W_main_arg22 (dats : (p : Fin _) → (c : Dev nD) → Dat τ (Elt F) Unit ℕ (UR sig nD τ) ℕ (cfgs p) c) (c : Dev nD) :
    Pipeline.afterTail₀ cfgs dats 0 (V0 m) suffixOps c main_arg22 = m ((c : Thread nD τ).loc main_arg22) := by
  unfold Pipeline.afterTail₀
  rw [StableHlo.after_of_forall_not_mem (b := Proc.devRef .tc main_arg22) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg22 (by exact (by decide : ∀ w, Pipeline.arrRef spec0 w ≠ main_arg22))]
  exact V_main_arg22 m c

/-- No host line before the region writes argument 23: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 23 either, and it is no array of the region: it ends as launched. -/
theorem W_main_arg23 (dats : (p : Fin _) → (c : Dev nD) → Dat τ (Elt F) Unit ℕ (UR sig nD τ) ℕ (cfgs p) c) (c : Dev nD) :
    Pipeline.afterTail₀ cfgs dats 0 (V0 m) suffixOps c main_arg23 = m ((c : Thread nD τ).loc main_arg23) := by
  unfold Pipeline.afterTail₀
  rw [StableHlo.after_of_forall_not_mem (b := Proc.devRef .tc main_arg23) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg23 (by exact (by decide : ∀ w, Pipeline.arrRef spec0 w ≠ main_arg23))]
  exact V_main_arg23 m c

/-- No host line before the region writes argument 24: the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host line after the region writes argument 24 either, and it is no array of the region: it ends as launched. -/
theorem W_main_arg24 (dats : (p : Fin _) → (c : Dev nD) → Dat τ (Elt F) Unit ℕ (UR sig nD τ) ℕ (cfgs p) c) (c : Dev nD) :
    Pipeline.afterTail₀ cfgs dats 0 (V0 m) suffixOps c main_arg24 = m ((c : Thread nD τ).loc main_arg24) := by
  unfold Pipeline.afterTail₀
  rw [StableHlo.after_of_forall_not_mem (b := Proc.devRef .tc main_arg24) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg24 (by exact (by decide : ∀ w, Pipeline.arrRef spec0 w ≠ main_arg24))]
  exact V_main_arg24 m c

end Cert.KernelIdeal.Around

end
-- ==== Proof.KernelIdealBody.lean ====
/-
  The kernel region of `KernelIdeal`, at any float instance: what one grid point leaves in the three result
  blocks, that the body really does so, and the run of `@main` that follows from it.

  Grid point `t` (one of 64) works on batch rows `64·t … 64·t + 63`. It is handed the block of gathered
  prompt-item rows, the whole hypernetwork weight and bias (in two column pieces each), the two blocks of
  gathered prompt-user rows and the two blocks of masks. It writes three 64×64 blocks, each by one store
  that covers the block: the prompt embedding, and the two masked sums. Each stored value is one pure
  function of the loaded blocks (the skeleton's payloads), so the body's triple is: inputs kept, each
  output block equal to that function of the input blocks.
-/
import proofs.«175546_j19585050870116_2_alg».proof.Proof.KernelIdealAround

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetched it or the
    block index has not moved since it was fetched. -/
theorem beforeIn0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetched it or the
    block index has not moved since it was fetched. -/
theorem beforeIn1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetched it or the
    block index has not moved since it was fetched. -/
theorem beforeIn2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetched it or the
    block index has not moved since it was fetched. -/
theorem beforeIn3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetched it or the
    block index has not moved since it was fetched. -/
theorem beforeIn4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the point fetched it or the
    block index has not moved since it was fetched. -/
theorem beforeIn5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether the point fetched it or the
    block index has not moved since it was fetched. -/
theorem beforeIn6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether the point fetched it or the
    block index has not moved since it was fetched. -/
theorem beforeIn7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, whether the point fetched it or the
    block index has not moved since it was fetched. -/
theorem beforeIn8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each result block -/

/-- The whole-block rectangles the body loads and stores through. -/
abbrev rSq : Rect S64x64 := Rect.unit (s := S64x64) ![0, 0] S64x64.size inb_S64x64_S64x64_0_0
abbrev rRow : Rect S1x64 := Rect.unit (s := S1x64) ![0, 0] S1x64.size inb_S1x64_S1x64_0_0
abbrev rWide : Rect S64x8320 := Rect.unit (s := S64x8320) ![0, 0] S64x8320.size inb_S64x8320_S64x8320_0_0
abbrev rWideRow : Rect S1x8320 := Rect.unit (s := S1x8320) ![0, 0] S1x8320.size inb_S1x8320_S1x8320_0_0
abbrev rSeq : Rect S64x200x64 := Rect.unit (s := S64x200x64) ![0, 0, 0] S64x200x64.size inb_S64x200x64_S64x200x64_0_0_0
abbrev rMask : Rect S64x200 := Rect.unit (s := S64x200) ![0, 0] S64x200.size inb_S64x200_S64x200_0_0

/-- The prompt-embedding block: the relu of the item rows times the first weight piece plus the first bias piece. -/
def outEmbed (x0 : Vec F S64x64 .bf16) (x1 : Vec F S64x64 .bf16) (x2 : Vec F S1x64 .f32) : Vec F S64x64 .f32 :=
  View.canon [⟨rSq, k0_pay4 (View.ld x0 rSq) (View.ld x1 rSq) (View.ld x2 rRow)⟩]

/-- A masked-sum block: the generated two-layer network of each batch row applied along the sequence of gathered
    user rows `xs`, weighted by the mask `xm` and summed over the sequence. -/
def outPooled1 (x0 : Vec F S64x64 .bf16) (x3 : Vec F S64x8320 .bf16) (x4 : Vec F S1x8320 .f32) (xs : Vec F S64x200x64 .bf16) (xm : Vec F S64x200 .f32) : Vec F S64x64 .f32 :=
  View.canon [⟨rSq, k0_pay1 (k0_pay6 (View.ld x0 rSq) (View.ld x3 rWide) (View.ld x4 rWideRow)) (k0_pay7 (View.ld x0 rSq) (View.ld x3 rWide) (View.ld x4 rWideRow))
    (k0_pay9 (View.ld x0 rSq) (View.ld x3 rWide) (View.ld x4 rWideRow)) (k0_pay10 (View.ld x0 rSq) (View.ld x3 rWide) (View.ld x4 rWideRow)) (View.ld xs rSeq) (View.ld xm rMask)⟩]
/-- The same for the second sequence (the second store's payload). -/
def outPooled2 (x0 : Vec F S64x64 .bf16) (x3 : Vec F S64x8320 .bf16) (x4 : Vec F S1x8320 .f32) (xs : Vec F S64x200x64 .bf16) (xm : Vec F S64x200 .f32) : Vec F S64x64 .f32 :=
  View.canon [⟨rSq, k0_pay2 (k0_pay6 (View.ld x0 rSq) (View.ld x3 rWide) (View.ld x4 rWideRow)) (k0_pay7 (View.ld x0 rSq) (View.ld x3 rWide) (View.ld x4 rWideRow))
    (k0_pay9 (View.ld x0 rSq) (View.ld x3 rWide) (View.ld x4 rWideRow)) (k0_pay10 (View.ld x0 rSq) (View.ld x3 rWide) (View.ld x4 rWideRow)) (View.ld xs rSeq) (View.ld xm rMask)⟩]

/-- One whole-block store covers the block. -/
theorem coverSq (p0 : Vec F S64x64 .f32) (y : S64x64.Idx) :
    ∃ pc ∈ ([⟨rSq, p0⟩] : List (View.Piece (Elt F) S64x64 .f32)), y ∈ pc.1.set :=
  View.cover_of_tiled [⟨rSq, p0⟩] S64x64.size (by rfl) y

/-! ## The body's triple -/

set_option maxHeartbeats 4000000 in
/-- The body on whole staging buffers — the nine inputs at contents `x0 … x8`, the three outputs at anything — runs to
    the continuation with the inputs as they were and each output at its block function of the inputs. -/
theorem sound_kernel (c : Dev nD) (E : Set ℕ) (i : grid0.Coords)
    (arg1 : Memref sig .tc .vmem S64x64 .bf16) (harg1 : arg1.IsWhole) (arg2 : Memref sig .tc .vmem S64x64 .bf16) (harg2 : arg2.IsWhole) (arg3 : Memref sig .tc .vmem S1x64 .f32) (harg3 : arg3.IsWhole) (arg4 : Memref sig .tc .vmem S64x8320 .bf16) (harg4 : arg4.IsWhole) (arg5 : Memref sig .tc .vmem S1x8320 .f32) (harg5 : arg5.IsWhole) (arg6 : Memref sig .tc .vmem S64x200x64 .bf16) (harg6 : arg6.IsWhole) (arg7 : Memref sig .tc .vmem S64x200x64 .bf16) (harg7 : arg7.IsWhole) (arg8 : Memref sig .tc .vmem S64x200 .f32) (harg8 : arg8.IsWhole) (arg9 : Memref sig .tc .vmem S64x200 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S64x64 .f32) (harg12 : arg12.IsWhole)
    (x0 : Vec F S64x64 .bf16) (x1 : Vec F S64x64 .bf16) (x2 : Vec F S1x64 .f32) (x3 : Vec F S64x8320 .bf16) (x4 : Vec F S1x8320 .f32) (x5 : Vec F S64x200x64 .bf16) (x6 : Vec F S64x200x64 .bf16) (x7 : Vec F S64x200 .f32) (x8 : Vec F S64x200 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (outEmbed x0 x1 x2)
            ∗ owns (c : Thread nD τ) arg11 fullShare (outPooled1 x0 x3 x4 x5 x7)
            ∗ owns (c : Thread nD τ) arg12 fullShare (outPooled2 x0 x3 x4 x6 x8)) -∗ K ⟨⟩))
      ⊢ wp frame (wpE (defs₀ (F := F)) Variants.none c none) E (cc0__prompt_kernel i arg1 harg1 arg2 harg2 arg3 harg3 arg4 harg4 arg5 harg5 arg6 harg6 arg7 harg7 arg8 harg8 arg9 harg9 arg10 harg10 arg11 harg11 arg12 harg12) K := by
  simp only [cc0__prompt_kernel_eq_skeleton]; unfold cc0__prompt_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (coverSq _)
  isplitl [H10]
  · iexists _; isplitr
    swap; · iexact H10
    ipureintro
    try dsimp only
    exact View.read_writes_eq_canon _ _ _ (coverSq _)
  iexists _; isplitr
  swap; · iexact H11
  ipureintro
  try dsimp only
  exact View.read_writes_eq_canon _ _ _ (coverSq _)

/-! ## The proof data of the region -/

/-- On core `c`: the arrays as the region finds them; after the body at point `t` each input buffer still at its block
    and each output buffer at its block function of the input blocks; the invariant is the untouched rest; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outEmbed (iblk m c 0 t) (iblk m c 1 t) (iblk m c 2 t)
    | ⟨10, _⟩ => outPooled1 (iblk m c 0 t) (iblk m c 3 t) (iblk m c 4 t) (iblk m c 5 t) (iblk m c 7 t)
    | ⟨11, _⟩ => outPooled2 (iblk m c 0 t) (iblk m c 3 t) (iblk m c 4 t) (iblk m c 6 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outEmbed (iblk m c 0 t) (iblk m c 1 t) (iblk m c 2 t) := by dsimp only [dats]
theorem after10 (c : Dev nD) (t : Fin cfg0.N) : (dats m 0 c).after 10 t = outPooled1 (iblk m c 0 t) (iblk m c 3 t) (iblk m c 4 t) (iblk m c 5 t) (iblk m c 7 t) := by dsimp only [dats]
theorem after11 (c : Dev nD) (t : Fin cfg0.N) : (dats m 0 c).after 11 t = outPooled2 (iblk m c 0 t) (iblk m c 3 t) (iblk m c 4 t) (iblk m c 6 t) (iblk m c 8 t) := by dsimp only [dats]

theorem beforeIn0 (c : Dev nD) (t : Fin cfg0.N) (d) : (dats m 0 c).before 0 t d = iblk m c 0 t :=
  beforeIn0_of m (dats m 0 c) (A_eq m c 0) (after0 m c) t d
theorem beforeIn1 (c : Dev nD) (t : Fin cfg0.N) (d) : (dats m 0 c).before 1 t d = iblk m c 1 t :=
  beforeIn1_of m (dats m 0 c) (A_eq m c 1) (after1 m c) t d
theorem beforeIn2 (c : Dev nD) (t : Fin cfg0.N) (d) : (dats m 0 c).before 2 t d = iblk m c 2 t :=
  beforeIn2_of m (dats m 0 c) (A_eq m c 2) (after2 m c) t d
theorem beforeIn3 (c : Dev nD) (t : Fin cfg0.N) (d) : (dats m 0 c).before 3 t d = iblk m c 3 t :=
  beforeIn3_of m (dats m 0 c) (A_eq m c 3) (after3 m c) t d
theorem beforeIn4 (c : Dev nD) (t : Fin cfg0.N) (d) : (dats m 0 c).before 4 t d = iblk m c 4 t :=
  beforeIn4_of m (dats m 0 c) (A_eq m c 4) (after4 m c) t d
theorem beforeIn5 (c : Dev nD) (t : Fin cfg0.N) (d) : (dats m 0 c).before 5 t d = iblk m c 5 t :=
  beforeIn5_of m (dats m 0 c) (A_eq m c 5) (after5 m c) t d
theorem beforeIn6 (c : Dev nD) (t : Fin cfg0.N) (d) : (dats m 0 c).before 6 t d = iblk m c 6 t :=
  beforeIn6_of m (dats m 0 c) (A_eq m c 6) (after6 m c) t d
theorem beforeIn7 (c : Dev nD) (t : Fin cfg0.N) (d) : (dats m 0 c).before 7 t d = iblk m c 7 t :=
  beforeIn7_of m (dats m 0 c) (A_eq m c 7) (after7 m c) t d
theorem beforeIn8 (c : Dev nD) (t : Fin cfg0.N) (d) : (dats m 0 c).before 8 t d = iblk m c 8 t :=
  beforeIn8_of m (dats m 0 c) (A_eq m c 8) (after8 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
/-- The body at any point: the input buffers hold their blocks, so the triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [beforeIn0, beforeIn1, beforeIn2, beforeIn3, beforeIn4, beforeIn5, beforeIn6, beforeIn7, beforeIn8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of `@main` terminates without a fault; at the end every array of the region holds what the
    proof data says, and every other unscoped buffer what the host lines after the region leave there. -/
theorem run_main : θ_run defs (onTc (τ := τ) (main (F := F))) (s₀ m ρ) (Pipeline.FramePost cfgs (dats m) 0 (Pipeline.afterTail₀ cfgs (dats m) 0 (V0 m) suffixOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := suffixOps) (hsub := sfx_sub) (hfresh := sfx_fresh) (hkeep := sfx_keeps)
    (hmain := hmain m Variants.none) (hA := A_eq m) (hΦ := fun _ _ => rfl)

/-- The frame: every argument array ends as launched (none is an array of the region, and no host line writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c),
      ((h c).2 main_arg21 (Pipeline.mem_restRefs_of main_arg21 (by decide) (by decide))).trans (W_main_arg21 m (dats m) c),
      ((h c).2 main_arg22 (Pipeline.mem_restRefs_of main_arg22 (by decide) (by decide))).trans (W_main_arg22 m (dats m) c),
      ((h c).2 main_arg23 (Pipeline.mem_restRefs_of main_arg23 (by decide) (by decide))).trans (W_main_arg23 m (dats m) c),
      ((h c).2 main_arg24 (Pipeline.mem_restRefs_of main_arg24 (by decide) (by decide))).trans (W_main_arg24 m (dats m) c)⟩) (run_main m ρ)

end Cert.KernelIdeal.Around

end
-- ==== Proof.LibPromptBranch.lean ====
/-
  The mathematics of the prompt branch, stated once over plain arrays of extended reals.

  For a batch row `b`, the hypernetwork maps the row's prompt-item embedding `pit b ·` (64 numbers) through one
  dense layer with a relu,

      hyper b q = max (∑ k, pit b k · W k q + β q) 0        (q ranges over 8384 columns),

  and its 8384 outputs are read as five pieces: the prompt embedding (columns 0 … 63), then the weights and biases
  of a two-layer network private to the row: a 64×64 matrix `w₁` (row-major in columns 64 … 4159), a bias `b₁`
  (4160 … 4223), a second 64×64 matrix `w₂` (4224 … 8319) and a bias `b₂` (8320 … 8383). That private network is
  applied to each of the 200 gathered user embeddings `ue b l ·` of the row,

      hidden b l h = max (∑ d, ue b l d · w₁ d h + b₁ h) 0,      out b l p = ∑ h, hidden b l h · w₂ h p + b₂ p,

  and the results are weighted by the 0/1 mask of the row and added up over the sequence:

      pooled b p = ∑ l, out b l p · mask b l.

  Both programs compute exactly these functions; they differ in where the hypernetwork layer is evaluated (whole,
  or per block of 64 batch rows inside the kernel), in the number format of intermediate values (a change of
  format is the identity on the extended reals) and in how the biases are spread along the sequence (a broadcast,
  or a product with a column of ones), none of which changes the value.
-/
import Idealize.ShloMosaic.PureOps.Ideal
import Idealize.ShloMosaic.Lib.ValueIdx

noncomputable section

open scoped BigOperators

namespace PromptBranch

open Idealize.ShloMosaic Idealize.ShloMosaic.ValueIdx

/-- The arrays' index types, by literal extents. -/
abbrev RowsIdx := (⟨2, ![4096, 64]⟩ : Shape).Idx
abbrev WeightIdx := (⟨2, ![64, 8384]⟩ : Shape).Idx
abbrev BiasIdx := (⟨1, ![8384]⟩ : Shape).Idx
abbrev SeqIdx := (⟨3, ![4096, 200, 64]⟩ : Shape).Idx
abbrev MaskIdx := (⟨2, ![4096, 200]⟩ : Shape).Idx

/-- Column of the prompt embedding's entry `j`. -/
def colE (j : Fin 64) : Fin 8384 := ⟨j.val, by have := j.isLt; omega⟩
/-- Column of the first private matrix's entry `(d, h)`: row-major after the 64 embedding columns. -/
def colW1 (d h : Fin 64) : Fin 8384 := ⟨64 + (d.val * 64 + h.val), by have := d.isLt; have := h.isLt; omega⟩
/-- Column of the first private bias's entry `h`. -/
def colB1 (h : Fin 64) : Fin 8384 := ⟨4160 + h.val, by have := h.isLt; omega⟩
/-- Column of the second private matrix's entry `(h, p)`. -/
def colW2 (h p : Fin 64) : Fin 8384 := ⟨4224 + (h.val * 64 + p.val), by have := h.isLt; have := p.isLt; omega⟩
/-- Column of the second private bias's entry `p`. -/
def colB2 (p : Fin 64) : Fin 8384 := ⟨8320 + p.val, by have := p.isLt; omega⟩

variable (pit : RowsIdx → EReal) (W : WeightIdx → EReal) (β : BiasIdx → EReal)

/-- The hypernetwork's dense layer with its relu, for batch row `b` at output column `q`. -/
def hyper (b : Fin 4096) (q : Fin 8384) : EReal :=
  max ((∑ k : Fin 64, pit (ix2 b k) * W (ix2 k q)) + β (ix1 q)) 0

variable (ue : SeqIdx → EReal) (mask : MaskIdx → EReal)

/-- The row's private first layer at sequence position `l`, hidden unit `h`. -/
def hidden (b : Fin 4096) (l : Fin 200) (h : Fin 64) : EReal :=
  max ((∑ d : Fin 64, ue (ix3 b l d) * hyper pit W β b (colW1 d h)) + hyper pit W β b (colB1 h)) 0

/-- The row's private second layer at sequence position `l`, output unit `p`. -/
def out (b : Fin 4096) (l : Fin 200) (p : Fin 64) : EReal :=
  (∑ h : Fin 64, hidden pit W β ue b l h * hyper pit W β b (colW2 h p)) + hyper pit W β b (colB2 p)

/-- The masked sum over the sequence. -/
def pooled (b : Fin 4096) (p : Fin 64) : EReal :=
  ∑ l : Fin 200, out pit W β ue b l p * mask (ix2 b l)

/-- The number of unmasked positions of a row, as the sum of the mask. -/
def count (b : Fin 4096) : EReal := ∑ l : Fin 200, mask (ix2 b l)

end PromptBranch

end
-- ==== Proof.KernelIdealBlock.lean ====
/-
  The kernel body's arithmetic read entry by entry, on the extended reals.

  The body handles a block of 64 batch rows. Its products are ordinary finite sums once the accumulator is the
  zero block; the relu is a maximum with zero; slices, reshapes and broadcasts only move entries. Read at an entry,
  each stored block is therefore an explicit expression in entries of the loaded blocks.
-/
import proofs.«175546_j19585050870116_2_alg».proof.Proof.Gen.KernelIdeal.Skeleton
import proofs.«175546_j19585050870116_2_alg».proof.Proof.LibPromptBranch
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Block

open Cert.KernelIdeal Cert.KernelIdeal.Gen Idealize.ShloMosaic Idealize.ShloMosaic.ValueIdx

/-! ## The four matrix products at an entry -/

theorem mmEmbed_l0 (i : S64x64.Idx) (q : dot_S64x64_S64x64_S64x64_1_0_0_1_n_n.contr.Idx) : (dot_S64x64_S64x64_S64x64_1_0_0_1_n_n.lhsIdx i q 0).val = (i 0).val := by
  unfold DotDims.lhsIdx
  rw [dif_neg (show ¬(0 : Fin S64x64.rank) ∈ dot_S64x64_S64x64_S64x64_1_0_0_1_n_n.lhsBatch by decide), dif_pos (show (0 : Fin S64x64.rank) ∈ dot_S64x64_S64x64_S64x64_1_0_0_1_n_n.lhsNonContracting by decide)]
  rfl
theorem mmEmbed_l1 (i : S64x64.Idx) (q : dot_S64x64_S64x64_S64x64_1_0_0_1_n_n.contr.Idx) : (dot_S64x64_S64x64_S64x64_1_0_0_1_n_n.lhsIdx i q 1).val = (q ⟨0, by decide⟩).val :=
  dot_S64x64_S64x64_S64x64_1_0_0_1_n_n.lhsIdx_val_of_single rfl i q
theorem mmEmbed_r0 (i : S64x64.Idx) (q : dot_S64x64_S64x64_S64x64_1_0_0_1_n_n.contr.Idx) : (dot_S64x64_S64x64_S64x64_1_0_0_1_n_n.rhsIdx i q 0).val = (q ⟨0, by decide⟩).val :=
  dot_S64x64_S64x64_S64x64_1_0_0_1_n_n.rhsIdx_val_of_single rfl i q
theorem mmEmbed_r1 (i : S64x64.Idx) (q : dot_S64x64_S64x64_S64x64_1_0_0_1_n_n.contr.Idx) : (dot_S64x64_S64x64_S64x64_1_0_0_1_n_n.rhsIdx i q 1).val = (i 1).val := by
  unfold DotDims.rhsIdx
  rw [dif_neg (show ¬(1 : Fin S64x64.rank) ∈ dot_S64x64_S64x64_S64x64_1_0_0_1_n_n.rhsBatch by decide), dif_pos (show (1 : Fin S64x64.rank) ∈ dot_S64x64_S64x64_S64x64_1_0_0_1_n_n.rhsNonContracting by decide)]
  rfl
/-- A product of a 64×64 block by a 64×64 block into a zero accumulator, at entry `(a, b)`: the sum over the inner index. -/
theorem mmEmbed {φ₁ φ₂ : FTy} (l : FVec Ideal S64x64 φ₁) (r : FVec Ideal S64x64 φ₂) (a : Fin 64) (b : Fin 64) :
    matmul dot_S64x64_S64x64_S64x64_1_0_0_1_n_n none l r (constant (F := Ideal) S64x64 .f32 0x00000000#32) (ix2 a b) = ∑ k : Fin 64, l (ix2 a k) * r (ix2 k b) := by
  simp only [matmul]
  rw [Ideal.matmul_constant_zero_apply, ← Equiv.sum_comp (contrEquiv1 dot_S64x64_S64x64_S64x64_1_0_0_1_n_n 64 rfl rfl).symm]
  refine Finset.sum_congr rfl fun k _ => ?_
  have hk := contrEquiv1_symm_val dot_S64x64_S64x64_S64x64_1_0_0_1_n_n 64 rfl rfl k
  have el : dot_S64x64_S64x64_S64x64_1_0_0_1_n_n.lhsIdx (ix2 a b) ((contrEquiv1 dot_S64x64_S64x64_S64x64_1_0_0_1_n_n 64 rfl rfl).symm k) = ix2 a k := funext fun x => Fin.ext (by
    match x with
    | ⟨0, _⟩ => exact mmEmbed_l0 _ _
    | ⟨1, _⟩ => exact (mmEmbed_l1 _ _).trans hk)
  have er : dot_S64x64_S64x64_S64x64_1_0_0_1_n_n.rhsIdx (ix2 a b) ((contrEquiv1 dot_S64x64_S64x64_S64x64_1_0_0_1_n_n 64 rfl rfl).symm k) = ix2 k b := funext fun x => Fin.ext (by
    match x with
    | ⟨0, _⟩ => exact (mmEmbed_r0 _ _).trans hk
    | ⟨1, _⟩ => exact mmEmbed_r1 _ _)
  rw [el, er]

theorem mmNet_l0 (i : S64x8320.Idx) (q : dot_S64x64_S64x8320_S64x8320_1_0_0_1_n_n.contr.Idx) : (dot_S64x64_S64x8320_S64x8320_1_0_0_1_n_n.lhsIdx i q 0).val = (i 0).val := by
  unfold DotDims.lhsIdx
  rw [dif_neg (show ¬(0 : Fin S64x64.rank) ∈ dot_S64x64_S64x8320_S64x8320_1_0_0_1_n_n.lhsBatch by decide), dif_pos (show (0 : Fin S64x64.rank) ∈ dot_S64x64_S64x8320_S64x8320_1_0_0_1_n_n.lhsNonContracting by decide)]
  rfl
theorem mmNet_l1 (i : S64x8320.Idx) (q : dot_S64x64_S64x8320_S64x8320_1_0_0_1_n_n.contr.Idx) : (dot_S64x64_S64x8320_S64x8320_1_0_0_1_n_n.lhsIdx i q 1).val = (q ⟨0, by decide⟩).val :=
  dot_S64x64_S64x8320_S64x8320_1_0_0_1_n_n.lhsIdx_val_of_single rfl i q
theorem mmNet_r0 (i : S64x8320.Idx) (q : dot_S64x64_S64x8320_S64x8320_1_0_0_1_n_n.contr.Idx) : (dot_S64x64_S64x8320_S64x8320_1_0_0_1_n_n.rhsIdx i q 0).val = (q ⟨0, by decide⟩).val :=
  dot_S64x64_S64x8320_S64x8320_1_0_0_1_n_n.rhsIdx_val_of_single rfl i q
theorem mmNet_r1 (i : S64x8320.Idx) (q : dot_S64x64_S64x8320_S64x8320_1_0_0_1_n_n.contr.Idx) : (dot_S64x64_S64x8320_S64x8320_1_0_0_1_n_n.rhsIdx i q 1).val = (i 1).val := by
  unfold DotDims.rhsIdx
  rw [dif_neg (show ¬(1 : Fin S64x8320.rank) ∈ dot_S64x64_S64x8320_S64x8320_1_0_0_1_n_n.rhsBatch by decide), dif_pos (show (1 : Fin S64x8320.rank) ∈ dot_S64x64_S64x8320_S64x8320_1_0_0_1_n_n.rhsNonContracting by decide)]
  rfl
/-- A product of a 64×64 block by a 64×8320 block into a zero accumulator, at entry `(a, b)`: the sum over the inner index. -/
theorem mmNet {φ₁ φ₂ : FTy} (l : FVec Ideal S64x64 φ₁) (r : FVec Ideal S64x8320 φ₂) (a : Fin 64) (b : Fin 8320) :
    matmul dot_S64x64_S64x8320_S64x8320_1_0_0_1_n_n none l r (constant (F := Ideal) S64x8320 .f32 0x00000000#32) (ix2 a b) = ∑ k : Fin 64, l (ix2 a k) * r (ix2 k b) := by
  simp only [matmul]
  rw [Ideal.matmul_constant_zero_apply, ← Equiv.sum_comp (contrEquiv1 dot_S64x64_S64x8320_S64x8320_1_0_0_1_n_n 64 rfl rfl).symm]
  refine Finset.sum_congr rfl fun k _ => ?_
  have hk := contrEquiv1_symm_val dot_S64x64_S64x8320_S64x8320_1_0_0_1_n_n 64 rfl rfl k
  have el : dot_S64x64_S64x8320_S64x8320_1_0_0_1_n_n.lhsIdx (ix2 a b) ((contrEquiv1 dot_S64x64_S64x8320_S64x8320_1_0_0_1_n_n 64 rfl rfl).symm k) = ix2 a k := funext fun x => Fin.ext (by
    match x with
    | ⟨0, _⟩ => exact mmNet_l0 _ _
    | ⟨1, _⟩ => exact (mmNet_l1 _ _).trans hk)
  have er : dot_S64x64_S64x8320_S64x8320_1_0_0_1_n_n.rhsIdx (ix2 a b) ((contrEquiv1 dot_S64x64_S64x8320_S64x8320_1_0_0_1_n_n 64 rfl rfl).symm k) = ix2 k b := funext fun x => Fin.ext (by
    match x with
    | ⟨0, _⟩ => exact (mmNet_r0 _ _).trans hk
    | ⟨1, _⟩ => exact mmNet_r1 _ _)
  rw [el, er]

theorem mmBias_l0 (i : S64x200x64.Idx) (q : dot_S64x200x1_S64x1x64_S64x200x64_2_1_1_2_0_0.contr.Idx) : (dot_S64x200x1_S64x1x64_S64x200x64_2_1_1_2_0_0.lhsIdx i q 0).val = (i 0).val := by
  unfold DotDims.lhsIdx
  rw [dif_pos (show (0 : Fin S64x200x1.rank) ∈ dot_S64x200x1_S64x1x64_S64x200x64_2_1_1_2_0_0.lhsBatch by decide)]
  rfl
theorem mmBias_l1 (i : S64x200x64.Idx) (q : dot_S64x200x1_S64x1x64_S64x200x64_2_1_1_2_0_0.contr.Idx) : (dot_S64x200x1_S64x1x64_S64x200x64_2_1_1_2_0_0.lhsIdx i q 1).val = (i 1).val := by
  unfold DotDims.lhsIdx
  rw [dif_neg (show ¬(1 : Fin S64x200x1.rank) ∈ dot_S64x200x1_S64x1x64_S64x200x64_2_1_1_2_0_0.lhsBatch by decide), dif_pos (show (1 : Fin S64x200x1.rank) ∈ dot_S64x200x1_S64x1x64_S64x200x64_2_1_1_2_0_0.lhsNonContracting by decide)]
  rfl
theorem mmBias_l2 (i : S64x200x64.Idx) (q : dot_S64x200x1_S64x1x64_S64x200x64_2_1_1_2_0_0.contr.Idx) : (dot_S64x200x1_S64x1x64_S64x200x64_2_1_1_2_0_0.lhsIdx i q 2).val = (q ⟨0, by decide⟩).val :=
  dot_S64x200x1_S64x1x64_S64x200x64_2_1_1_2_0_0.lhsIdx_val_of_single rfl i q
theorem mmBias_r0 (i : S64x200x64.Idx) (q : dot_S64x200x1_S64x1x64_S64x200x64_2_1_1_2_0_0.contr.Idx) : (dot_S64x200x1_S64x1x64_S64x200x64_2_1_1_2_0_0.rhsIdx i q 0).val = (i 0).val := by
  unfold DotDims.rhsIdx
  rw [dif_pos (show (0 : Fin S64x1x64.rank) ∈ dot_S64x200x1_S64x1x64_S64x200x64_2_1_1_2_0_0.rhsBatch by decide)]
  rfl
theorem mmBias_r1 (i : S64x200x64.Idx) (q : dot_S64x200x1_S64x1x64_S64x200x64_2_1_1_2_0_0.contr.Idx) : (dot_S64x200x1_S64x1x64_S64x200x64_2_1_1_2_0_0.rhsIdx i q 1).val = (q ⟨0, by decide⟩).val :=
  dot_S64x200x1_S64x1x64_S64x200x64_2_1_1_2_0_0.rhsIdx_val_of_single rfl i q
theorem mmBias_r2 (i : S64x200x64.Idx) (q : dot_S64x200x1_S64x1x64_S64x200x64_2_1_1_2_0_0.contr.Idx) : (dot_S64x200x1_S64x1x64_S64x200x64_2_1_1_2_0_0.rhsIdx i q 2).val = (i 2).val := by
  unfold DotDims.rhsIdx
  rw [dif_neg (show ¬(2 : Fin S64x1x64.rank) ∈ dot_S64x200x1_S64x1x64_S64x200x64_2_1_1_2_0_0.rhsBatch by decide), dif_pos (show (2 : Fin S64x1x64.rank) ∈ dot_S64x200x1_S64x1x64_S64x200x64_2_1_1_2_0_0.rhsNonContracting by decide)]
  rfl
/-- A product batched over the 64 rows of the block — for each row `a` a 200×1 matrix by a 1×64 one — into a zero
    accumulator, at entry `(a, l, b)`: the sum over the inner index. -/
theorem mmBias {φ₁ φ₂ : FTy} (x : FVec Ideal S64x200x1 φ₁) (w : FVec Ideal S64x1x64 φ₂) (a : Fin 64) (l : Fin 200) (b : Fin 64) :
    matmul dot_S64x200x1_S64x1x64_S64x200x64_2_1_1_2_0_0 none x w (constant (F := Ideal) S64x200x64 .f32 0x00000000#32) (ix3 a l b) = ∑ k : Fin 1, x (ix3 a l k) * w (ix3 a k b) := by
  simp only [matmul]
  rw [Ideal.matmul_constant_zero_apply, ← Equiv.sum_comp (contrEquiv1 dot_S64x200x1_S64x1x64_S64x200x64_2_1_1_2_0_0 1 rfl rfl).symm]
  refine Finset.sum_congr rfl fun k _ => ?_
  have hk := contrEquiv1_symm_val dot_S64x200x1_S64x1x64_S64x200x64_2_1_1_2_0_0 1 rfl rfl k
  have el : dot_S64x200x1_S64x1x64_S64x200x64_2_1_1_2_0_0.lhsIdx (ix3 a l b) ((contrEquiv1 dot_S64x200x1_S64x1x64_S64x200x64_2_1_1_2_0_0 1 rfl rfl).symm k) = ix3 a l k := funext fun x => Fin.ext (by
    match x with
    | ⟨0, _⟩ => exact mmBias_l0 _ _
    | ⟨1, _⟩ => exact mmBias_l1 _ _
    | ⟨2, _⟩ => exact (mmBias_l2 _ _).trans hk)
  have er : dot_S64x200x1_S64x1x64_S64x200x64_2_1_1_2_0_0.rhsIdx (ix3 a l b) ((contrEquiv1 dot_S64x200x1_S64x1x64_S64x200x64_2_1_1_2_0_0 1 rfl rfl).symm k) = ix3 a k b := funext fun x => Fin.ext (by
    match x with
    | ⟨0, _⟩ => exact mmBias_r0 _ _
    | ⟨1, _⟩ => exact (mmBias_r1 _ _).trans hk
    | ⟨2, _⟩ => exact mmBias_r2 _ _)
  rw [el, er]

theorem mmSeq_l0 (i : S64x200x64.Idx) (q : dot_S64x200x64_S64x64x64_S64x200x64_2_1_1_2_0_0.contr.Idx) : (dot_S64x200x64_S64x64x64_S64x200x64_2_1_1_2_0_0.lhsIdx i q 0).val = (i 0).val := by
  unfold DotDims.lhsIdx
  rw [dif_pos (show (0 : Fin S64x200x64.rank) ∈ dot_S64x200x64_S64x64x64_S64x200x64_2_1_1_2_0_0.lhsBatch by decide)]
  rfl
theorem mmSeq_l1 (i : S64x200x64.Idx) (q : dot_S64x200x64_S64x64x64_S64x200x64_2_1_1_2_0_0.contr.Idx) : (dot_S64x200x64_S64x64x64_S64x200x64_2_1_1_2_0_0.lhsIdx i q 1).val = (i 1).val := by
  unfold DotDims.lhsIdx
  rw [dif_neg (show ¬(1 : Fin S64x200x64.rank) ∈ dot_S64x200x64_S64x64x64_S64x200x64_2_1_1_2_0_0.lhsBatch by decide), dif_pos (show (1 : Fin S64x200x64.rank) ∈ dot_S64x200x64_S64x64x64_S64x200x64_2_1_1_2_0_0.lhsNonContracting by decide)]
  rfl
theorem mmSeq_l2 (i : S64x200x64.Idx) (q : dot_S64x200x64_S64x64x64_S64x200x64_2_1_1_2_0_0.contr.Idx) : (dot_S64x200x64_S64x64x64_S64x200x64_2_1_1_2_0_0.lhsIdx i q 2).val = (q ⟨0, by decide⟩).val :=
  dot_S64x200x64_S64x64x64_S64x200x64_2_1_1_2_0_0.lhsIdx_val_of_single rfl i q
theorem mmSeq_r0 (i : S64x200x64.Idx) (q : dot_S64x200x64_S64x64x64_S64x200x64_2_1_1_2_0_0.contr.Idx) : (dot_S64x200x64_S64x64x64_S64x200x64_2_1_1_2_0_0.rhsIdx i q 0).val = (i 0).val := by
  unfold DotDims.rhsIdx
  rw [dif_pos (show (0 : Fin S64x64x64.rank) ∈ dot_S64x200x64_S64x64x64_S64x200x64_2_1_1_2_0_0.rhsBatch by decide)]
  rfl
theorem mmSeq_r1 (i : S64x200x64.Idx) (q : dot_S64x200x64_S64x64x64_S64x200x64_2_1_1_2_0_0.contr.Idx) : (dot_S64x200x64_S64x64x64_S64x200x64_2_1_1_2_0_0.rhsIdx i q 1).val = (q ⟨0, by decide⟩).val :=
  dot_S64x200x64_S64x64x64_S64x200x64_2_1_1_2_0_0.rhsIdx_val_of_single rfl i q
theorem mmSeq_r2 (i : S64x200x64.Idx) (q : dot_S64x200x64_S64x64x64_S64x200x64_2_1_1_2_0_0.contr.Idx) : (dot_S64x200x64_S64x64x64_S64x200x64_2_1_1_2_0_0.rhsIdx i q 2).val = (i 2).val := by
  unfold DotDims.rhsIdx
  rw [dif_neg (show ¬(2 : Fin S64x64x64.rank) ∈ dot_S64x200x64_S64x64x64_S64x200x64_2_1_1_2_0_0.rhsBatch by decide), dif_pos (show (2 : Fin S64x64x64.rank) ∈ dot_S64x200x64_S64x64x64_S64x200x64_2_1_1_2_0_0.rhsNonContracting by decide)]
  rfl
/-- A product batched over the 64 rows of the block — for each row `a` a 200×64 matrix by a 64×64 one — into a zero
    accumulator, at entry `(a, l, b)`: the sum over the inner index. -/
theorem mmSeq {φ₁ φ₂ : FTy} (x : FVec Ideal S64x200x64 φ₁) (w : FVec Ideal S64x64x64 φ₂) (a : Fin 64) (l : Fin 200) (b : Fin 64) :
    matmul dot_S64x200x64_S64x64x64_S64x200x64_2_1_1_2_0_0 none x w (constant (F := Ideal) S64x200x64 .f32 0x00000000#32) (ix3 a l b) = ∑ k : Fin 64, x (ix3 a l k) * w (ix3 a k b) := by
  simp only [matmul]
  rw [Ideal.matmul_constant_zero_apply, ← Equiv.sum_comp (contrEquiv1 dot_S64x200x64_S64x64x64_S64x200x64_2_1_1_2_0_0 64 rfl rfl).symm]
  refine Finset.sum_congr rfl fun k _ => ?_
  have hk := contrEquiv1_symm_val dot_S64x200x64_S64x64x64_S64x200x64_2_1_1_2_0_0 64 rfl rfl k
  have el : dot_S64x200x64_S64x64x64_S64x200x64_2_1_1_2_0_0.lhsIdx (ix3 a l b) ((contrEquiv1 dot_S64x200x64_S64x64x64_S64x200x64_2_1_1_2_0_0 64 rfl rfl).symm k) = ix3 a l k := funext fun x => Fin.ext (by
    match x with
    | ⟨0, _⟩ => exact mmSeq_l0 _ _
    | ⟨1, _⟩ => exact mmSeq_l1 _ _
    | ⟨2, _⟩ => exact (mmSeq_l2 _ _).trans hk)
  have er : dot_S64x200x64_S64x64x64_S64x200x64_2_1_1_2_0_0.rhsIdx (ix3 a l b) ((contrEquiv1 dot_S64x200x64_S64x64x64_S64x200x64_2_1_1_2_0_0 64 rfl rfl).symm k) = ix3 a k b := funext fun x => Fin.ext (by
    match x with
    | ⟨0, _⟩ => exact mmSeq_r0 _ _
    | ⟨1, _⟩ => exact (mmSeq_r1 _ _).trans hk
    | ⟨2, _⟩ => exact mmSeq_r2 _ _)
  rw [el, er]

/-! ## The hypernetwork layer of the block, and its pieces -/

/-- Column `q` of the network piece (the layer's columns 64 … 8383) for block row `r`: relu of the row's product with the
    weight column plus the bias entry. -/
theorem netAt (v0 : Vec Ideal S64x64 .bf16) (v6 : Vec Ideal S64x8320 .bf16) (v8 : Vec Ideal S1x8320 .f32) (r : Fin 64) (q : Fin 8320) :
    k0_pay5 v0 v6 v8 (ix2 r q) = max ((∑ k : Fin 64, v0 (ix2 r k) * v6 (ix2 k q)) + v8 (ix2 (0 : Fin 1) q)) 0 := by
  unfold k0_pay5 k0_pay3
  try dsimp only
  rw [shapeCast_self, shapeCast_self, shapeCast_self]
  simp only [maximumf_apply, addf_apply, broadcast_apply]
  rw [mmNet, broadcastTo_apply v8 broadcasts_S1x8320_S64x8320 (ix2 r q) (ix2 (0 : Fin 1) q) (fun a => match a with | ⟨0, _⟩ => rfl | ⟨1, _⟩ => rfl)]
  show max _ (Ideal.ofBits .f32 0x00000000#32) = _
  rw [Ideal.ofBits_zero_f32]

/-- The prompt-embedding block at `(r, j)`: the same layer on the first 64 columns. -/
theorem embedAt (v0 : Vec Ideal S64x64 .bf16) (v2 : Vec Ideal S64x64 .bf16) (v4 : Vec Ideal S1x64 .f32) (r j : Fin 64) :
    k0_pay4 v0 v2 v4 (ix2 r j) = max ((∑ k : Fin 64, v0 (ix2 r k) * v2 (ix2 k j)) + v4 (ix2 (0 : Fin 1) j)) 0 := by
  unfold k0_pay4 k0_pay3
  try dsimp only
  rw [shapeCast_self, shapeCast_self, shapeCast_self]
  simp only [maximumf_apply, addf_apply, broadcast_apply]
  rw [mmEmbed, broadcastTo_apply v4 broadcasts_S1x64_S64x64 (ix2 r j) (ix2 (0 : Fin 1) j) (fun a => match a with | ⟨0, _⟩ => rfl | ⟨1, _⟩ => rfl)]
  show max _ (Ideal.ofBits .f32 0x00000000#32) = _
  rw [Ideal.ofBits_zero_f32]

/-- Columns of the network piece where the row's private weights and biases sit. -/
def netW1 (d h : Fin 64) : Fin 8320 := ⟨d.val * 64 + h.val, by have := d.isLt; have := h.isLt; omega⟩
def netB1 (h : Fin 64) : Fin 8320 := ⟨4096 + h.val, by have := h.isLt; omega⟩
def netW2 (h p : Fin 64) : Fin 8320 := ⟨4160 + (h.val * 64 + p.val), by have := h.isLt; have := p.isLt; omega⟩
def netB2 (p : Fin 64) : Fin 8320 := ⟨8256 + p.val, by have := p.isLt; omega⟩

/-- The first private matrix is the first 4096 network columns read row-major as 64×64. -/
theorem w1At (v0 : Vec Ideal S64x64 .bf16) (v6 : Vec Ideal S64x8320 .bf16) (v8 : Vec Ideal S1x8320 .f32) (r d h : Fin 64) :
    k0_pay6 v0 v6 v8 (ix3 r d h) = k0_pay5 v0 v6 v8 (ix2 r (netW1 d h)) := by
  unfold k0_pay6
  try dsimp only
  rw [truncf_apply]
  rw [shapeCast_apply _ shapeCasts_S64x4096_S64x64x64 (ix3 r d h) (ix2 r (⟨d.val * 64 + h.val, by have := d.isLt; have := h.isLt; omega⟩ : Fin 4096)) (by
    rw [Shape.rowMajor_val_two, Shape.rowMajor_val_three]
    show r.val * 4096 + (d.val * 64 + h.val) = (r.val * 64 + d.val) * 64 + h.val
    omega)]
  exact extractStridedSlice_apply _ _ slices_S64x8320_o0_0_S64x4096 _ (ix2 r (netW1 d h)) (fun a => match a with
    | ⟨0, _⟩ => by show r.val = 0 + r.val; omega
    | ⟨1, _⟩ => by show d.val * 64 + h.val = 0 + (d.val * 64 + h.val); omega)

/-- The second private matrix is network columns 4160 … 8255 read row-major as 64×64. -/
theorem w2At (v0 : Vec Ideal S64x64 .bf16) (v6 : Vec Ideal S64x8320 .bf16) (v8 : Vec Ideal S1x8320 .f32) (r h p : Fin 64) :
    k0_pay7 v0 v6 v8 (ix3 r h p) = k0_pay5 v0 v6 v8 (ix2 r (netW2 h p)) := by
  unfold k0_pay7
  try dsimp only
  rw [truncf_apply]
  rw [shapeCast_apply _ shapeCasts_S64x4096_S64x64x64 (ix3 r h p) (ix2 r (⟨h.val * 64 + p.val, by have := h.isLt; have := p.isLt; omega⟩ : Fin 4096)) (by
    rw [Shape.rowMajor_val_two, Shape.rowMajor_val_three]
    show r.val * 4096 + (h.val * 64 + p.val) = (r.val * 64 + h.val) * 64 + p.val
    omega)]
  exact extractStridedSlice_apply _ _ slices_S64x8320_o0_4160_S64x4096 _ (ix2 r (netW2 h p)) (fun a => match a with
    | ⟨0, _⟩ => by show r.val = 0 + r.val; omega
    | ⟨1, _⟩ => by show 4160 + (h.val * 64 + p.val) = 4160 + (h.val * 64 + p.val); rfl)

/-- The pattern of the 16-bit one denotes the number one. -/
theorem one_bf16 : Ideal.ofBits .bf16 0x3F80#16 = 1 := IdealRules.sign_bit.ideal_onePat .bf16

/-- A bias spread along the sequence by a product with a column of ones: one term, one times the bias entry. -/
theorem spreadAt (b : FVec Ideal S64x64 .f32) (r : Fin 64) (l : Fin 200) (h : Fin 64) :
    matmul dot_S64x200x1_S64x1x64_S64x200x64_2_1_1_2_0_0 none (k0_pay8 (F := Ideal))
        (shapeCast S64x1x64 (truncf .bf16 b bitsLt_bf16_f32) shapeCasts_S64x64_S64x1x64) (constant (F := Ideal) S64x200x64 .f32 0x00000000#32) (ix3 r l h)
      = b (ix2 r h) := by
  rw [mmBias, Fin.sum_univ_one]
  unfold k0_pay8
  try dsimp only
  rw [broadcast_apply]
  show Ideal.ofBits .bf16 0x3F80#16 * _ = _
  rw [one_bf16, one_mul]
  rw [shapeCast_apply _ shapeCasts_S64x64_S64x1x64 (ix3 r (0 : Fin 1) h) (ix2 r h) (by
    rw [Shape.rowMajor_val_two, Shape.rowMajor_val_three]
    show r.val * 64 + h.val = (r.val * 1 + 0) * 64 + h.val
    omega)]
  rfl

/-- The first private bias along the sequence. -/
theorem b1At (v0 : Vec Ideal S64x64 .bf16) (v6 : Vec Ideal S64x8320 .bf16) (v8 : Vec Ideal S1x8320 .f32) (r : Fin 64) (l : Fin 200) (h : Fin 64) :
    k0_pay9 v0 v6 v8 (ix3 r l h) = k0_pay5 v0 v6 v8 (ix2 r (netB1 h)) := by
  unfold k0_pay9
  try dsimp only
  rw [spreadAt]
  exact extractStridedSlice_apply _ _ slices_S64x8320_o0_4096_S64x64 _ (ix2 r (netB1 h)) (fun a => match a with
    | ⟨0, _⟩ => by show r.val = 0 + r.val; omega
    | ⟨1, _⟩ => rfl)

/-- The second private bias along the sequence. -/
theorem b2At (v0 : Vec Ideal S64x64 .bf16) (v6 : Vec Ideal S64x8320 .bf16) (v8 : Vec Ideal S1x8320 .f32) (r : Fin 64) (l : Fin 200) (p : Fin 64) :
    k0_pay10 v0 v6 v8 (ix3 r l p) = k0_pay5 v0 v6 v8 (ix2 r (netB2 p)) := by
  unfold k0_pay10
  try dsimp only
  rw [spreadAt]
  exact extractStridedSlice_apply _ _ slices_S64x8320_o0_8256_S64x64 _ (ix2 r (netB2 p)) (fun a => match a with
    | ⟨0, _⟩ => by show r.val = 0 + r.val; omega
    | ⟨1, _⟩ => rfl)

/-! ## The masked sum of a block -/

/-- The mask spread over the 64 output units: entry `(r, l, p)` is the mask entry `(r, l)`. -/
theorem maskAt (v : FVec Ideal S64x200 .f32) (r : Fin 64) (l : Fin 200) (p : Fin 64) :
    broadcastTo S64x200x64 (shapeCast S64x200x1 v shapeCasts_S64x200_S64x200x1) broadcasts_S64x200x1_S64x200x64 (ix3 r l p) = v (ix2 r l) := by
  rw [broadcastTo_apply _ broadcasts_S64x200x1_S64x200x64 (ix3 r l p) (ix3 r l (0 : Fin 1)) (fun a => match a with | ⟨0, _⟩ => rfl | ⟨1, _⟩ => rfl | ⟨2, _⟩ => rfl)]
  exact shapeCast_apply _ shapeCasts_S64x200_S64x200x1 (ix3 r l (0 : Fin 1)) (ix2 r l) (by
    rw [Shape.rowMajor_val_two, Shape.rowMajor_val_three]
    show r.val * 200 + l.val = (r.val * 200 + l.val) * 1 + 0
    omega)

/-- A sum over the sequence axis of a 64×200×64 block, at `(r, p)`: the 200 entries `(r, l, p)` added up. -/
theorem seqSumAt (src : FVec Ideal S64x200x64 .f32) (hφ : FKind.Formats .f32) (hacc : (0x00000000#32 : BitVec 32) = FKind.add.neutral .f32 hφ)
    (r p : Fin 64) :
    multiReduction .add [1] S64x64 src 0x00000000#32 reduces_S64x200x64_S64x64 hφ hacc (ix2 r p) = ∑ l : Fin 200, src (ix3 r l p) :=
  (Ideal.multiReduction_add_single src 0x00000000#32 reduces_S64x200x64_S64x64 hφ hacc (ix2 r p)).trans
    (Finset.sum_congr rfl fun l _ => congrArg src (funext fun a => Fin.ext (by
      match a with
      | ⟨0, _⟩ => rfl
      | ⟨1, _⟩ => rfl
      | ⟨2, _⟩ => rfl)))

/-- One hidden unit of the row's first layer, as stored for the second product (the format change is the identity). -/
theorem hiddenAt (v23 : FVec Ideal S64x64x64 .bf16) (v32 : FVec Ideal S64x200x64 .f32) (xs : FVec Ideal S64x200x64 .bf16) (r : Fin 64) (l : Fin 200) (h : Fin 64) :
    truncf .bf16 (maximumf (addf (matmul dot_S64x200x64_S64x64x64_S64x200x64_2_1_1_2_0_0 none xs v23 (constant (F := Ideal) S64x200x64 .f32 0x00000000#32)) v32)
        (broadcast S64x200x64 (Scalar.ofBits (F := Ideal) .f32 0x00000000#32))) bitsLt_bf16_f32 (ix3 r l h)
      = max ((∑ d : Fin 64, xs (ix3 r l d) * v23 (ix3 r d h)) + v32 (ix3 r l h)) 0 := by
  rw [truncf_apply, maximumf_apply, addf_apply, broadcast_apply, mmSeq]
  show max _ (Ideal.ofBits .f32 0x00000000#32) = _
  rw [Ideal.ofBits_zero_f32]

/-- The stored masked sum at `(r, p)`: over the sequence, the second layer's output (a sum over hidden units of relu of the
    first layer) times the mask. -/
theorem pooledAt (v23 v27 : FVec Ideal S64x64x64 .bf16) (v32 v35 : FVec Ideal S64x200x64 .f32) (xs : Vec Ideal S64x200x64 .bf16) (xm : Vec Ideal S64x200 .f32)
    (r p : Fin 64) :
    k0_pay1 v23 v27 v32 v35 xs xm (ix2 r p)
      = ∑ l : Fin 200, ((∑ h : Fin 64, max ((∑ d : Fin 64, xs (ix3 r l d) * v23 (ix3 r d h)) + v32 (ix3 r l h)) 0 * v27 (ix3 r h p)) + v35 (ix3 r l p)) * xm (ix2 r l) := by
  unfold k0_pay1
  try dsimp only
  rw [shapeCast_self, shapeCast_self]
  refine (seqSumAt _ _ _ r p).trans ?_
  refine Finset.sum_congr rfl fun l _ => ?_
  rw [mulf_apply, addf_apply, mmSeq, maskAt]
  refine congrArg (· * _) (congrArg (· + _) (Finset.sum_congr rfl fun h _ => ?_))
  exact congrArg (· * _) (hiddenAt v23 v32 xs r l h)

/-- The second store's payload is the same function of its own sequence and mask. -/
theorem pooledAt' (v23 v27 : FVec Ideal S64x64x64 .bf16) (v32 v35 : FVec Ideal S64x200x64 .f32) (xs : Vec Ideal S64x200x64 .bf16) (xm : Vec Ideal S64x200 .f32)
    (r p : Fin 64) :
    k0_pay2 v23 v27 v32 v35 xs xm (ix2 r p)
      = ∑ l : Fin 200, ((∑ h : Fin 64, max ((∑ d : Fin 64, xs (ix3 r l d) * v23 (ix3 r d h)) + v32 (ix3 r l h)) 0 * v27 (ix3 r h p)) + v35 (ix3 r l p)) * xm (ix2 r l) :=
  pooledAt v23 v27 v32 v35 xs xm r p

/-! ## A block's payloads are the specification's functions of the arrays

A block is handed entries of the arrays: row `r` of the block is batch row `b` of the arrays, and the network piece of the
weight and bias is columns 64 … 8383 of the whole. Under those agreements each stored entry is the specification's value. -/

open PromptBranch

/-- Column `q` of the network piece is column `64 + q` of the hypernetwork's output. -/
def shiftCol (q : Fin 8320) : Fin 8384 := ⟨64 + q.val, by have := q.isLt; omega⟩

theorem shift_W1 (d h : Fin 64) : shiftCol (netW1 d h) = colW1 d h := rfl
theorem shift_B1 (h : Fin 64) : shiftCol (netB1 h) = colB1 h := Fin.ext (by show 64 + (4096 + h.val) = 4160 + h.val; omega)
theorem shift_W2 (h p : Fin 64) : shiftCol (netW2 h p) = colW2 h p := Fin.ext (by show 64 + (4160 + (h.val * 64 + p.val)) = 4224 + (h.val * 64 + p.val); omega)
theorem shift_B2 (p : Fin 64) : shiftCol (netB2 p) = colB2 p := Fin.ext (by show 64 + (8256 + p.val) = 8320 + p.val; omega)

section OfBlock

variable (pit : RowsIdx → EReal) (W : WeightIdx → EReal) (β : BiasIdx → EReal) (b : Fin 4096) (r : Fin 64)
variable (x0 : Vec Ideal S64x64 .bf16) (h0 : ∀ k : Fin 64, x0 (ix2 r k) = pit (ix2 b k))

include h0 in
/-- The prompt-embedding entry. -/
theorem embed_of_block (x1 : Vec Ideal S64x64 .bf16) (x2 : Vec Ideal S1x64 .f32)
    (h1 : ∀ (k j : Fin 64), x1 (ix2 k j) = W (ix2 k (colE j))) (h2 : ∀ j : Fin 64, x2 (ix2 (0 : Fin 1) j) = β (ix1 (colE j))) (j : Fin 64) :
    k0_pay4 x0 x1 x2 (ix2 r j) = hyper pit W β b (colE j) := by
  rw [embedAt]
  unfold hyper
  simp only [h0, h1, h2]

variable (x3 : Vec Ideal S64x8320 .bf16) (x4 : Vec Ideal S1x8320 .f32)
variable (h3 : ∀ (k : Fin 64) (q : Fin 8320), x3 (ix2 k q) = W (ix2 k (shiftCol q))) (h4 : ∀ q : Fin 8320, x4 (ix2 (0 : Fin 1) q) = β (ix1 (shiftCol q)))

include h0 h3 h4 in
/-- An entry of the network piece. -/
theorem net_of_block (q : Fin 8320) : k0_pay5 x0 x3 x4 (ix2 r q) = hyper pit W β b (shiftCol q) := by
  rw [netAt]
  unfold hyper
  simp only [h0, h3, h4]

include h0 h3 h4 in
/-- A masked-sum entry. -/
theorem pooled_of_block (ue : SeqIdx → EReal) (mask : MaskIdx → EReal) (xs : Vec Ideal S64x200x64 .bf16) (xm : Vec Ideal S64x200 .f32)
    (hs : ∀ (l : Fin 200) (d : Fin 64), xs (ix3 r l d) = ue (ix3 b l d)) (hm : ∀ l : Fin 200, xm (ix2 r l) = mask (ix2 b l)) (p : Fin 64) :
    k0_pay1 (k0_pay6 x0 x3 x4) (k0_pay7 x0 x3 x4) (k0_pay9 x0 x3 x4) (k0_pay10 x0 x3 x4) xs xm (ix2 r p) = pooled pit W β ue mask b p := by
  rw [pooledAt]
  unfold PromptBranch.pooled PromptBranch.out PromptBranch.hidden
  simp only [w1At, w2At, b1At, b2At, net_of_block pit W β b r x0 h0 x3 x4 h3 h4, shift_W1, shift_B1, shift_W2, shift_B2, hs, hm]

include h0 h3 h4 in
/-- The same for the second store. -/
theorem pooled_of_block' (ue : SeqIdx → EReal) (mask : MaskIdx → EReal) (xs : Vec Ideal S64x200x64 .bf16) (xm : Vec Ideal S64x200 .f32)
    (hs : ∀ (l : Fin 200) (d : Fin 64), xs (ix3 r l d) = ue (ix3 b l d)) (hm : ∀ l : Fin 200, xm (ix2 r l) = mask (ix2 b l)) (p : Fin 64) :
    k0_pay2 (k0_pay6 x0 x3 x4) (k0_pay7 x0 x3 x4) (k0_pay9 x0 x3 x4) (k0_pay10 x0 x3 x4) xs xm (ix2 r p) = pooled pit W β ue mask b p :=
  pooled_of_block pit W β b r x0 h0 x3 x4 h3 h4 ue mask xs xm hs hm p

end OfBlock

end Cert.KernelIdeal.Block

end
-- ==== Proof.KernelIdealEntry.lean ====
/-
  What the kernel region of the idealized kernel program finds in the arrays its windows read.

  Before the region the program runs the same host lines as the reference: the two dense towers, the gathers of
  embedding rows, the conversion of the two masks to floats, and the slices of the hypernetwork's weight and bias.
  Read at the extended reals a change of float format is the identity, so a gather from a converted table, or a
  converted gather, is the gather itself. Each array at the region's entry is therefore the reference's stage of the
  same name applied to the launched argument arrays; the four slices are read at coordinates: columns 0 … 63 and
  64 … 8383 of the weight, entries 0 … 63 and 64 … 8383 of the bias (a one-row matrix's entry `(0, j)` is the
  vector's entry `j`).
-/
import proofs.«175546_j19585050870116_2_alg».proof.Proof.KernelIdealAround
import proofs.«175546_j19585050870116_2_alg».proof.Proof.Gen.ReferenceIdeal.Read
import Idealize.ShloMosaic.Lib.StableHlo.Run
import Idealize.ShloMosaic.Lib.ValueIdx
import Idealize.ShloMosaic.Lib.Pipeline.Value

set_option maxRecDepth 16384

noncomputable section

namespace Cert.KernelIdeal.Entry

open Cert.KernelIdeal Cert.KernelIdeal.Gen Cert.KernelIdeal.Around
open Idealize.ShloMosaic Idealize.ShloMosaic.TcCoe Idealize.ShloMosaic.StableHlo Idealize.ShloMosaic.ValueIdx
open Idealize.SL Idealize.SL.Sem
open Cert.ReferenceIdeal.Read (val_main_v41 val_main_v59 val_main_v66 val_main_v84 val_main_v108 val_main_v74 val_main_v76)

variable (m : (ℓ : Loc nD τ sig) → Buf (Elt Ideal) ℓ) (c : Dev nD)

/-! ## What the region finds in the arrays the host lines wrote

Each array is the composition of the host lines that lead to it, applied to the argument arrays as launched. The two
towers, the gathers and the conversions of the masks are line for line the reference's; a change of float format is
the identity on the extended reals, so the converted gathers are the reference's gathers too. -/

set_option maxHeartbeats 1000000 in
/-- The user tower's output. -/
theorem entry_v41 : (V m c main_v41 : (⟨S4096x64, .f32⟩ : BufTy).Contents (Elt Ideal))
    = val_main_v41 (F := Ideal) (m ((c : Thread nD τ).loc main_arg0)) (m ((c : Thread nD τ).loc main_arg2)) (m ((c : Thread nD τ).loc main_arg3)) (m ((c : Thread nD τ).loc main_arg4)) (m ((c : Thread nD τ).loc main_arg10)) (m ((c : Thread nD τ).loc main_arg11)) (m ((c : Thread nD τ).loc main_arg14)) (m ((c : Thread nD τ).loc main_arg15)) (m ((c : Thread nD τ).loc main_arg16)) (m ((c : Thread nD τ).loc main_arg17)) := by
  dsimp only [V, V0, prefixOps]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 1000000 in
/-- The item tower's output. -/
theorem entry_v59 : (V m c main_v59 : (⟨S4096x64, .f32⟩ : BufTy).Contents (Elt Ideal))
    = val_main_v59 (F := Ideal) (m ((c : Thread nD τ).loc main_arg1)) (m ((c : Thread nD τ).loc main_arg5)) (m ((c : Thread nD τ).loc main_arg11)) (m ((c : Thread nD τ).loc main_arg18)) (m ((c : Thread nD τ).loc main_arg19)) (m ((c : Thread nD τ).loc main_arg20)) (m ((c : Thread nD τ).loc main_arg21)) := by
  dsimp only [V, V0, prefixOps]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 1000000 in
/-- The gathered prompt-item rows. -/
theorem entry_v67 : (V m c main_v67 : S4096x64.Idx → EReal)
    = val_main_v66 (F := Ideal) (m ((c : Thread nD τ).loc main_arg1)) (m ((c : Thread nD τ).loc main_arg12)) := by
  dsimp only [V, V0, prefixOps]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 1000000 in
/-- The gathered user rows of the positive branch. -/
theorem entry_v75 : (V m c main_v75 : S4096x200x64.Idx → EReal)
    = val_main_v84 (F := Ideal) (m ((c : Thread nD τ).loc main_arg6)) (m ((c : Thread nD τ).loc main_arg13)) := by
  dsimp only [V, V0, prefixOps]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 1000000 in
/-- The gathered user rows of the negative branch. -/
theorem entry_v82 : (V m c main_v82 : S4096x200x64.Idx → EReal)
    = val_main_v108 (F := Ideal) (m ((c : Thread nD τ).loc main_arg8)) (m ((c : Thread nD τ).loc main_arg13)) := by
  dsimp only [V, V0, prefixOps]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 1000000 in
/-- The positive mask as floats. -/
theorem entry_v83 : (V m c main_v83 : (⟨S4096x200, .f32⟩ : BufTy).Contents (Elt Ideal)) = val_main_v74 (F := Ideal) (m ((c : Thread nD τ).loc main_arg7)) := by
  dsimp only [V, V0, prefixOps]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 1000000 in
/-- The negative mask as floats. -/
theorem entry_v84 : (V m c main_v84 : (⟨S4096x200, .f32⟩ : BufTy).Contents (Elt Ideal)) = val_main_v76 (F := Ideal) (m ((c : Thread nD τ).loc main_arg9)) := by
  dsimp only [V, V0, prefixOps]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-! ## The four pieces of the hypernetwork's weight and bias

The weight's columns 0 … 63 and 64 … 8383, and the bias's entries 0 … 63 and 64 … 8383 as one-row matrices. -/

set_option maxHeartbeats 1000000 in
theorem entry_v86_term : (V m c main_v86 : S64x64.Idx → EReal)
    = extractStridedSlice S64x64 ![0, 0] ((m ((c : Thread nD τ).loc main_arg22)) : (⟨S64x8384, .f32⟩ : BufTy).Contents (Elt Ideal)) slices_S64x8384_S64x64_0_0 := by
  dsimp only [V, V0, prefixOps]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 1000000 in
theorem entry_v88_term : (V m c main_v88 : S64x8320.Idx → EReal)
    = extractStridedSlice S64x8320 ![0, 64] ((m ((c : Thread nD τ).loc main_arg22)) : (⟨S64x8384, .f32⟩ : BufTy).Contents (Elt Ideal)) slices_S64x8384_S64x8320_0_64 := by
  dsimp only [V, V0, prefixOps]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 1000000 in
theorem entry_v90_term : (V m c main_v90 : S1x64.Idx → EReal)
    = shapeCast S1x64 (extractStridedSlice S64 ![0] ((m ((c : Thread nD τ).loc main_arg23)) : (⟨S8384, .f32⟩ : BufTy).Contents (Elt Ideal)) slices_S8384_S64_0) shapeCasts_S64_S1x64 := by
  dsimp only [V, V0, prefixOps]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 1000000 in
theorem entry_v92_term : (V m c main_v92 : S1x8320.Idx → EReal)
    = shapeCast S1x8320 (extractStridedSlice S8320 ![64] ((m ((c : Thread nD τ).loc main_arg23)) : (⟨S8384, .f32⟩ : BufTy).Contents (Elt Ideal)) slices_S8384_S8320_64) shapeCasts_S8320_S1x8320 := by
  dsimp only [V, V0, prefixOps]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-- Columns 0 … 63 of the weight. -/
theorem entry_v86 (k j : Fin 64) (h : j.val < 8384) : (V m c main_v86 : S64x64.Idx → EReal) (ix2 k j)
    = ((m ((c : Thread nD τ).loc main_arg22)) : S64x8384.Idx → EReal) (ix2 k ⟨j.val, h⟩) := by
  rw [entry_v86_term]
  exact extractStridedSlice_apply ![0, 0] _ slices_S64x8384_S64x64_0_0 (ix2 k j) (ix2 k ⟨j.val, h⟩)
    (fun a => match a with
      | ⟨0, _⟩ => by show k.val = 0 + k.val; omega
      | ⟨1, _⟩ => by show j.val = 0 + j.val; omega)

/-- Columns 64 … 8383 of the weight. -/
theorem entry_v88 (k : Fin 64) (q : Fin 8320) (h : 64 + q.val < 8384) : (V m c main_v88 : S64x8320.Idx → EReal) (ix2 k q)
    = ((m ((c : Thread nD τ).loc main_arg22)) : S64x8384.Idx → EReal) (ix2 k ⟨64 + q.val, h⟩) := by
  rw [entry_v88_term]
  exact extractStridedSlice_apply ![0, 64] _ slices_S64x8384_S64x8320_0_64 (ix2 k q) (ix2 k ⟨64 + q.val, h⟩)
    (fun a => match a with
      | ⟨0, _⟩ => by show k.val = 0 + k.val; omega
      | ⟨1, _⟩ => by show 64 + q.val = 64 + q.val; omega)

/-- Entries 0 … 63 of the bias, as a one-row matrix. -/
theorem entry_v90 (j : Fin 64) (h : j.val < 8384) : (V m c main_v90 : S1x64.Idx → EReal) (ix2 (0 : Fin 1) j)
    = ((m ((c : Thread nD τ).loc main_arg23)) : S8384.Idx → EReal) (ix1 ⟨j.val, h⟩) := by
  rw [entry_v90_term]
  refine (shapeCast_apply _ shapeCasts_S64_S1x64 (ix2 (0 : Fin 1) j) (ix1 j) ?_).trans ?_
  · rw [Shape.rowMajor_val_one, Shape.rowMajor_val_two]
    show j.val = 0 * 64 + j.val
    omega
  · exact extractStridedSlice_apply ![0] _ slices_S8384_S64_0 (ix1 j) (ix1 ⟨j.val, h⟩)
      (fun a => match a with
        | ⟨0, _⟩ => by show j.val = 0 + j.val; omega)

/-- Entries 64 … 8383 of the bias, as a one-row matrix. -/
theorem entry_v92 (q : Fin 8320) (h : 64 + q.val < 8384) : (V m c main_v92 : S1x8320.Idx → EReal) (ix2 (0 : Fin 1) q)
    = ((m ((c : Thread nD τ).loc main_arg23)) : S8384.Idx → EReal) (ix1 ⟨64 + q.val, h⟩) := by
  rw [entry_v92_term]
  refine (shapeCast_apply _ shapeCasts_S8320_S1x8320 (ix2 (0 : Fin 1) q) (ix1 q) ?_).trans ?_
  · rw [Shape.rowMajor_val_one, Shape.rowMajor_val_two]
    show q.val = 0 * 8320 + q.val
    omega
  · exact extractStridedSlice_apply ![64] _ slices_S8384_S8320_64 (ix1 q) (ix1 ⟨64 + q.val, h⟩)
      (fun a => match a with
        | ⟨0, _⟩ => by show 64 + q.val = 64 + q.val; omega)

end Cert.KernelIdeal.Entry

end
-- ==== Proof.KernelIdealArray.lean ====
/-
  From blocks to arrays, on the extended reals: after the region each of the three result arrays is ONE function of the
  arrays the region was handed.

  Grid point `t` reads rows `64·t … 64·t + 63` of the batch-indexed arrays and the whole of the weight and bias pieces,
  and writes rows `64·t … 64·t + 63` of each result. The 64 points' blocks tile the 4096 rows, so each result array ends
  holding, at `(b, p)`, the specification's value for batch row `b`.
-/
import proofs.«175546_j19585050870116_2_alg».proof.Proof.KernelIdealBody
import proofs.«175546_j19585050870116_2_alg».proof.Proof.KernelIdealBlock
import proofs.«175546_j19585050870116_2_alg».proof.Proof.KernelIdealEntry
import Idealize.ShloMosaic.Lib.Pipeline.Value

set_option maxRecDepth 16384

noncomputable section

open scoped BigOperators

namespace Cert.KernelIdeal.Arr

open Cert.KernelIdeal Cert.KernelIdeal.Gen Cert.KernelIdeal.Around Cert.KernelIdeal.Block Cert.KernelIdeal.Entry PromptBranch
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## Which block each window has at a grid point -/

/-- The index maps, evaluated at each of the 64 grid points: the batch-indexed windows move with the point along the rows,
    the weight and bias windows stay at block 0. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- The batch row that row `r` of point `t`'s block is. -/
def rowOf (t : Fin cfg0.N) (r : Fin 64) : Fin 4096 :=
  ⟨64 * t.val + r.val, by have := t.isLt; have hN : cfg0.N = 64 := N_0; have := r.isLt; omega⟩

/-! ## The input blocks are entries of the arrays -/

theorem iblk0_apply (c : Dev nD) (t : Fin cfg0.N) (r k : Fin 64) :
    (iblk m c 0 t : Vec Ideal S64x64 .bf16) (ix2 r k) = (V m c main_v67 : S4096x64.Idx → EReal) (ix2 (rowOf t r) k) := by
  obtain ⟨⟨e0, e1⟩, -⟩ := idx_facts t
  unfold iblk
  rw [View.read_apply]
  show V m c main_v67 _ = V m c main_v67 _
  congr 1
  funext a
  apply Fin.ext
  match a with
  | ⟨0, _⟩ => show win0_0.index t 0 * 64 + 1 * r.val = 64 * t.val + r.val; rw [e0]; omega
  | ⟨1, _⟩ => show win0_0.index t 1 * 64 + 1 * k.val = k.val; rw [e1]; omega

theorem iblk1_apply (c : Dev nD) (t : Fin cfg0.N) (k j : Fin 64) :
    (iblk m c 1 t : Vec Ideal S64x64 .bf16) (ix2 k j) = (V m c main_v86 : S64x64.Idx → EReal) (ix2 k j) := by
  obtain ⟨-, ⟨e0, e1⟩, -⟩ := idx_facts t
  unfold iblk
  rw [View.read_apply]
  show V m c main_v86 _ = V m c main_v86 _
  congr 1
  funext a
  apply Fin.ext
  match a with
  | ⟨0, _⟩ => show win0_1.index t 0 * 64 + 1 * k.val = k.val; rw [e0]; omega
  | ⟨1, _⟩ => show win0_1.index t 1 * 64 + 1 * j.val = j.val; rw [e1]; omega

theorem iblk2_apply (c : Dev nD) (t : Fin cfg0.N) (j : Fin 64) :
    (iblk m c 2 t : Vec Ideal S1x64 .f32) (ix2 (0 : Fin 1) j) = (V m c main_v90 : S1x64.Idx → EReal) (ix2 (0 : Fin 1) j) := by
  obtain ⟨-, -, ⟨e0, e1⟩, -⟩ := idx_facts t
  unfold iblk
  rw [View.read_apply]
  show V m c main_v90 _ = V m c main_v90 _
  congr 1
  funext a
  apply Fin.ext
  match a with
  | ⟨0, _⟩ => show win0_2.index t 0 * 1 + 1 * 0 = 0; rw [e0]
  | ⟨1, _⟩ => show win0_2.index t 1 * 64 + 1 * j.val = j.val; rw [e1]; omega

theorem iblk3_apply (c : Dev nD) (t : Fin cfg0.N) (k : Fin 64) (q : Fin 8320) :
    (iblk m c 3 t : Vec Ideal S64x8320 .bf16) (ix2 k q) = (V m c main_v88 : S64x8320.Idx → EReal) (ix2 k q) := by
  obtain ⟨-, -, -, ⟨e0, e1⟩, -⟩ := idx_facts t
  unfold iblk
  rw [View.read_apply]
  show V m c main_v88 _ = V m c main_v88 _
  congr 1
  funext a
  apply Fin.ext
  match a with
  | ⟨0, _⟩ => show win0_3.index t 0 * 64 + 1 * k.val = k.val; rw [e0]; omega
  | ⟨1, _⟩ => show win0_3.index t 1 * 8320 + 1 * q.val = q.val; rw [e1]; omega

theorem iblk4_apply (c : Dev nD) (t : Fin cfg0.N) (q : Fin 8320) :
    (iblk m c 4 t : Vec Ideal S1x8320 .f32) (ix2 (0 : Fin 1) q) = (V m c main_v92 : S1x8320.Idx → EReal) (ix2 (0 : Fin 1) q) := by
  obtain ⟨-, -, -, -, ⟨e0, e1⟩, -⟩ := idx_facts t
  unfold iblk
  rw [View.read_apply]
  show V m c main_v92 _ = V m c main_v92 _
  congr 1
  funext a
  apply Fin.ext
  match a with
  | ⟨0, _⟩ => show win0_4.index t 0 * 1 + 1 * 0 = 0; rw [e0]
  | ⟨1, _⟩ => show win0_4.index t 1 * 8320 + 1 * q.val = q.val; rw [e1]; omega

theorem iblk5_apply (c : Dev nD) (t : Fin cfg0.N) (r : Fin 64) (l : Fin 200) (d : Fin 64) :
    (iblk m c 5 t : Vec Ideal S64x200x64 .bf16) (ix3 r l d) = (V m c main_v75 : S4096x200x64.Idx → EReal) (ix3 (rowOf t r) l d) := by
  obtain ⟨-, -, -, -, -, ⟨e0, e1, e2⟩, -⟩ := idx_facts t
  unfold iblk
  rw [View.read_apply]
  show V m c main_v75 _ = V m c main_v75 _
  congr 1
  funext a
  apply Fin.ext
  match a with
  | ⟨0, _⟩ => show win0_5.index t 0 * 64 + 1 * r.val = 64 * t.val + r.val; rw [e0]; omega
  | ⟨1, _⟩ => show win0_5.index t 1 * 200 + 1 * l.val = l.val; rw [e1]; omega
  | ⟨2, _⟩ => show win0_5.index t 2 * 64 + 1 * d.val = d.val; rw [e2]; omega

theorem iblk6_apply (c : Dev nD) (t : Fin cfg0.N) (r : Fin 64) (l : Fin 200) (d : Fin 64) :
    (iblk m c 6 t : Vec Ideal S64x200x64 .bf16) (ix3 r l d) = (V m c main_v82 : S4096x200x64.Idx → EReal) (ix3 (rowOf t r) l d) := by
  obtain ⟨-, -, -, -, -, -, ⟨e0, e1, e2⟩, -⟩ := idx_facts t
  unfold iblk
  rw [View.read_apply]
  show V m c main_v82 _ = V m c main_v82 _
  congr 1
  funext a
  apply Fin.ext
  match a with
  | ⟨0, _⟩ => show win0_6.index t 0 * 64 + 1 * r.val = 64 * t.val + r.val; rw [e0]; omega
  | ⟨1, _⟩ => show win0_6.index t 1 * 200 + 1 * l.val = l.val; rw [e1]; omega
  | ⟨2, _⟩ => show win0_6.index t 2 * 64 + 1 * d.val = d.val; rw [e2]; omega

theorem iblk7_apply (c : Dev nD) (t : Fin cfg0.N) (r : Fin 64) (l : Fin 200) :
    (iblk m c 7 t : Vec Ideal S64x200 .f32) (ix2 r l) = (V m c main_v83 : S4096x200.Idx → EReal) (ix2 (rowOf t r) l) := by
  obtain ⟨-, -, -, -, -, -, -, ⟨e0, e1⟩, -⟩ := idx_facts t
  unfold iblk
  rw [View.read_apply]
  show V m c main_v83 _ = V m c main_v83 _
  congr 1
  funext a
  apply Fin.ext
  match a with
  | ⟨0, _⟩ => show win0_7.index t 0 * 64 + 1 * r.val = 64 * t.val + r.val; rw [e0]; omega
  | ⟨1, _⟩ => show win0_7.index t 1 * 200 + 1 * l.val = l.val; rw [e1]; omega

theorem iblk8_apply (c : Dev nD) (t : Fin cfg0.N) (r : Fin 64) (l : Fin 200) :
    (iblk m c 8 t : Vec Ideal S64x200 .f32) (ix2 r l) = (V m c main_v84 : S4096x200.Idx → EReal) (ix2 (rowOf t r) l) := by
  obtain ⟨-, -, -, -, -, -, -, -, ⟨e0, e1⟩, -⟩ := idx_facts t
  unfold iblk
  rw [View.read_apply]
  show V m c main_v84 _ = V m c main_v84 _
  congr 1
  funext a
  apply Fin.ext
  match a with
  | ⟨0, _⟩ => show win0_8.index t 0 * 64 + 1 * r.val = 64 * t.val + r.val; rw [e0]; omega
  | ⟨1, _⟩ => show win0_8.index t 1 * 200 + 1 * l.val = l.val; rw [e1]; omega

/-! ## The three result arrays -/

/-- The hypernetwork's weight and bias as launched (no host line writes them). -/
abbrev genW (c : Dev nD) : WeightIdx → EReal := (m ((c : Thread nD τ).loc main_arg22) : S64x8384.Idx → EReal)
abbrev genB (c : Dev nD) : BiasIdx → EReal := (m ((c : Thread nD τ).loc main_arg23) : S8384.Idx → EReal)
/-- The gathered prompt-item rows the region is handed. -/
abbrev pitK (c : Dev nD) : RowsIdx → EReal := (V m c main_v67 : S4096x64.Idx → EReal)

/-- The prompt-embedding array. -/
def GEmbed (c : Dev nD) : S4096x64.Idx → EReal := fun i => hyper (pitK m c) (genW m c) (genB m c) (i 0) (colE (i 1))
/-- The two masked-sum arrays. -/
def GPos (c : Dev nD) : S4096x64.Idx → EReal := fun i =>
  pooled (pitK m c) (genW m c) (genB m c) (V m c main_v75 : S4096x200x64.Idx → EReal) (V m c main_v83 : S4096x200.Idx → EReal) (i 0) (i 1)
def GNeg (c : Dev nD) : S4096x64.Idx → EReal := fun i =>
  pooled (pitK m c) (genW m c) (genB m c) (V m c main_v82 : S4096x200x64.Idx → EReal) (V m c main_v84 : S4096x200.Idx → EReal) (i 0) (i 1)

/-- Row `r` of point `t`'s block of a result is batch row `rowOf t r` of the array. -/
theorem emb9 (t : Fin cfg0.N) (r j : Fin 64) : ((cfg0.win 9).blk t).view.emb (ix2 r j) = ix2 (rowOf t r) j := by
  obtain ⟨-, -, -, -, -, -, -, -, -, ⟨e0, e1⟩, -⟩ := idx_facts t
  funext a
  apply Fin.ext
  match a with
  | ⟨0, _⟩ => show win0_9.index t 0 * 64 + 1 * r.val = 64 * t.val + r.val; rw [e0]; omega
  | ⟨1, _⟩ => show win0_9.index t 1 * 64 + 1 * j.val = j.val; rw [e1]; omega
theorem emb10 (t : Fin cfg0.N) (r j : Fin 64) : ((cfg0.win 10).blk t).view.emb (ix2 r j) = ix2 (rowOf t r) j := by
  obtain ⟨-, -, -, -, -, -, -, -, -, -, ⟨e0, e1⟩, -⟩ := idx_facts t
  funext a
  apply Fin.ext
  match a with
  | ⟨0, _⟩ => show win0_10.index t 0 * 64 + 1 * r.val = 64 * t.val + r.val; rw [e0]; omega
  | ⟨1, _⟩ => show win0_10.index t 1 * 64 + 1 * j.val = j.val; rw [e1]; omega
theorem emb11 (t : Fin cfg0.N) (r j : Fin 64) : ((cfg0.win 11).blk t).view.emb (ix2 r j) = ix2 (rowOf t r) j := by
  obtain ⟨-, -, -, -, -, -, -, -, -, -, -, ⟨e0, e1⟩⟩ := idx_facts t
  funext a
  apply Fin.ext
  match a with
  | ⟨0, _⟩ => show win0_11.index t 0 * 64 + 1 * r.val = 64 * t.val + r.val; rw [e0]; omega
  | ⟨1, _⟩ => show win0_11.index t 1 * 64 + 1 * j.val = j.val; rw [e1]; omega

/-- What the block agreements are, for point `t` and block row `r`. -/
theorem agree0 (c : Dev nD) (t : Fin cfg0.N) (r : Fin 64) : ∀ k : Fin 64, (iblk m c 0 t : Vec Ideal S64x64 .bf16) (ix2 r k) = pitK m c (ix2 (rowOf t r) k) :=
  fun k => iblk0_apply m c t r k
theorem agree3 (c : Dev nD) (t : Fin cfg0.N) : ∀ (k : Fin 64) (q : Fin 8320), (iblk m c 3 t : Vec Ideal S64x8320 .bf16) (ix2 k q) = genW m c (ix2 k (shiftCol q)) :=
  fun k q => (iblk3_apply m c t k q).trans (entry_v88 m c k q _)
theorem agree4 (c : Dev nD) (t : Fin cfg0.N) : ∀ q : Fin 8320, (iblk m c 4 t : Vec Ideal S1x8320 .f32) (ix2 (0 : Fin 1) q) = genB m c (ix1 (shiftCol q)) :=
  fun q => (iblk4_apply m c t q).trans (entry_v92 m c q _)

/-- Point `t` writes back block `t` of the prompt-embedding array. -/
theorem flushed9_eq (c : Dev nD) (t : Fin cfg0.N) :
    (dats m 0 c).flushed 9 t = ((cfg0.win 9).blk t).view.read (Elt Ideal) (GEmbed m c) := by
  show (cfg0.win 9).cut (grid0.coords t) ((dats m 0 c).after 9 t) = _
  rw [after9]
  unfold outEmbed
  rw [View.canon_unit_zero hz2]
  simp only [View.ld_unit_zero (S := S64x64) hz2, View.ld_unit_zero (S := S1x64) hz2]
  funext y
  obtain ⟨r, j, rfl⟩ : ∃ (r j : Fin 64), y = ix2 r j := ⟨y 0, y 1, eq_ix2 y⟩
  rw [View.read_apply, emb9]
  exact embed_of_block (pitK m c) (genW m c) (genB m c) (rowOf t r) r (iblk m c 0 t) (agree0 m c t r) (iblk m c 1 t) (iblk m c 2 t)
    (fun k j => (iblk1_apply m c t k j).trans (entry_v86 m c k j _)) (fun j => (iblk2_apply m c t j).trans (entry_v90 m c j _)) j

/-- Point `t` writes back block `t` of the positive masked-sum array. -/
theorem flushed10_eq (c : Dev nD) (t : Fin cfg0.N) :
    (dats m 0 c).flushed 10 t = ((cfg0.win 10).blk t).view.read (Elt Ideal) (GPos m c) := by
  show (cfg0.win 10).cut (grid0.coords t) ((dats m 0 c).after 10 t) = _
  rw [after10]
  unfold outPooled1
  rw [View.canon_unit_zero hz2]
  simp only [View.ld_unit_zero (S := S64x64) hz2, View.ld_unit_zero (S := S64x8320) hz2, View.ld_unit_zero (S := S1x8320) hz2,
    View.ld_unit_zero (S := S64x200x64) hz3, View.ld_unit_zero (S := S64x200) hz2]
  funext y
  obtain ⟨r, p, rfl⟩ : ∃ (r p : Fin 64), y = ix2 r p := ⟨y 0, y 1, eq_ix2 y⟩
  rw [View.read_apply, emb10]
  exact pooled_of_block (pitK m c) (genW m c) (genB m c) (rowOf t r) r (iblk m c 0 t) (agree0 m c t r) (iblk m c 3 t) (iblk m c 4 t)
    (agree3 m c t) (agree4 m c t) _ _ (iblk m c 5 t) (iblk m c 7 t) (fun l d => iblk5_apply m c t r l d) (fun l => iblk7_apply m c t r l) p

/-- Point `t` writes back block `t` of the negative masked-sum array. -/
theorem flushed11_eq (c : Dev nD) (t : Fin cfg0.N) :
    (dats m 0 c).flushed 11 t = ((cfg0.win 11).blk t).view.read (Elt Ideal) (GNeg m c) := by
  show (cfg0.win 11).cut (grid0.coords t) ((dats m 0 c).after 11 t) = _
  rw [after11]
  unfold outPooled2
  rw [View.canon_unit_zero hz2]
  simp only [View.ld_unit_zero (S := S64x64) hz2, View.ld_unit_zero (S := S64x8320) hz2, View.ld_unit_zero (S := S1x8320) hz2,
    View.ld_unit_zero (S := S64x200x64) hz3, View.ld_unit_zero (S := S64x200) hz2]
  funext y
  obtain ⟨r, p, rfl⟩ : ∃ (r p : Fin 64), y = ix2 r p := ⟨y 0, y 1, eq_ix2 y⟩
  rw [View.read_apply, emb11]
  exact pooled_of_block' (pitK m c) (genW m c) (genB m c) (rowOf t r) r (iblk m c 0 t) (agree0 m c t r) (iblk m c 3 t) (iblk m c 4 t)
    (agree3 m c t) (agree4 m c t) _ _ (iblk m c 6 t) (iblk m c 8 t) (fun l d => iblk6_apply m c t r l d) (fun l => iblk8_apply m c t r l) p

/-! ## The blocks tile the rows -/

/-- An index of a result array is in point `t`'s block iff its row is one of the point's 64 rows. -/
theorem mem_blk9 (t : Fin cfg0.N) (i : S4096x64.Idx) :
    i ∈ ((cfg0.win 9).blk t).view.set ↔ ∀ a : Fin 2, win0_9.index t a * S64x64.size a ≤ (i a).val ∧ (i a).val < win0_9.index t a * S64x64.size a + S64x64.size a := by
  show i ∈ ((View.whole main_v93_0).slice (win0_9.rect t)).set ↔ _
  rw [View.set_slice_whole, Rect.mem_set_unit]
  exact Iff.rfl
theorem mem_blk10 (t : Fin cfg0.N) (i : S4096x64.Idx) :
    i ∈ ((cfg0.win 10).blk t).view.set ↔ ∀ a : Fin 2, win0_10.index t a * S64x64.size a ≤ (i a).val ∧ (i a).val < win0_10.index t a * S64x64.size a + S64x64.size a := by
  show i ∈ ((View.whole main_v93_1).slice (win0_10.rect t)).set ↔ _
  rw [View.set_slice_whole, Rect.mem_set_unit]
  exact Iff.rfl
theorem mem_blk11 (t : Fin cfg0.N) (i : S4096x64.Idx) :
    i ∈ ((cfg0.win 11).blk t).view.set ↔ ∀ a : Fin 2, win0_11.index t a * S64x64.size a ≤ (i a).val ∧ (i a).val < win0_11.index t a * S64x64.size a + S64x64.size a := by
  show i ∈ ((View.whole main_v93_2).slice (win0_11.rect t)).set ↔ _
  rw [View.set_slice_whole, Rect.mem_set_unit]
  exact Iff.rfl

/-- The point whose block holds batch row `b`: `b / 64`. -/
def pointOf (i : S4096x64.Idx) : Fin cfg0.N := ⟨(i 0).val / 64, by have h : (i 0).val < 4096 := (i 0).isLt; have hN : cfg0.N = 64 := N_0; omega⟩

theorem cover9 (i : S4096x64.Idx) : ∃ t : Fin cfg0.N, (cfg0.win 9).flush t = true ∧ i ∈ ((cfg0.win 9).blk t).view.set := by
  refine ⟨pointOf i, flush0_9 _, ?_⟩
  obtain ⟨-, -, -, -, -, -, -, -, -, ⟨e0, e1⟩, -⟩ := idx_facts (pointOf i)
  rw [mem_blk9]
  have h0 : (i 0).val < 4096 := (i 0).isLt
  have h1 : (i 1).val < 64 := (i 1).isLt
  intro a
  match a with
  | ⟨0, _⟩ => show win0_9.index (pointOf i) 0 * 64 ≤ (i 0).val ∧ (i 0).val < win0_9.index (pointOf i) 0 * 64 + 64; rw [e0]; show (i 0).val / 64 * 64 ≤ _ ∧ _ < (i 0).val / 64 * 64 + 64; omega
  | ⟨1, _⟩ => show win0_9.index (pointOf i) 1 * 64 ≤ (i 1).val ∧ (i 1).val < win0_9.index (pointOf i) 1 * 64 + 64; rw [e1]; omega
theorem cover10 (i : S4096x64.Idx) : ∃ t : Fin cfg0.N, (cfg0.win 10).flush t = true ∧ i ∈ ((cfg0.win 10).blk t).view.set := by
  refine ⟨pointOf i, flush0_10 _, ?_⟩
  obtain ⟨-, -, -, -, -, -, -, -, -, -, ⟨e0, e1⟩, -⟩ := idx_facts (pointOf i)
  rw [mem_blk10]
  have h0 : (i 0).val < 4096 := (i 0).isLt
  have h1 : (i 1).val < 64 := (i 1).isLt
  intro a
  match a with
  | ⟨0, _⟩ => show win0_10.index (pointOf i) 0 * 64 ≤ (i 0).val ∧ (i 0).val < win0_10.index (pointOf i) 0 * 64 + 64; rw [e0]; show (i 0).val / 64 * 64 ≤ _ ∧ _ < (i 0).val / 64 * 64 + 64; omega
  | ⟨1, _⟩ => show win0_10.index (pointOf i) 1 * 64 ≤ (i 1).val ∧ (i 1).val < win0_10.index (pointOf i) 1 * 64 + 64; rw [e1]; omega
theorem cover11 (i : S4096x64.Idx) : ∃ t : Fin cfg0.N, (cfg0.win 11).flush t = true ∧ i ∈ ((cfg0.win 11).blk t).view.set := by
  refine ⟨pointOf i, flush0_11 _, ?_⟩
  obtain ⟨-, -, -, -, -, -, -, -, -, -, -, ⟨e0, e1⟩⟩ := idx_facts (pointOf i)
  rw [mem_blk11]
  have h0 : (i 0).val < 4096 := (i 0).isLt
  have h1 : (i 1).val < 64 := (i 1).isLt
  intro a
  match a with
  | ⟨0, _⟩ => show win0_11.index (pointOf i) 0 * 64 ≤ (i 0).val ∧ (i 0).val < win0_11.index (pointOf i) 0 * 64 + 64; rw [e0]; show (i 0).val / 64 * 64 ≤ _ ∧ _ < (i 0).val / 64 * 64 + 64; omega
  | ⟨1, _⟩ => show win0_11.index (pointOf i) 1 * 64 ≤ (i 1).val ∧ (i 1).val < win0_11.index (pointOf i) 1 * 64 + 64; rw [e1]; omega

/-- After the region the three result arrays are the specification's functions. -/
theorem final9 (c : Dev nD) : (dats m 0 c).arrAt 9 cfg0.N = GEmbed m c :=
  (dats m 0 c).arrAt_eq_of_cover 9 (GEmbed m c) (fun t _ => flushed9_eq m c t) cover9
theorem final10 (c : Dev nD) : (dats m 0 c).arrAt 10 cfg0.N = GPos m c :=
  (dats m 0 c).arrAt_eq_of_cover 10 (GPos m c) (fun t _ => flushed10_eq m c t) cover10
theorem final11 (c : Dev nD) : (dats m 0 c).arrAt 11 cfg0.N = GNeg m c :=
  (dats m 0 c).arrAt_eq_of_cover 11 (GNeg m c) (fun t _ => flushed11_eq m c t) cover11

end Cert.KernelIdeal.Arr

end
-- ==== Proof.KernelIdealTailDefs.lean ====
/-
  The two host tails after the kernel region, as functions of the arrays they read.

  The loss is softplus of `-(f⁺ · n⁻ - f⁻ · n⁺)`, entry by entry, with the two counts broadcast along the 64 columns; softplus
  is written the way it is lowered: `max x 0 + log1p (exp (-|x|))`, guarded by a test `x ≠ x` that never fires on the extended
  reals. The output is, per batch row, the inner product of the user tower's vector with the relu of the fusion layer applied
  to the item tower's vector, the positive masked sum and the prompt embedding laid side by side.
-/
import proofs.«175546_j19585050870116_2_alg».proof.KernelIdeal

noncomputable section

namespace Cert.KernelIdeal.Tail

open Cert.KernelIdeal Idealize.ShloMosaic
open Facts₀ Facts

variable [Facts] {F : FTy → Type} [FloatOps F]

/-- The zero block the lowered softplus and relu compare against. -/
abbrev zeros : FVec F S4096x64 .f32 := broadcastInDim S4096x64 ![] bcast_S_S4096x64 (constant (F := F) S_ .f32 0x00000000#32)

/-- Softplus as lowered. -/
def softplus (x : FVec F S4096x64 .f32) : FVec F S4096x64 .f32 :=
  select (cmpf .une (subf x zeros) (subf x zeros)) (addf x zeros)
    (addf (maximumf x zeros) (Host.log1p (Host.exp (Host.negf (Host.absf (subf x zeros))))))

/-- The loss from the two masked sums `fp`, `fn` and the two counts `pn` (positive) and `nn` (negative). -/
def lossTail (fp fn : FVec F S4096x64 .f32) (pn nn : FVec F S4096x1 .f32) : FVec F S4096x64 .f32 :=
  softplus (Host.negf (subf (mulf fp (broadcastInDim S4096x64 ![0, 1] bcast_S4096x1_S4096x64_0_1 nn))
    (mulf fn (broadcastInDim S4096x64 ![0, 1] bcast_S4096x1_S4096x64_0_1 pn))))

/-- The output from the user tower `fu`, the item tower `fi`, the positive masked sum `fp`, the prompt embedding `pe` and
    the fusion weight `w`. -/
def outTail (fu fi fp pe : FVec F S4096x64 .f32) (w : FVec F S192x64 .f32) : FVec F S4096x1 .f32 :=
  broadcastInDim S4096x1 ![0] bcast_S4096_S4096x1_0
    (Host.reduceAdd
      (mulf fu (maximumf
        (Host.dotGeneral dot_S4096x192_S192x64_S4096x64_1_0_0_1_n_n none
          (concatenate S4096x192 1 [⟨S4096x64, fi⟩, ⟨S4096x64, fp⟩, ⟨S4096x64, pe⟩] concatenates_S4096x64_S4096x64_S4096x64_S4096x192_d1) w)
        zeros))
      (constant (F := F) S_ .f32 0x00000000#32) reducesTo_S4096x64_S4096_d1 h_S_)

/-- A count as the kernel program takes it: the mask summed along the sequence, as a column. -/
def countCol (v : FVec F S4096x200 .f32) : FVec F S4096x1 .f32 :=
  broadcastInDim S4096x1 ![0] bcast_S4096_S4096x1_0
    (Host.reduceAdd v (constant (F := F) S_ .f32 0x00000000#32) reducesTo_S4096x200_S4096_d1 h_S_)

end Cert.KernelIdeal.Tail

end
-- ==== Proof.KernelIdealResults.lean ====
/-
  The idealized kernel program's two results as functions of the arrays, at any float instance.

  After the region, the host lines read the three result arrays (what the region's proof data says they hold), the two
  mask arrays and the two towers' outputs (as the region found them: the region only reads them), and the fusion weight
  (an argument). Folding the lines gives the loss and the output as the two tail functions of those arrays.
-/
import proofs.«175546_j19585050870116_2_alg».proof.Proof.KernelIdealBody
import proofs.«175546_j19585050870116_2_alg».proof.Proof.KernelIdealTailDefs
import Idealize.ShloMosaic.Lib.StableHlo.Run

set_option maxRecDepth 16384

noncomputable section

namespace Cert.KernelIdeal.Results

open Cert.KernelIdeal Cert.KernelIdeal.Gen Cert.KernelIdeal.Around Cert.KernelIdeal.Tail
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- The fusion layer's input read at its buffer: the item tower, the positive masked sum and the prompt embedding side by
    side, each as the valuation holds it. -/
theorem concat3_result' (hxs hy) (G : Valuation τ sig (Elt F)) :
    (StableHlo.nary (τ := τ) ![main_v59, main_v93_1, main_v93_0] main_v105
        (fun u => concatenate S4096x192 1 [⟨S4096x64, u 0⟩, ⟨S4096x64, u 1⟩, ⟨S4096x64, u 2⟩] concatenates_S4096x64_S4096x64_S4096x64_S4096x192_d1) hxs hy).result G
        (no_index (Proc.devRef .tc main_v105))
      = concatenate S4096x192 1 [⟨S4096x64, G (Proc.devRef .tc main_v59)⟩, ⟨S4096x64, G (Proc.devRef .tc main_v93_1)⟩, ⟨S4096x64, G (Proc.devRef .tc main_v93_0)⟩]
          concatenates_S4096x64_S4096x64_S4096x64_S4096x192_d1 := by
  rw [StableHlo.nary_result]
  rfl

/-- Running two stretches of host lines one after the other. -/
theorem after_append (xs ys : List (HloOp τ sig (Elt F))) (G : Valuation τ sig (Elt F)) :
    StableHlo.after (xs ++ ys) G = StableHlo.after ys (StableHlo.after xs G) := by
  induction xs generalizing G with
  | nil => rfl
  | cons op ops ih => simp only [List.cons_append, StableHlo.after_cons, ih]

/-- What the lines after the region find at a result array of the region: what the proof data says it holds. -/
theorem found_out (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr spec0 launch0.win.arr_inj c _ _ w

/-- At an array the region only reads they find what the region found. -/
theorem found_in (c : Dev nD) (w : Fin cfg0.W) (hw : (cfg0.win w).isOut = false) :
    Pipeline.withArrays (cfgs 0).spec c (V0 m c) (fun w => (dats m 0 c).arrAt w (cfgs 0).N) (Proc.devRef .tc (Pipeline.arrRef spec0 w))
      = V m c (Pipeline.arrRef spec0 w) :=
  (found_out m c w).trans (((dats m 0 c).arrAt_in w hw _).trans (A_eq m c w))

/-- At any other buffer they find what the region found as well. -/
theorem found_rest (c : Dev nD) (b : Ref sig .tc) (hb : ∀ w, Pipeline.arrRef spec0 w ≠ b) :
    Pipeline.withArrays (cfgs 0).spec c (V0 m c) (fun w => (dats m 0 c).arrAt w (cfgs 0).N) (Proc.devRef .tc b) = V m c b :=
  Pipeline.withArrays_of_ne _ c (V0 m c) _ b hb

set_option maxHeartbeats 4000000 in
/-- The loss buffer after the lines that follow the region. -/
theorem tail_loss (c : Dev nD) : Pipeline.afterTail₀ cfgs (dats m) 0 (V0 m) suffixOps c main_v104
    = lossTail ((dats m 0 c).arrAt 10 cfg0.N) ((dats m 0 c).arrAt 11 cfg0.N) (countCol (V m c main_v83)) (countCol (V m c main_v84)) := by
  unfold Pipeline.afterTail₀
  simp only [suffixOps, hostOps1, hostOps1_1, hostOps1_2, hostOps1_3, hostOps1_4, List.flatten_cons, List.flatten_nil, List.append_nil, List.cons_append, List.nil_append]
  after_results_simp
  have e10 : (Pipeline.withArrays (cfgs 0).spec c (V0 m c) (fun w => (dats m 0 c).arrAt w (cfgs 0).N) (Proc.devRef .tc main_v93_1) : Buf (Elt F) ((c.tc : Thread nD τ).loc main_v93_1)) = (dats m 0 c).arrAt 10 cfg0.N := found_out m c 10
  have e11 : (Pipeline.withArrays (cfgs 0).spec c (V0 m c) (fun w => (dats m 0 c).arrAt w (cfgs 0).N) (Proc.devRef .tc main_v93_2) : Buf (Elt F) ((c.tc : Thread nD τ).loc main_v93_2)) = (dats m 0 c).arrAt 11 cfg0.N := found_out m c 11
  have e83 : (Pipeline.withArrays (cfgs 0).spec c (V0 m c) (fun w => (dats m 0 c).arrAt w (cfgs 0).N) (Proc.devRef .tc main_v83) : Buf (Elt F) ((c.tc : Thread nD τ).loc main_v83)) = V m c main_v83 := found_in m c 7 rfl
  have e84 : (Pipeline.withArrays (cfgs 0).spec c (V0 m c) (fun w => (dats m 0 c).arrAt w (cfgs 0).N) (Proc.devRef .tc main_v84) : Buf (Elt F) ((c.tc : Thread nD τ).loc main_v84)) = V m c main_v84 := found_in m c 8 rfl
  rw [e10, e11, e83, e84]
  rfl

set_option maxHeartbeats 4000000 in
/-- The output buffer after the lines that follow the region: the count and loss lines write none of the five buffers the
    fusion lines read, so those are read as the region left them. -/
theorem tail_out (c : Dev nD) : Pipeline.afterTail₀ cfgs (dats m) 0 (V0 m) suffixOps c main_v110
    = outTail (V m c main_v41) (V m c main_v59) ((dats m 0 c).arrAt 10 cfg0.N) ((dats m 0 c).arrAt 9 cfg0.N) (V m c main_arg24) := by
  unfold Pipeline.afterTail₀
  have hsplit : List.flatten (suffixOps (F := F)) = (hostOps1 ++ hostOps1_1) ++ (hostOps1_2 ++ (hostOps1_3 ++ hostOps1_4)) := by
    simp only [suffixOps, List.flatten_cons, List.flatten_nil, List.append_nil, List.append_assoc]
  rw [hsplit, after_append]
  have h59 : StableHlo.after (hostOps1 ++ hostOps1_1) (Pipeline.withArrays (cfgs 0).spec c (V0 m c) fun w => (dats m 0 c).arrAt w (cfgs 0).N) (Proc.devRef .tc main_v59) = V m c main_v59 :=
    (StableHlo.after_of_forall_not_mem (b := Proc.devRef .tc main_v59) _ _ (List.forall_iff_forall_mem.mp (by
      simp only [hostOps1, hostOps1_1, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide)))).trans (found_rest m c main_v59 (by decide))
  have h41 : StableHlo.after (hostOps1 ++ hostOps1_1) (Pipeline.withArrays (cfgs 0).spec c (V0 m c) fun w => (dats m 0 c).arrAt w (cfgs 0).N) (Proc.devRef .tc main_v41) = V m c main_v41 :=
    (StableHlo.after_of_forall_not_mem (b := Proc.devRef .tc main_v41) _ _ (List.forall_iff_forall_mem.mp (by
      simp only [hostOps1, hostOps1_1, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide)))).trans (found_rest m c main_v41 (by decide))
  have h24 : StableHlo.after (hostOps1 ++ hostOps1_1) (Pipeline.withArrays (cfgs 0).spec c (V0 m c) fun w => (dats m 0 c).arrAt w (cfgs 0).N) (Proc.devRef .tc main_arg24) = V m c main_arg24 :=
    (StableHlo.after_of_forall_not_mem (b := Proc.devRef .tc main_arg24) _ _ (List.forall_iff_forall_mem.mp (by
      simp only [hostOps1, hostOps1_1, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide)))).trans (found_rest m c main_arg24 (by decide))
  have h10 : StableHlo.after (hostOps1 ++ hostOps1_1) (Pipeline.withArrays (cfgs 0).spec c (V0 m c) fun w => (dats m 0 c).arrAt w (cfgs 0).N) (Proc.devRef .tc main_v93_1) = (dats m 0 c).arrAt 10 cfg0.N :=
    (StableHlo.after_of_forall_not_mem (b := Proc.devRef .tc main_v93_1) _ _ (List.forall_iff_forall_mem.mp (by
      simp only [hostOps1, hostOps1_1, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide)))).trans (found_out m c 10)
  have h9 : StableHlo.after (hostOps1 ++ hostOps1_1) (Pipeline.withArrays (cfgs 0).spec c (V0 m c) fun w => (dats m 0 c).arrAt w (cfgs 0).N) (Proc.devRef .tc main_v93_0) = (dats m 0 c).arrAt 9 cfg0.N :=
    (StableHlo.after_of_forall_not_mem (b := Proc.devRef .tc main_v93_0) _ _ (List.forall_iff_forall_mem.mp (by
      simp only [hostOps1, hostOps1_1, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide)))).trans (found_out m c 9)
  generalize StableHlo.after (hostOps1 ++ hostOps1_1) (Pipeline.withArrays (cfgs 0).spec c (V0 m c) fun w => (dats m 0 c).arrAt w (cfgs 0).N) = W1 at h59 h41 h24 h10 h9 ⊢
  simp only [hostOps1_2, hostOps1_3, hostOps1_4, List.cons_append, List.nil_append]
  simp (disch := decide) only [after_cons, after_nil,
    nullary_result', unary_result', binary_result', ternary_result', quaternary_result', reshape_result', concat3_result',
    unaryIndexed_result', binaryIndexed_result',
    nullary_result_ne', unary_result_ne', binary_result_ne', ternary_result_ne', quaternary_result_ne', reshape_result_ne',
    nary_result_ne', unaryIndexed_result_ne', binaryIndexed_result_ne']
  rw [h59, h41, h24, h10, h9]
  rfl

end Cert.KernelIdeal.Results

end
-- ==== Proof.KernelIdealTail.lean ====
/-
  The reference's last stages are the kernel program's host tails applied to the reference's own stages, and a mask
  count is the sum of the mask.

  The reference ends with the same operations as the kernel program's lines after its region: the loss
  `softplus (-(f⁺ · n⁻ - f⁻ · n⁺))` from its two pooled arrays and its two counts (the positive pooled array meets the
  negative count, the negative pooled array the positive count), and the score from its two towers, its positive pooled
  array and its prompt embedding. Each equality holds by the definitions of the stages. A count, read at the extended reals, is
  the reduce's initial value zero plus the sum of the mask over the sequence.
-/
import proofs.«175546_j19585050870116_2_alg».proof.Proof.KernelIdealTailDefs
import proofs.«175546_j19585050870116_2_alg».proof.Proof.Gen.ReferenceIdeal.Read
import proofs.«175546_j19585050870116_2_alg».proof.Proof.LibPromptBranch
import Idealize.ShloMosaic.PureOps.Ideal.Laws
import Idealize.ShloMosaic.Lib.ValueIdx
import Idealize.ShloMosaic.Lib.Pipeline.Value

noncomputable section

open scoped BigOperators

namespace Cert.KernelIdeal.Tail

open Cert.KernelIdeal Idealize.ShloMosaic Idealize.ShloMosaic.ValueIdx
open Facts₀ Facts
open Cert.ReferenceIdeal.Read (val_main_v41 val_main_v59 val_main_v72 val_main_v126 val_main_v127 val_main_v128 val_main_v129
  val_main_v136 val_main_v142)

variable [Facts]

/-- The reference's loss: the positive pooled array meets the negative count and the negative pooled array the positive
    count. -/
theorem ref_loss (x1 : (⟨Cert.ReferenceIdeal.S4096, .i32⟩ : BufTy).Contents (Elt Ideal)) (x6 x7 x8 x9 : (⟨Cert.ReferenceIdeal.S4096x200, .i32⟩ : BufTy).Contents (Elt Ideal))
    (x12 : (⟨Cert.ReferenceIdeal.S100000x64, .f32⟩ : BufTy).Contents (Elt Ideal)) (x13 : (⟨Cert.ReferenceIdeal.S200000x64, .f32⟩ : BufTy).Contents (Elt Ideal))
    (x22 : (⟨Cert.ReferenceIdeal.S64x8384, .f32⟩ : BufTy).Contents (Elt Ideal)) (x23 : (⟨Cert.ReferenceIdeal.S8384, .f32⟩ : BufTy).Contents (Elt Ideal)) :
    val_main_v136 (F := Ideal) x1 x6 x7 x8 x9 x12 x13 x22 x23
      = lossTail (F := Ideal) (val_main_v126 (F := Ideal) x1 x6 x7 x12 x13 x22 x23) (val_main_v127 (F := Ideal) x1 x8 x9 x12 x13 x22 x23)
          (val_main_v128 (F := Ideal) x7) (val_main_v129 (F := Ideal) x9) := rfl

/-- The reference's score. -/
theorem ref_out (x0 x1 : (⟨Cert.ReferenceIdeal.S4096, .i32⟩ : BufTy).Contents (Elt Ideal)) (x2 : (⟨Cert.ReferenceIdeal.S4096x50, .i32⟩ : BufTy).Contents (Elt Ideal)) (x3 : (⟨Cert.ReferenceIdeal.S4096, .i32⟩ : BufTy).Contents (Elt Ideal)) (x4 x5 : (⟨Cert.ReferenceIdeal.S4096x32, .f32⟩ : BufTy).Contents (Elt Ideal)) (x6 x7 : (⟨Cert.ReferenceIdeal.S4096x200, .i32⟩ : BufTy).Contents (Elt Ideal)) (x10 : (⟨Cert.ReferenceIdeal.S200000x64, .f32⟩ : BufTy).Contents (Elt Ideal)) (x11 x12 : (⟨Cert.ReferenceIdeal.S100000x64, .f32⟩ : BufTy).Contents (Elt Ideal)) (x13 : (⟨Cert.ReferenceIdeal.S200000x64, .f32⟩ : BufTy).Contents (Elt Ideal)) (x14 : (⟨Cert.ReferenceIdeal.S160x128, .f32⟩ : BufTy).Contents (Elt Ideal)) (x15 : (⟨Cert.ReferenceIdeal.S128, .f32⟩ : BufTy).Contents (Elt Ideal)) (x16 : (⟨Cert.ReferenceIdeal.S128x64, .f32⟩ : BufTy).Contents (Elt Ideal)) (x17 : (⟨Cert.ReferenceIdeal.S64, .f32⟩ : BufTy).Contents (Elt Ideal)) (x18 : (⟨Cert.ReferenceIdeal.S96x128, .f32⟩ : BufTy).Contents (Elt Ideal)) (x19 : (⟨Cert.ReferenceIdeal.S128, .f32⟩ : BufTy).Contents (Elt Ideal)) (x20 : (⟨Cert.ReferenceIdeal.S128x64, .f32⟩ : BufTy).Contents (Elt Ideal)) (x21 : (⟨Cert.ReferenceIdeal.S64, .f32⟩ : BufTy).Contents (Elt Ideal)) (x22 : (⟨Cert.ReferenceIdeal.S64x8384, .f32⟩ : BufTy).Contents (Elt Ideal)) (x23 : (⟨Cert.ReferenceIdeal.S8384, .f32⟩ : BufTy).Contents (Elt Ideal)) (x24 : (⟨Cert.ReferenceIdeal.S192x64, .f32⟩ : BufTy).Contents (Elt Ideal)) :
    val_main_v142 (F := Ideal) x0 x1 x2 x3 x4 x5 x6 x7 x10 x11 x12 x13 x14 x15 x16 x17 x18 x19 x20 x21 x22 x23 x24
      = outTail (F := Ideal) (val_main_v41 (F := Ideal) x0 x2 x3 x4 x10 x11 x14 x15 x16 x17) (val_main_v59 (F := Ideal) x1 x5 x11 x18 x19 x20 x21)
          (val_main_v126 (F := Ideal) x1 x6 x7 x12 x13 x22 x23) (val_main_v72 (F := Ideal) x1 x12 x22 x23) x24 := rfl

/-- The sum of a mask over the sequence from the constant zero, as a one-column matrix, is `count`. -/
theorem count_eq (v : FVec Ideal S4096x200 .f32) : countCol v = fun i => PromptBranch.count v (i 0) := by
  funext i
  unfold countCol
  refine (broadcastInDim_apply _ bcast_S4096_S4096x1_0 _ i (ix1 (i 0)) (fun a => match a with
    | ⟨0, _⟩ => by show (i 0).val = if (4096 : Nat) = 1 then 0 else (i 0).val; rw [if_neg (by decide)])).trans ?_
  simp only [Host.reduceAdd, Ideal.hostReduceAdd_def]
  rw [Ideal.hostReduceAdd_single reducesTo_S4096x200_S4096_d1 (by decide)]
  show Ideal.ofBits .f32 0x00000000#32 + _ = _
  rw [Ideal.ofBits_zero_f32, zero_add]
  unfold PromptBranch.count
  refine Finset.sum_congr rfl fun l _ => congrArg v (funext fun a => ?_)
  match a with
  | ⟨0, _⟩ => rfl
  | ⟨1, _⟩ => rfl

end Cert.KernelIdeal.Tail

end
-- ==== Proof.RefIsSpec.lean ====
/-
  The reference program computes the prompt branch of the specification.

  Read one entry at a time, the reference's stages are the functions of `PromptBranch`. The dense layer with its
  maximum against zero is `hyper`. Its first 64 columns are the prompt embedding. The remaining 8320 columns are cut
  into a 64×64 matrix (row-major), a bias, a second 64×64 matrix and a second bias: the row's private network. The
  positive and the negative branch each apply that network to their own gathered sequence (`hidden`, `out`), weight
  the result by their mask and add it up over the sequence (`pooled`); each mask added up over the sequence is
  `count`.

  Every lemma reads one stage at explicit coordinates. The only arithmetic is the row-major position of entry
  `(d, h)` of row `b`'s matrix, `(b * 64 + d) * 64 + h = b * 4096 + (d * 64 + h)` with `d * 64 + h < 4096`, the
  offsets of the five pieces (`64 + 4096 = 4160`, `64 + 4160 = 4224`, `64 + 8256 = 8320`), and `0 + s = s` for the
  initial value of each sum.
-/
import proofs.«175546_j19585050870116_2_alg».proof.Proof.Gen.ReferenceIdeal.Read
import proofs.«175546_j19585050870116_2_alg».proof.Proof.LibPromptBranch
import Idealize.ShloMosaic.Lib.ValueIdx
import Idealize.ShloMosaic.Lib.Pipeline.Value
import Idealize.ShloMosaic.PureOps.Ideal.Laws

noncomputable section

open scoped BigOperators

namespace Cert.ReferenceIdeal.Bridge

open Cert.ReferenceIdeal Cert.ReferenceIdeal.Read PromptBranch Idealize.ShloMosaic Idealize.ShloMosaic.ValueIdx

/-! ## The hypernetwork layer

The reference evaluates the whole layer at once: a product of the gathered prompt-item rows with the weight matrix,
the bias spread over the rows, and a maximum with the constant zero. Read at row `b`, column `q` this is `hyper b q`. -/

theorem lidx67_at (b : Fin 4096) (q : Fin 8384) (k : Fin 64) : lidx_main_v67 (ix2 b q) k = ix2 b k := by
  funext a; match a with | ⟨0, _⟩ => rfl | ⟨1, _⟩ => rfl

theorem ridx67_at (b : Fin 4096) (q : Fin 8384) (k : Fin 64) : ridx_main_v67 (ix2 b q) k = ix2 k q := by
  funext a; match a with | ⟨0, _⟩ => rfl | ⟨1, _⟩ => rfl

theorem idxBias_at (b : Fin 4096) (q : Fin 8384) : idx_main_v68 (idx_main_v69 (ix2 b q)) = ix1 q := by
  funext a; match a with | ⟨0, _⟩ => rfl

/-- The layer's output at row `b`, column `q`. -/
theorem total_at (x1 : (⟨S4096, .i32⟩ : BufTy).Contents (Elt Ideal)) (x12 : (⟨S100000x64, .f32⟩ : BufTy).Contents (Elt Ideal))
    (x22 : (⟨S64x8384, .f32⟩ : BufTy).Contents (Elt Ideal)) (x23 : (⟨S8384, .f32⟩ : BufTy).Contents (Elt Ideal))
    (b : Fin 4096) (q : Fin 8384) :
    val_main_v71 (F := Ideal) x1 x12 x22 x23 (ix2 b q) = hyper (val_main_v66 (F := Ideal) x1 x12) x22 x23 b q := by
  rw [val_main_v71_apply, val_main_v70_apply, val_main_v67_apply, val_main_v69_apply, val_main_v68_apply,
    val_main_call4_v0_apply, val_main_call4_cst_apply, idxBias_at, Ideal.maximumf_def, Ideal.addf_def, Ideal.ofBits_def,
    Ideal.ofBits_zero_f32]
  unfold PromptBranch.hyper
  refine congrArg (fun s => max (s + x23 (ix1 q)) 0) (Finset.sum_congr rfl fun k _ => ?_)
  rw [lidx67_at, ridx67_at]

/-! ## The prompt embedding: the layer's first 64 columns -/

theorem idx72_at (b : Fin 4096) (p : Fin 64) : idx_main_v72 (ix2 b p) = ix2 b (colE p) := by
  funext a; match a with | ⟨0, _⟩ => rfl | ⟨1, _⟩ => rfl

theorem ref_embed (x1 : (⟨S4096, .i32⟩ : BufTy).Contents (Elt Ideal)) (x12 : (⟨S100000x64, .f32⟩ : BufTy).Contents (Elt Ideal))
    (x22 : (⟨S64x8384, .f32⟩ : BufTy).Contents (Elt Ideal)) (x23 : (⟨S8384, .f32⟩ : BufTy).Contents (Elt Ideal)) :
    val_main_v72 (F := Ideal) x1 x12 x22 x23
      = fun i => hyper (val_main_v66 (F := Ideal) x1 x12) x22 x23 (i 0) (colE (i 1)) := by
  funext i
  obtain ⟨b, p, rfl⟩ : ∃ (b : Fin 4096) (p : Fin 64), i = ix2 b p := ⟨i 0, i 1, eq_ix2 i⟩
  rw [val_main_v72_apply, idx72_at, total_at]

/-! ## The positive branch: the row's private two-layer network on its gathered sequence

The four pieces of the row's hypernetwork output, read at coordinates. A matrix piece is a 4096-column slice reshaped
to 64 × 64 row-major: its entry `(d, h)` is the slice's column `d * 64 + h`. -/

theorem idxW1_pos (b : Fin 4096) (d h : Fin 64) :
    idx_main_v73 (idx_main_v85 (idx_main_v86 (ix3 b d h))) = ix2 b (colW1 d h) := by
  funext a
  have hb := b.isLt; have hd := d.isLt; have hh := h.isLt
  match a with
  | ⟨0, _⟩ => exact Fin.ext (show ((b.val * 64 + d.val) * 64 + h.val) / 4096 = b.val by omega)
  | ⟨1, _⟩ => exact Fin.ext (show 64 + ((b.val * 64 + d.val) * 64 + h.val) % 4096 = 64 + (d.val * 64 + h.val) by omega)

theorem w1_pos (x1 : (⟨S4096, .i32⟩ : BufTy).Contents (Elt Ideal)) (x12 : (⟨S100000x64, .f32⟩ : BufTy).Contents (Elt Ideal))
    (x22 : (⟨S64x8384, .f32⟩ : BufTy).Contents (Elt Ideal)) (x23 : (⟨S8384, .f32⟩ : BufTy).Contents (Elt Ideal))
    (b : Fin 4096) (d h : Fin 64) :
    val_main_v86 (F := Ideal) x1 x12 x22 x23 (ix3 b d h) = hyper (val_main_v66 (F := Ideal) x1 x12) x22 x23 b (colW1 d h) := by
  rw [val_main_v86_apply, val_main_v85_apply, val_main_v73_apply, idxW1_pos, total_at]

theorem idxB1_pos (b : Fin 4096) (l : Fin 200) (h : Fin 64) :
    idx_main_v73 (idx_main_v87 (idx_main_v92 (idx_main_v93 (ix3 b l h)))) = ix2 b (colB1 h) := by
  funext a
  have hh := h.isLt
  match a with
  | ⟨0, _⟩ => rfl
  | ⟨1, _⟩ => exact Fin.ext (show 64 + (4096 + h.val) = 4160 + h.val by omega)

theorem b1_pos (x1 : (⟨S4096, .i32⟩ : BufTy).Contents (Elt Ideal)) (x12 : (⟨S100000x64, .f32⟩ : BufTy).Contents (Elt Ideal))
    (x22 : (⟨S64x8384, .f32⟩ : BufTy).Contents (Elt Ideal)) (x23 : (⟨S8384, .f32⟩ : BufTy).Contents (Elt Ideal))
    (b : Fin 4096) (l : Fin 200) (h : Fin 64) :
    val_main_v93 (F := Ideal) x1 x12 x22 x23 (ix3 b l h) = hyper (val_main_v66 (F := Ideal) x1 x12) x22 x23 b (colB1 h) := by
  rw [val_main_v93_apply, val_main_v92_apply, val_main_v87_apply, val_main_v73_apply, idxB1_pos, total_at]

theorem idxW2_pos (b : Fin 4096) (h p : Fin 64) :
    idx_main_v73 (idx_main_v88 (idx_main_v89 (ix3 b h p))) = ix2 b (colW2 h p) := by
  funext a
  have hb := b.isLt; have hh := h.isLt; have hp := p.isLt
  match a with
  | ⟨0, _⟩ => exact Fin.ext (show ((b.val * 64 + h.val) * 64 + p.val) / 4096 = b.val by omega)
  | ⟨1, _⟩ => exact Fin.ext (show 64 + (4160 + ((b.val * 64 + h.val) * 64 + p.val) % 4096) = 4224 + (h.val * 64 + p.val) by omega)

theorem w2_pos (x1 : (⟨S4096, .i32⟩ : BufTy).Contents (Elt Ideal)) (x12 : (⟨S100000x64, .f32⟩ : BufTy).Contents (Elt Ideal))
    (x22 : (⟨S64x8384, .f32⟩ : BufTy).Contents (Elt Ideal)) (x23 : (⟨S8384, .f32⟩ : BufTy).Contents (Elt Ideal))
    (b : Fin 4096) (h p : Fin 64) :
    val_main_v89 (F := Ideal) x1 x12 x22 x23 (ix3 b h p) = hyper (val_main_v66 (F := Ideal) x1 x12) x22 x23 b (colW2 h p) := by
  rw [val_main_v89_apply, val_main_v88_apply, val_main_v73_apply, idxW2_pos, total_at]

theorem idxB2_pos (b : Fin 4096) (l : Fin 200) (p : Fin 64) :
    idx_main_v73 (idx_main_v90 (idx_main_v97 (idx_main_v98 (ix3 b l p)))) = ix2 b (colB2 p) := by
  funext a
  have hp := p.isLt
  match a with
  | ⟨0, _⟩ => rfl
  | ⟨1, _⟩ => exact Fin.ext (show 64 + (8256 + p.val) = 8320 + p.val by omega)

theorem b2_pos (x1 : (⟨S4096, .i32⟩ : BufTy).Contents (Elt Ideal)) (x12 : (⟨S100000x64, .f32⟩ : BufTy).Contents (Elt Ideal))
    (x22 : (⟨S64x8384, .f32⟩ : BufTy).Contents (Elt Ideal)) (x23 : (⟨S8384, .f32⟩ : BufTy).Contents (Elt Ideal))
    (b : Fin 4096) (l : Fin 200) (p : Fin 64) :
    val_main_v98 (F := Ideal) x1 x12 x22 x23 (ix3 b l p) = hyper (val_main_v66 (F := Ideal) x1 x12) x22 x23 b (colB2 p) := by
  rw [val_main_v98_apply, val_main_v97_apply, val_main_v90_apply, val_main_v73_apply, idxB2_pos, total_at]

/-! The first layer: a batched product over the embedding axis, the bias along the sequence, a maximum with zero. -/

theorem lidx1_pos (b : Fin 4096) (l : Fin 200) (h k : Fin 64) : lidx_main_v91 (ix3 b l h) k = ix3 b l k := by
  funext a; match a with | ⟨0, _⟩ => rfl | ⟨1, _⟩ => rfl | ⟨2, _⟩ => rfl

theorem ridx1_pos (b : Fin 4096) (l : Fin 200) (h k : Fin 64) : ridx_main_v91 (ix3 b l h) k = ix3 b k h := by
  funext a; match a with | ⟨0, _⟩ => rfl | ⟨1, _⟩ => rfl | ⟨2, _⟩ => rfl

theorem hidden_pos (x1 : (⟨S4096, .i32⟩ : BufTy).Contents (Elt Ideal)) (x6 : (⟨S4096x200, .i32⟩ : BufTy).Contents (Elt Ideal))
    (x12 : (⟨S100000x64, .f32⟩ : BufTy).Contents (Elt Ideal)) (x13 : (⟨S200000x64, .f32⟩ : BufTy).Contents (Elt Ideal))
    (x22 : (⟨S64x8384, .f32⟩ : BufTy).Contents (Elt Ideal)) (x23 : (⟨S8384, .f32⟩ : BufTy).Contents (Elt Ideal))
    (b : Fin 4096) (l : Fin 200) (h : Fin 64) :
    val_main_v95 (F := Ideal) x1 x6 x12 x13 x22 x23 (ix3 b l h)
      = hidden (val_main_v66 (F := Ideal) x1 x12) x22 x23 (val_main_v84 (F := Ideal) x6 x13) b l h := by
  rw [val_main_v95_apply, val_main_v94_apply, val_main_v91_apply, b1_pos, val_main_call5_v0_apply,
    val_main_call5_cst_apply, Ideal.maximumf_def, Ideal.addf_def, Ideal.ofBits_def, Ideal.ofBits_zero_f32]
  unfold PromptBranch.hidden
  refine congrArg (fun s => max (s + hyper (val_main_v66 (F := Ideal) x1 x12) x22 x23 b (colB1 h)) 0)
    (Finset.sum_congr rfl fun k _ => ?_)
  rw [lidx1_pos, ridx1_pos, w1_pos]

/-! The second layer: the same without the maximum. -/

theorem lidx2_pos (b : Fin 4096) (l : Fin 200) (p k : Fin 64) : lidx_main_v96 (ix3 b l p) k = ix3 b l k := by
  funext a; match a with | ⟨0, _⟩ => rfl | ⟨1, _⟩ => rfl | ⟨2, _⟩ => rfl

theorem ridx2_pos (b : Fin 4096) (l : Fin 200) (p k : Fin 64) : ridx_main_v96 (ix3 b l p) k = ix3 b k p := by
  funext a; match a with | ⟨0, _⟩ => rfl | ⟨1, _⟩ => rfl | ⟨2, _⟩ => rfl

theorem out_pos (x1 : (⟨S4096, .i32⟩ : BufTy).Contents (Elt Ideal)) (x6 : (⟨S4096x200, .i32⟩ : BufTy).Contents (Elt Ideal))
    (x12 : (⟨S100000x64, .f32⟩ : BufTy).Contents (Elt Ideal)) (x13 : (⟨S200000x64, .f32⟩ : BufTy).Contents (Elt Ideal))
    (x22 : (⟨S64x8384, .f32⟩ : BufTy).Contents (Elt Ideal)) (x23 : (⟨S8384, .f32⟩ : BufTy).Contents (Elt Ideal))
    (b : Fin 4096) (l : Fin 200) (p : Fin 64) :
    val_main_v99 (F := Ideal) x1 x6 x12 x13 x22 x23 (ix3 b l p)
      = out (val_main_v66 (F := Ideal) x1 x12) x22 x23 (val_main_v84 (F := Ideal) x6 x13) b l p := by
  rw [val_main_v99_apply, val_main_v96_apply, b2_pos, Ideal.addf_def]
  unfold PromptBranch.out
  refine congrArg (fun s => s + hyper (val_main_v66 (F := Ideal) x1 x12) x22 x23 b (colB2 p))
    (Finset.sum_congr rfl fun k _ => ?_)
  rw [lidx2_pos, ridx2_pos, hidden_pos, w2_pos]

/-! The mask, spread over the 64 output units, and the sum over the sequence from the constant zero. -/

theorem idxMask_pos (b : Fin 4096) (l : Fin 200) (p : Fin 64) :
    idx_main_v75 (idx_main_v100 (ix3 b l p)) = ix2 b l := by
  funext a; match a with | ⟨0, _⟩ => rfl | ⟨1, _⟩ => rfl

theorem mask_pos (x7 : (⟨S4096x200, .i32⟩ : BufTy).Contents (Elt Ideal))
    (b : Fin 4096) (l : Fin 200) (p : Fin 64) :
    val_main_v100 (F := Ideal) x7 (ix3 b l p) = val_main_v74 (F := Ideal) x7 (ix2 b l) := by
  rw [val_main_v100_apply, val_main_v75_apply, idxMask_pos]

theorem idxSeq_pos (b : Fin 4096) (p : Fin 64) (l : Fin 200) : idx_main_v126 (ix2 b p) l = ix3 b l p := by
  funext a; match a with | ⟨0, _⟩ => rfl | ⟨1, _⟩ => rfl | ⟨2, _⟩ => rfl

theorem ref_pooled_pos (x1 : (⟨S4096, .i32⟩ : BufTy).Contents (Elt Ideal)) (x6 : (⟨S4096x200, .i32⟩ : BufTy).Contents (Elt Ideal)) (x7 : (⟨S4096x200, .i32⟩ : BufTy).Contents (Elt Ideal))
    (x12 : (⟨S100000x64, .f32⟩ : BufTy).Contents (Elt Ideal)) (x13 : (⟨S200000x64, .f32⟩ : BufTy).Contents (Elt Ideal))
    (x22 : (⟨S64x8384, .f32⟩ : BufTy).Contents (Elt Ideal)) (x23 : (⟨S8384, .f32⟩ : BufTy).Contents (Elt Ideal)) :
    val_main_v126 (F := Ideal) x1 x6 x7 x12 x13 x22 x23
      = fun i => pooled (val_main_v66 (F := Ideal) x1 x12) x22 x23 (val_main_v84 (F := Ideal) x6 x13) (val_main_v74 (F := Ideal) x7) (i 0) (i 1) := by
  funext i
  obtain ⟨b, p, rfl⟩ : ∃ (b : Fin 4096) (p : Fin 64), i = ix2 b p := ⟨i 0, i 1, eq_ix2 i⟩
  rw [val_main_v126_apply, val_main_cst_12_apply, Ideal.ofBits_def, Ideal.ofBits_zero_f32, zero_add]
  show _ = pooled (val_main_v66 (F := Ideal) x1 x12) x22 x23 (val_main_v84 (F := Ideal) x6 x13) (val_main_v74 (F := Ideal) x7) b p
  unfold PromptBranch.pooled
  refine Finset.sum_congr rfl fun l _ => ?_
  rw [idxSeq_pos, val_main_v101_apply, Ideal.mulf_def, out_pos, mask_pos]

/-! The number of unmasked positions: the mask summed over the sequence from the constant zero. -/

theorem idxCount_pos (i : S4096x1.Idx) (l : Fin 200) : idx_main_v75 (idx_main_v128 i l) = ix2 (i 0) l := by
  funext a; match a with | ⟨0, _⟩ => rfl | ⟨1, _⟩ => rfl

theorem ref_count_pos (x7 : (⟨S4096x200, .i32⟩ : BufTy).Contents (Elt Ideal)) :
    val_main_v128 (F := Ideal) x7 = fun i => count (val_main_v74 (F := Ideal) x7) (i 0) := by
  funext i
  rw [val_main_v128_apply, val_main_cst_14_apply, Ideal.ofBits_def, Ideal.ofBits_zero_f32, zero_add]
  show _ = count (val_main_v74 (F := Ideal) x7) (i 0)
  unfold PromptBranch.count
  refine Finset.sum_congr rfl fun l _ => ?_
  rw [val_main_v75_apply, idxCount_pos]
  rfl

/-! ## The negative branch: the row's private two-layer network on its gathered sequence

The four pieces of the row's hypernetwork output, read at coordinates. A matrix piece is a 4096-column slice reshaped
to 64 × 64 row-major: its entry `(d, h)` is the slice's column `d * 64 + h`. -/

theorem idxW1_neg (b : Fin 4096) (d h : Fin 64) :
    idx_main_v73 (idx_main_v109 (idx_main_v110 (ix3 b d h))) = ix2 b (colW1 d h) := by
  funext a
  have hb := b.isLt; have hd := d.isLt; have hh := h.isLt
  match a with
  | ⟨0, _⟩ => exact Fin.ext (show ((b.val * 64 + d.val) * 64 + h.val) / 4096 = b.val by omega)
  | ⟨1, _⟩ => exact Fin.ext (show 64 + ((b.val * 64 + d.val) * 64 + h.val) % 4096 = 64 + (d.val * 64 + h.val) by omega)

theorem w1_neg (x1 : (⟨S4096, .i32⟩ : BufTy).Contents (Elt Ideal)) (x12 : (⟨S100000x64, .f32⟩ : BufTy).Contents (Elt Ideal))
    (x22 : (⟨S64x8384, .f32⟩ : BufTy).Contents (Elt Ideal)) (x23 : (⟨S8384, .f32⟩ : BufTy).Contents (Elt Ideal))
    (b : Fin 4096) (d h : Fin 64) :
    val_main_v110 (F := Ideal) x1 x12 x22 x23 (ix3 b d h) = hyper (val_main_v66 (F := Ideal) x1 x12) x22 x23 b (colW1 d h) := by
  rw [val_main_v110_apply, val_main_v109_apply, val_main_v73_apply, idxW1_neg, total_at]

theorem idxB1_neg (b : Fin 4096) (l : Fin 200) (h : Fin 64) :
    idx_main_v73 (idx_main_v111 (idx_main_v116 (idx_main_v117 (ix3 b l h)))) = ix2 b (colB1 h) := by
  funext a
  have hh := h.isLt
  match a with
  | ⟨0, _⟩ => rfl
  | ⟨1, _⟩ => exact Fin.ext (show 64 + (4096 + h.val) = 4160 + h.val by omega)

theorem b1_neg (x1 : (⟨S4096, .i32⟩ : BufTy).Contents (Elt Ideal)) (x12 : (⟨S100000x64, .f32⟩ : BufTy).Contents (Elt Ideal))
    (x22 : (⟨S64x8384, .f32⟩ : BufTy).Contents (Elt Ideal)) (x23 : (⟨S8384, .f32⟩ : BufTy).Contents (Elt Ideal))
    (b : Fin 4096) (l : Fin 200) (h : Fin 64) :
    val_main_v117 (F := Ideal) x1 x12 x22 x23 (ix3 b l h) = hyper (val_main_v66 (F := Ideal) x1 x12) x22 x23 b (colB1 h) := by
  rw [val_main_v117_apply, val_main_v116_apply, val_main_v111_apply, val_main_v73_apply, idxB1_neg, total_at]

theorem idxW2_neg (b : Fin 4096) (h p : Fin 64) :
    idx_main_v73 (idx_main_v112 (idx_main_v113 (ix3 b h p))) = ix2 b (colW2 h p) := by
  funext a
  have hb := b.isLt; have hh := h.isLt; have hp := p.isLt
  match a with
  | ⟨0, _⟩ => exact Fin.ext (show ((b.val * 64 + h.val) * 64 + p.val) / 4096 = b.val by omega)
  | ⟨1, _⟩ => exact Fin.ext (show 64 + (4160 + ((b.val * 64 + h.val) * 64 + p.val) % 4096) = 4224 + (h.val * 64 + p.val) by omega)

theorem w2_neg (x1 : (⟨S4096, .i32⟩ : BufTy).Contents (Elt Ideal)) (x12 : (⟨S100000x64, .f32⟩ : BufTy).Contents (Elt Ideal))
    (x22 : (⟨S64x8384, .f32⟩ : BufTy).Contents (Elt Ideal)) (x23 : (⟨S8384, .f32⟩ : BufTy).Contents (Elt Ideal))
    (b : Fin 4096) (h p : Fin 64) :
    val_main_v113 (F := Ideal) x1 x12 x22 x23 (ix3 b h p) = hyper (val_main_v66 (F := Ideal) x1 x12) x22 x23 b (colW2 h p) := by
  rw [val_main_v113_apply, val_main_v112_apply, val_main_v73_apply, idxW2_neg, total_at]

theorem idxB2_neg (b : Fin 4096) (l : Fin 200) (p : Fin 64) :
    idx_main_v73 (idx_main_v114 (idx_main_v121 (idx_main_v122 (ix3 b l p)))) = ix2 b (colB2 p) := by
  funext a
  have hp := p.isLt
  match a with
  | ⟨0, _⟩ => rfl
  | ⟨1, _⟩ => exact Fin.ext (show 64 + (8256 + p.val) = 8320 + p.val by omega)

theorem b2_neg (x1 : (⟨S4096, .i32⟩ : BufTy).Contents (Elt Ideal)) (x12 : (⟨S100000x64, .f32⟩ : BufTy).Contents (Elt Ideal))
    (x22 : (⟨S64x8384, .f32⟩ : BufTy).Contents (Elt Ideal)) (x23 : (⟨S8384, .f32⟩ : BufTy).Contents (Elt Ideal))
    (b : Fin 4096) (l : Fin 200) (p : Fin 64) :
    val_main_v122 (F := Ideal) x1 x12 x22 x23 (ix3 b l p) = hyper (val_main_v66 (F := Ideal) x1 x12) x22 x23 b (colB2 p) := by
  rw [val_main_v122_apply, val_main_v121_apply, val_main_v114_apply, val_main_v73_apply, idxB2_neg, total_at]

/-! The first layer: a batched product over the embedding axis, the bias along the sequence, a maximum with zero. -/

theorem lidx1_neg (b : Fin 4096) (l : Fin 200) (h k : Fin 64) : lidx_main_v115 (ix3 b l h) k = ix3 b l k := by
  funext a; match a with | ⟨0, _⟩ => rfl | ⟨1, _⟩ => rfl | ⟨2, _⟩ => rfl

theorem ridx1_neg (b : Fin 4096) (l : Fin 200) (h k : Fin 64) : ridx_main_v115 (ix3 b l h) k = ix3 b k h := by
  funext a; match a with | ⟨0, _⟩ => rfl | ⟨1, _⟩ => rfl | ⟨2, _⟩ => rfl

theorem hidden_neg (x1 : (⟨S4096, .i32⟩ : BufTy).Contents (Elt Ideal)) (x8 : (⟨S4096x200, .i32⟩ : BufTy).Contents (Elt Ideal))
    (x12 : (⟨S100000x64, .f32⟩ : BufTy).Contents (Elt Ideal)) (x13 : (⟨S200000x64, .f32⟩ : BufTy).Contents (Elt Ideal))
    (x22 : (⟨S64x8384, .f32⟩ : BufTy).Contents (Elt Ideal)) (x23 : (⟨S8384, .f32⟩ : BufTy).Contents (Elt Ideal))
    (b : Fin 4096) (l : Fin 200) (h : Fin 64) :
    val_main_v119 (F := Ideal) x1 x8 x12 x13 x22 x23 (ix3 b l h)
      = hidden (val_main_v66 (F := Ideal) x1 x12) x22 x23 (val_main_v108 (F := Ideal) x8 x13) b l h := by
  rw [val_main_v119_apply, val_main_v118_apply, val_main_v115_apply, b1_neg, val_main_call6_v0_apply,
    val_main_call6_cst_apply, Ideal.maximumf_def, Ideal.addf_def, Ideal.ofBits_def, Ideal.ofBits_zero_f32]
  unfold PromptBranch.hidden
  refine congrArg (fun s => max (s + hyper (val_main_v66 (F := Ideal) x1 x12) x22 x23 b (colB1 h)) 0)
    (Finset.sum_congr rfl fun k _ => ?_)
  rw [lidx1_neg, ridx1_neg, w1_neg]

/-! The second layer: the same without the maximum. -/

theorem lidx2_neg (b : Fin 4096) (l : Fin 200) (p k : Fin 64) : lidx_main_v120 (ix3 b l p) k = ix3 b l k := by
  funext a; match a with | ⟨0, _⟩ => rfl | ⟨1, _⟩ => rfl | ⟨2, _⟩ => rfl

theorem ridx2_neg (b : Fin 4096) (l : Fin 200) (p k : Fin 64) : ridx_main_v120 (ix3 b l p) k = ix3 b k p := by
  funext a; match a with | ⟨0, _⟩ => rfl | ⟨1, _⟩ => rfl | ⟨2, _⟩ => rfl

theorem out_neg (x1 : (⟨S4096, .i32⟩ : BufTy).Contents (Elt Ideal)) (x8 : (⟨S4096x200, .i32⟩ : BufTy).Contents (Elt Ideal))
    (x12 : (⟨S100000x64, .f32⟩ : BufTy).Contents (Elt Ideal)) (x13 : (⟨S200000x64, .f32⟩ : BufTy).Contents (Elt Ideal))
    (x22 : (⟨S64x8384, .f32⟩ : BufTy).Contents (Elt Ideal)) (x23 : (⟨S8384, .f32⟩ : BufTy).Contents (Elt Ideal))
    (b : Fin 4096) (l : Fin 200) (p : Fin 64) :
    val_main_v123 (F := Ideal) x1 x8 x12 x13 x22 x23 (ix3 b l p)
      = out (val_main_v66 (F := Ideal) x1 x12) x22 x23 (val_main_v108 (F := Ideal) x8 x13) b l p := by
  rw [val_main_v123_apply, val_main_v120_apply, b2_neg, Ideal.addf_def]
  unfold PromptBranch.out
  refine congrArg (fun s => s + hyper (val_main_v66 (F := Ideal) x1 x12) x22 x23 b (colB2 p))
    (Finset.sum_congr rfl fun k _ => ?_)
  rw [lidx2_neg, ridx2_neg, hidden_neg, w2_neg]

/-! The mask, spread over the 64 output units, and the sum over the sequence from the constant zero. -/

theorem idxMask_neg (b : Fin 4096) (l : Fin 200) (p : Fin 64) :
    idx_main_v77 (idx_main_v124 (ix3 b l p)) = ix2 b l := by
  funext a; match a with | ⟨0, _⟩ => rfl | ⟨1, _⟩ => rfl

theorem mask_neg (x9 : (⟨S4096x200, .i32⟩ : BufTy).Contents (Elt Ideal))
    (b : Fin 4096) (l : Fin 200) (p : Fin 64) :
    val_main_v124 (F := Ideal) x9 (ix3 b l p) = val_main_v76 (F := Ideal) x9 (ix2 b l) := by
  rw [val_main_v124_apply, val_main_v77_apply, idxMask_neg]

theorem idxSeq_neg (b : Fin 4096) (p : Fin 64) (l : Fin 200) : idx_main_v127 (ix2 b p) l = ix3 b l p := by
  funext a; match a with | ⟨0, _⟩ => rfl | ⟨1, _⟩ => rfl | ⟨2, _⟩ => rfl

theorem ref_pooled_neg (x1 : (⟨S4096, .i32⟩ : BufTy).Contents (Elt Ideal)) (x8 : (⟨S4096x200, .i32⟩ : BufTy).Contents (Elt Ideal)) (x9 : (⟨S4096x200, .i32⟩ : BufTy).Contents (Elt Ideal))
    (x12 : (⟨S100000x64, .f32⟩ : BufTy).Contents (Elt Ideal)) (x13 : (⟨S200000x64, .f32⟩ : BufTy).Contents (Elt Ideal))
    (x22 : (⟨S64x8384, .f32⟩ : BufTy).Contents (Elt Ideal)) (x23 : (⟨S8384, .f32⟩ : BufTy).Contents (Elt Ideal)) :
    val_main_v127 (F := Ideal) x1 x8 x9 x12 x13 x22 x23
      = fun i => pooled (val_main_v66 (F := Ideal) x1 x12) x22 x23 (val_main_v108 (F := Ideal) x8 x13) (val_main_v76 (F := Ideal) x9) (i 0) (i 1) := by
  funext i
  obtain ⟨b, p, rfl⟩ : ∃ (b : Fin 4096) (p : Fin 64), i = ix2 b p := ⟨i 0, i 1, eq_ix2 i⟩
  rw [val_main_v127_apply, val_main_cst_13_apply, Ideal.ofBits_def, Ideal.ofBits_zero_f32, zero_add]
  show _ = pooled (val_main_v66 (F := Ideal) x1 x12) x22 x23 (val_main_v108 (F := Ideal) x8 x13) (val_main_v76 (F := Ideal) x9) b p
  unfold PromptBranch.pooled
  refine Finset.sum_congr rfl fun l _ => ?_
  rw [idxSeq_neg, val_main_v125_apply, Ideal.mulf_def, out_neg, mask_neg]

/-! The number of unmasked positions: the mask summed over the sequence from the constant zero. -/

theorem idxCount_neg (i : S4096x1.Idx) (l : Fin 200) : idx_main_v77 (idx_main_v129 i l) = ix2 (i 0) l := by
  funext a; match a with | ⟨0, _⟩ => rfl | ⟨1, _⟩ => rfl

theorem ref_count_neg (x9 : (⟨S4096x200, .i32⟩ : BufTy).Contents (Elt Ideal)) :
    val_main_v129 (F := Ideal) x9 = fun i => count (val_main_v76 (F := Ideal) x9) (i 0) := by
  funext i
  rw [val_main_v129_apply, val_main_cst_15_apply, Ideal.ofBits_def, Ideal.ofBits_zero_f32, zero_add]
  show _ = count (val_main_v76 (F := Ideal) x9) (i 0)
  unfold PromptBranch.count
  refine Finset.sum_congr rfl fun l _ => ?_
  rw [val_main_v77_apply, idxCount_neg]
  rfl

end Cert.ReferenceIdeal.Bridge

end
-- ==== Proof.KernelIdealFinal.lean ====
/-
  The idealized kernel program computes the reference's two results.

  Putting the pieces together on the extended reals: the lines before the region hand it exactly the arrays the reference
  computes (the towers, the gathered rows, the masks; the weight and bias pieces are columns of the arguments); the region
  fills the three result arrays with the specification's prompt embedding and masked sums of those arrays, which are the
  reference's stages of the same names; and the lines after the region apply the same two tails. So each result buffer
  ends holding the reference's composed stage function evaluated at this program's own argument arrays.
-/
import proofs.«175546_j19585050870116_2_alg».proof.Proof.KernelIdealArray
import proofs.«175546_j19585050870116_2_alg».proof.Proof.KernelIdealResults
import proofs.«175546_j19585050870116_2_alg».proof.Proof.KernelIdealTail
import proofs.«175546_j19585050870116_2_alg».proof.Proof.RefIsSpec

set_option maxRecDepth 16384

noncomputable section

namespace Cert.KernelIdeal.Final

open Cert.KernelIdeal Cert.KernelIdeal.Gen Cert.KernelIdeal.Around Cert.KernelIdeal.Entry Cert.KernelIdeal.Arr Cert.KernelIdeal.Results Cert.KernelIdeal.Tail
open Cert.ReferenceIdeal.Bridge PromptBranch
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The output: the reference's last stage at this program's argument arrays. -/
def outVal (c : Dev nD) : Buf (Elt Ideal) ((c.tc : Thread nD τ).loc main_v110) :=
  Cert.ReferenceIdeal.Read.val_main_v142 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
/-- The loss likewise. -/
def lossVal (c : Dev nD) : Buf (Elt Ideal) ((c.tc : Thread nD τ).loc main_v104) :=
  Cert.ReferenceIdeal.Read.val_main_v136 (F := Ideal) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg22)) (m ((c.tc : Thread nD τ).loc main_arg23))

/-- The region's positive masked sum is the reference's stage. -/
theorem gpos_eq (c : Dev nD) : GPos m c = Cert.ReferenceIdeal.Read.val_main_v126 (F := Ideal) (m ((c.tc : Thread nD τ).loc main_arg1)) (m ((c.tc : Thread nD τ).loc main_arg6)) (m ((c.tc : Thread nD τ).loc main_arg7)) (m ((c.tc : Thread nD τ).loc main_arg12)) (m ((c.tc : Thread nD τ).loc main_arg13)) (m ((c.tc : Thread nD τ).loc main_arg22)) (m ((c.tc : Thread nD τ).loc main_arg23)) := by
  rw [ref_pooled_pos]
  unfold GPos
  dsimp only [pitK, genW, genB]
  rw [entry_v67, entry_v75, entry_v83]
/-- The negative one. -/
theorem gneg_eq (c : Dev nD) : GNeg m c = Cert.ReferenceIdeal.Read.val_main_v127 (F := Ideal) (m ((c.tc : Thread nD τ).loc main_arg1)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg22)) (m ((c.tc : Thread nD τ).loc main_arg23)) := by
  rw [ref_pooled_neg]
  unfold GNeg
  dsimp only [pitK, genW, genB]
  rw [entry_v67, entry_v82, entry_v84]
/-- The prompt embedding. -/
theorem gembed_eq (c : Dev nD) : GEmbed m c = Cert.ReferenceIdeal.Read.val_main_v72 (F := Ideal) (m ((c.tc : Thread nD τ).loc main_arg1)) (m ((c.tc : Thread nD τ).loc main_arg12)) (m ((c.tc : Thread nD τ).loc main_arg22)) (m ((c.tc : Thread nD τ).loc main_arg23)) := by
  rw [ref_embed]
  unfold GEmbed
  dsimp only [pitK, genW, genB]
  rw [entry_v67]
/-- The two counts. -/
theorem cpos_eq (c : Dev nD) : countCol (F := Ideal) (V m c main_v83) = (Cert.ReferenceIdeal.Read.val_main_v128 (F := Ideal) (m ((c.tc : Thread nD τ).loc main_arg7)) : FVec Ideal S4096x1 .f32) := by
  rw [ref_count_pos, count_eq, entry_v83]
theorem cneg_eq (c : Dev nD) : countCol (F := Ideal) (V m c main_v84) = (Cert.ReferenceIdeal.Read.val_main_v129 (F := Ideal) (m ((c.tc : Thread nD τ).loc main_arg9)) : FVec Ideal S4096x1 .f32) := by
  rw [ref_count_neg, count_eq, entry_v84]

/-- The output buffer ends at `outVal`. -/
theorem kernel_out (c : Dev nD) : Pipeline.afterTail₀ cfgs (dats m) 0 (V0 m) suffixOps c main_v110 = outVal m c := by
  rw [tail_out, entry_v41, entry_v59, final10, final9, V_main_arg24, gpos_eq, gembed_eq]
  unfold outVal
  rw [ref_out]
/-- The loss buffer ends at `lossVal`. -/
theorem kernel_loss (c : Dev nD) : Pipeline.afterTail₀ cfgs (dats m) 0 (V0 m) suffixOps c main_v104 = lossVal m c := by
  rw [tail_loss, final10, final11, gpos_eq, gneg_eq, cpos_eq, cneg_eq]
  unfold lossVal
  rw [ref_loss]

/-- The value run: every weakly fair execution terminates, the two result buffers at the reference's functions of the
    arguments, the arguments unchanged. -/
theorem run : θ_run defs (onTc (τ := τ) (main (F := Ideal))) ⟨m, fun _ => 0, ρ⟩ (fun r => ∀ c : Dev nD,
      r.2.mem ((c.tc : Thread nD τ).loc main_v110) = outVal m c
      ∧ r.2.mem ((c.tc : Thread nD τ).loc main_v104) = lossVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨((h c).2 main_v110 (Pipeline.mem_restRefs_of main_v110 (by decide) (by decide))).trans (kernel_out m c),
      ((h c).2 main_v104 (Pipeline.mem_restRefs_of main_v104 (by decide) (by decide))).trans (kernel_loss m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c),
      ((h c).2 main_arg21 (Pipeline.mem_restRefs_of main_arg21 (by decide) (by decide))).trans (W_main_arg21 m (dats m) c),
      ((h c).2 main_arg22 (Pipeline.mem_restRefs_of main_arg22 (by decide) (by decide))).trans (W_main_arg22 m (dats m) c),
      ((h c).2 main_arg23 (Pipeline.mem_restRefs_of main_arg23 (by decide) (by decide))).trans (W_main_arg23 m (dats m) c),
      ((h c).2 main_arg24 (Pipeline.mem_restRefs_of main_arg24 (by decide) (by decide))).trans (W_main_arg24 m (dats m) c)⟩) (run_main m ρ)

end Cert.KernelIdeal.Final

end
-- ==== Proof.lean ====
/-
  A hypernetwork-generated per-sample two-layer network with masked sum pooling, as one gridded kernel, against its
  plain reference, on the extended reals.

  Both programs compute, for each of 4096 batch rows, the two towers of a two-tower model, a hypernetwork layer
  `relu (pit · W + β)` whose 8384 outputs are read as a 64-entry prompt embedding and as the weights and biases of a
  two-layer network private to the row, that network applied to 200 gathered user embeddings and summed under a 0/1 mask
  (twice: positive and negative feedback), and from these a softplus loss and a fused output. The kernel program evaluates
  the hypernetwork layer and the private networks inside one kernel over 64 blocks of 64 rows, in lower-precision formats,
  and spreads the private biases along the sequence by a product with a column of ones; the reference does it all with
  whole-array operations. On the extended reals a change of format is the identity, a product with a column of ones is the
  bias itself, and both programs' sums are the same finite sums, so the results agree entry by entry: no finiteness of the
  inputs is needed for the equality.

  The three frames: each kernel program is host lines, one region, host lines; the body of the region is run once, at a
  generic grid point, and no line writes an argument. The reference's frame is its generated run with the results dropped.
  Nothing was rewritten in passing to the idealized kernel, so the preservation claim is trivial.
-/
import proofs.«175546_j19585050870116_2_alg».proof.Defs
import proofs.«175546_j19585050870116_2_alg».proof.Proof.Gen.Kernel
import proofs.«175546_j19585050870116_2_alg».proof.Proof.Gen.KernelIdeal
import proofs.«175546_j19585050870116_2_alg».proof.Proof.Gen.ReferenceIdeal
import proofs.«175546_j19585050870116_2_alg».proof.Proof.Gen.ReferenceIdeal.Run
import proofs.«175546_j19585050870116_2_alg».proof.Proof.Gen.ReferenceIdeal.Read
import proofs.«175546_j19585050870116_2_alg».proof.Proof.Gen.Pre_finite_inputs
import proofs.«175546_j19585050870116_2_alg».proof.Proof.KernelBody
import proofs.«175546_j19585050870116_2_alg».proof.Proof.KernelIdealFinal
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_kernel : Cert.frame_Kernel := fun m ρ _ => Cert.Kernel.Around.frame m ρ

/-- So does its idealization. -/
theorem frame_kernelIdeal : Cert.frame_KernelIdeal := fun m ρ _ => Cert.KernelIdeal.Around.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing was rewritten in idealizing the kernel. -/
theorem preserves : Cert.preserves_Kernel_KernelIdeal := trivial

/-- Both idealized programs end with each result at the reference's composed stage function of the arguments: the kernel
    program by its value run, the reference by its generated run; the arguments agree. -/
theorem algebraic : Cert.algebraic_KernelIdeal_ReferenceIdeal := by
  intro m ρ m' ρ' _ hagree
  refine ⟨fun c => Cert.KernelIdeal.Final.outVal m c, fun c => Cert.KernelIdeal.Final.lossVal m c, Cert.KernelIdeal.Final.run m ρ, ?_⟩
  refine (θ_run Cert.ReferenceIdeal.defs _ _).mono (fun _ h c => ?_) (Cert.ReferenceIdeal.Value.run (F := Ideal) m' ρ')
  obtain ⟨h142, h136, hargs⟩ := h c
  obtain ⟨e0, e1, e2, e3, e4, e5, e6, e7, e8, e9, e10, e11, e12, e13, e14, e15, e16, e17, e18, e19, e20, e21, e22, e23, e24⟩ := hagree c
  refine ⟨h142.trans ?_, h136.trans ?_, hargs⟩
  · rw [Cert.ReferenceIdeal.Read.val_main_v142_eq, e0, e1, e2, e3, e4, e5, e6, e7, e10, e11, e12, e13, e14, e15, e16, e17, e18, e19, e20, e21, e22, e23, e24]
    rfl
  · rw [Cert.ReferenceIdeal.Read.val_main_v136_eq, e1, e6, e7, e8, e9, e12, e13, e22, e23]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
